-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S4096x4096 : Shape := ⟨2, ![4096, 4096]⟩
abbrev S32x16x8208 : Shape := ⟨3, ![32, 16, 8208]⟩
abbrev S32x8192x128 : Shape := ⟨3, ![32, 8192, 128]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x16x8208 : S_.BroadcastsInDim S32x16x8208 (![] : Fin 0 → Fin S32x16x8208.rank)
  reducesTo_S32x16x8208_S_d0_1_2 : S32x16x8208.ReducesTo [0, 1, 2] S_
  bcast_S_S32x8192x128 : S_.BroadcastsInDim S32x8192x128 (![] : Fin 0 → Fin S32x8192x128.rank)
  reducesTo_S32x8192x128_S_d0_1_2 : S32x8192x128.ReducesTo [0, 1, 2] S_

variable [Facts]

def fn_part1 {F : FTy → Type} [FloatOps F] (main_arg4 : FVec F S32x16x8208 .f32) (main_arg5 : FVec F S32x8192x128 .f32) (main_arg6 : FVec F S32x8192x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S32x16x8208 .f32 := Host.absf main_arg4
  let main_cst_6 : FVec F S_ .f32 := constant S_ .f32 0x7F800000#32
  let main_v20 : FVec F S32x16x8208 .f32 := broadcastInDim S32x16x8208 ![] bcast_S_S32x16x8208 main_cst_6
  let main_v21 : IVec S32x16x8208 1 := cmpf .olt main_v19 main_v20
  let main_c_7 : IVec S_ 1 := constantI S_ 1 1#1
  let main_v22 : IVec S_ 1 := (fun x v => Host.reduce IntOp.andi x v reducesTo_S32x16x8208_S_d0_1_2 h_S_) main_v21 main_c_7
  let main_v23 : IVec S_ 1 := andi main_v18 main_v22
  let main_v24 : FVec F S32x8192x128 .f32 := Host.absf main_arg5
  let main_cst_8 : FVec F S_ .f32 := constant S_ .f32 0x7F800000#32
  let main_v25 : FVec F S32x8192x128 .f32 := broadcastInDim S32x8192x128 ![] bcast_S_S32x8192x128 main_cst_8
  let main_v26 : IVec S32x8192x128 1 := cmpf .olt main_v24 main_v25
  let main_c_9 : IVec S_ 1 := constantI S_ 1 1#1
  let main_v27 : IVec S_ 1 := (fun x v => Host.reduce IntOp.andi x v reducesTo_S32x8192x128_S_d0_1_2 h_S_) main_v26 main_c_9
  let main_v28 : IVec S_ 1 := andi main_v23 main_v27
  let main_v29 : FVec F S32x8192x128 .f32 := Host.absf main_arg6
  let main_cst_10 : FVec F S_ .f32 := constant S_ .f32 0x7F800000#32
  let main_v30 : FVec F S32x8192x128 .f32 := broadcastInDim S32x8192x128 ![] bcast_S_S32x8192x128 main_cst_10
  let main_v31 : IVec S32x8192x128 1 := cmpf .olt main_v29 main_v30
  let main_c_11 : IVec S_ 1 := constantI S_ 1 1#1
  let main_v32 : IVec S_ 1 := (fun x v => Host.reduce IntOp.andi x v reducesTo_S32x8192x128_S_d0_1_2 h_S_) main_v31 main_c_11
  let main_v33 : IVec S_ 1 := andi main_v28 main_v32
  main_v33

def fn {F : FTy → Type} [FloatOps F] (main_arg0 : FVec F S16x4096 .f32) (main_arg1 : FVec F S4096x4096 .f32) (main_arg2 : FVec F S4096x4096 .f32) (main_arg3 : FVec F S4096x4096 .f32) (main_arg4 : FVec F S32x16x8208 .f32) (main_arg5 : FVec F S32x8192x128 .f32) (main_arg6 : FVec F S32x8192x128 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S16x4096 : Shape := ⟨2, ![16, 4096]⟩
abbrev S4096x4096 : Shape := ⟨2, ![4096, 4096]⟩
abbrev S32x16x8208 : Shape := ⟨3, ![32, 16, 8208]⟩
abbrev S32x8192x128 : Shape := ⟨3, ![32, 8192, 128]⟩
abbrev S16x512 : Shape := ⟨2, ![16, 512]⟩
abbrev S512x1024 : Shape := ⟨2, ![512, 1024]⟩
abbrev S16x1024 : Shape := ⟨2, ![16, 1024]⟩
abbrev S16x128 : Shape := ⟨2, ![16, 128]⟩
abbrev S1x8192x128 : Shape := ⟨3, ![1, 8192, 128]⟩
abbrev S1x16x8208 : Shape := ⟨3, ![1, 16, 8208]⟩
abbrev S8192x128 : Shape := ⟨2, ![8192, 128]⟩
abbrev S16x8208 : Shape := ⟨2, ![16, 8208]⟩
abbrev S16x8192 : Shape := ⟨2, ![16, 8192]⟩
abbrev S16x16 : Shape := ⟨2, ![16, 16]⟩
abbrev S16 : Shape := ⟨1, ![16]⟩
abbrev S16x1 : Shape := ⟨2, ![16, 1]⟩
abbrev S1x16x8192 : Shape := ⟨3, ![1, 16, 8192]⟩
abbrev S1x16x16 : Shape := ⟨3, ![1, 16, 16]⟩

abbrev nBuf : Space → Nat
  | .hbm => 12
  | .vmem => 33
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x16x8208, .f32⟩
  | .hbm, ⟨5, _⟩ => ⟨S32x8192x128, .f32⟩
  | .hbm, ⟨6, _⟩ => ⟨S32x8192x128, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S16x4096, .f32⟩
  | .hbm, ⟨11, _⟩ => ⟨S32x16x8208, .f32⟩
  | .local _ .vmem, ⟨0, _⟩ => ⟨S16x512, .f32⟩
  | .local _ .vmem, ⟨1, _⟩ => ⟨S16x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x128, .f32⟩
  | .local _ .vmem, ⟨18, _⟩ => ⟨S16x128, .f32⟩
  | .local _ .vmem, ⟨19, _⟩ => ⟨S16x128, .f32⟩
  | .local _ .vmem, ⟨20, _⟩ => ⟨S16x128, .f32⟩
  | .local _ .vmem, ⟨21, _⟩ => ⟨S16x128, .f32⟩
  | .local _ .vmem, ⟨22, _⟩ => ⟨S16x128, .f32⟩
  | .local _ .vmem, ⟨23, _⟩ => ⟨S1x8192x128, .f32⟩
  | .local _ .vmem, ⟨24, _⟩ => ⟨S1x8192x128, .f32⟩
  | .local _ .vmem, ⟨25, _⟩ => ⟨S1x8192x128, .f32⟩
  | .local _ .vmem, ⟨26, _⟩ => ⟨S1x8192x128, .f32⟩
  | .local _ .vmem, ⟨27, _⟩ => ⟨S1x16x8208, .f32⟩
  | .local _ .vmem, ⟨28, _⟩ => ⟨S1x16x8208, .f32⟩
  | .local _ .vmem, ⟨29, _⟩ => ⟨S16x128, .f32⟩
  | .local _ .vmem, ⟨30, _⟩ => ⟨S16x128, .f32⟩
  | .local _ .vmem, ⟨31, _⟩ => ⟨S1x16x8208, .f32⟩
  | .local _ .vmem, ⟨32, _⟩ => ⟨S1x16x8208, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_22 : BitVec 32 := 0#32
  let v31 : BitVec 1 := Scalar.cmpi .ne v30 c0_i32_22
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16x8208 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x16x8208 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x512_S16x512_0_0 : ∀ a, (![0, 0] : Fin 2 → Nat) a + S16x512.size a ≤ S16x512.size a
  h_S16x512 : 0 < S16x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x16x8208_S1x16x8208_0_0_0 : ∀ a, (![0, 0, 0] : Fin 3 → Nat) a + S1x16x8208.size a ≤ S1x16x8208.size a
  h_S1x16x8208 : 0 < S1x16x8208.numel
  shapeCasts_S1x16x8208_S16x8208 : S1x16x8208.ShapeCasts S16x8208
  slices_S16x8208_o0_0_S16x8192 : S16x8208.Slices ![0, 0] S16x8192
  slices_S16x8208_o0_8192_S16x16 : S16x8208.Slices ![0, 8192] S16x16
  reduces_S16x8192_S16 : S16x8192.Reduces [1] S16
  shapeCasts_S16_S16x1 : S16.ShapeCasts S16x1
  reduces_S16x16_S16 : S16x16.Reduces [1] S16
  broadcasts_S16x1_S16x8192 : S16x1.Broadcasts S16x8192
  broadcasts_S16x1_S16x16 : S16x1.Broadcasts S16x16
  broadcasts_S16x1_S16x128 : S16x1.Broadcasts S16x128
  inb_S1x16x8208_S1x16x8192_0_0_0 : ∀ a, (![0, 0, 0] : Fin 3 → Nat) a + S1x16x8192.size a ≤ S1x16x8208.size a
  h_S1x16x8192 : 0 < S1x16x8192.numel
  shapeCasts_S1x16x8192_S16x8192 : S1x16x8192.ShapeCasts S16x8192
  shapeCasts_S16x8192_S1x16x8192 : S16x8192.ShapeCasts S1x16x8192
  inb_S1x16x8208_S1x16x16_0_0_8192 : ∀ a, (![0, 0, 8192] : Fin 3 → Nat) a + S1x16x16.size a ≤ S1x16x8208.size a
  h_S1x16x16 : 0 < S1x16x16.numel
  shapeCasts_S1x16x16_S16x16 : S1x16x16.ShapeCasts S16x16
  shapeCasts_S16x16_S1x16x16 : S16x16.ShapeCasts S1x16x16
  dot_S16x512_S512x1024_S16x1024_1_0_0_1_n_n_wf : DotDims.WF S16x512 S512x1024 S16x1024 [1] [0] [0] [1] [] []
  dot_S16x128_S8192x128_S16x8192_1_1_0_0_n_n_wf : DotDims.WF S16x128 S8192x128 S16x8192 [1] [1] [0] [0] [] []
  dot_S16x128_S16x128_S16x16_1_1_0_0_n_n_wf : DotDims.WF S16x128 S16x128 S16x16 [1] [1] [0] [0] [] []
  dot_S16x8192_S8192x128_S16x128_1_0_0_1_n_n_wf : DotDims.WF S16x8192 S8192x128 S16x128 [1] [0] [0] [1] [] []
  dot_S16x16_S16x128_S16x128_1_0_0_1_n_n_wf : DotDims.WF S16x16 S16x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S16x4096.size a
  hwx0_0 : ∀ i : grid0.Coords, EltTy.bits .f32 = 32 ∨ (Rect.block (s := S16x4096) S16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .f32 = 32 ∨ (Rect.block (s := S16x4096) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S16x4096.size a
  hwx0_5 : ∀ i : grid0.Coords, EltTy.bits .f32 = 32 ∨ (Rect.block (s := S16x4096) S16x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x1024.size a ≤ S16x4096.size a
  hwx0_6 : ∀ i : grid0.Coords, EltTy.bits .f32 = 32 ∨ (Rect.block (s := S16x4096) S16x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128.size a ≤ S16x4096.size a
  hwx1_0 : ∀ i : grid1.Coords, EltTy.bits .f32 = 32 ∨ (Rect.block (s := S16x4096) S16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x4096.size a
  hwx1_1 : ∀ i : grid1.Coords, EltTy.bits .f32 = 32 ∨ (Rect.block (s := S16x4096) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x4096.size a
  hwx1_2 : ∀ i : grid1.Coords, EltTy.bits .f32 = 32 ∨ (Rect.block (s := S16x4096) S16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192x128.size a ≤ S32x8192x128.size a
  hwx1_3 : ∀ i : grid1.Coords, EltTy.bits .f32 = 32 ∨ (Rect.block (s := S32x8192x128) S1x8192x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8192x128.size a ≤ S32x8192x128.size a
  hwx1_4 : ∀ i : grid1.Coords, EltTy.bits .f32 = 32 ∨ (Rect.block (s := S32x8192x128) S1x8192x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x8208.size a ≤ S32x16x8208.size a
  hwx1_5 : ∀ i : grid1.Coords, EltTy.bits .f32 = 32 ∨ (Rect.block (s := S32x16x8208) S1x16x8208.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x128.size a ≤ S16x4096.size a
  hwx1_6 : ∀ i : grid1.Coords, EltTy.bits .f32 = 32 ∨ (Rect.block (s := S16x4096) S16x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x16x8208.size a ≤ S32x16x8208.size a
  hwx1_7 : ∀ i : grid1.Coords, EltTy.bits .f32 = 32 ∨ (Rect.block (s := S32x16x8208) S1x16x8208.size (cc1_transform_7 i) (hinb1_7 i)).WholeWords (EltTy.packing .f32)

variable [Facts₀]

def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S16x128_S8192x128_S16x8192_1_1_0_0_n_n : DotDims S16x128 S8192x128 S16x8192 where
  lhsContracting := [1]
  rhsContracting := [1]
  lhsNonContracting := [0]
  rhsNonContracting := [0]
  lhsBatch := []
  rhsBatch := []
  wf := dot_S16x128_S8192x128_S16x8192_1_1_0_0_n_n_wf
def dot_S16x128_S16x128_S16x16_1_1_0_0_n_n : DotDims S16x128 S16x128 S16x16 where
  lhsContracting := [1]
  rhsContracting := [1]
  lhsNonContracting := [0]
  rhsNonContracting := [0]
  lhsBatch := []
  rhsBatch := []
  wf := dot_S16x128_S16x128_S16x16_1_1_0_0_n_n_wf
def dot_S16x8192_S8192x128_S16x128_1_0_0_1_n_n : DotDims S16x8192 S8192x128 S16x128 where
  lhsContracting := [1]
  rhsContracting := [0]
  lhsNonContracting := [0]
  rhsNonContracting := [1]
  lhsBatch := []
  rhsBatch := []
  wf := dot_S16x8192_S8192x128_S16x128_1_0_0_1_n_n_wf
def dot_S16x16_S16x128_S16x128_1_0_0_1_n_n : DotDims S16x16 S16x128 S16x128 where
  lhsContracting := [1]
  rhsContracting := [0]
  lhsNonContracting := [0]
  rhsNonContracting := [1]
  lhsBatch := []
  rhsBatch := []
  wf := dot_S16x16_S16x128_S16x128_1_0_0_1_n_n_wf

abbrev win0_0 : Pipeline.Window sig grid0 :=
  Pipeline.Window.ofSpec (Memref.whole main_arg0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S16x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S16x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S16x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v0_0) S16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x8192x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1x8192x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S1x16x8208.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_0) S16x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_1) S1x16x8208.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16x4096 : Shape := ⟨2, ![16, 4096]⟩
abbrev S4096x4096 : Shape := ⟨2, ![4096, 4096]⟩
abbrev S32x16x8208 : Shape := ⟨3, ![32, 16, 8208]⟩
abbrev S32x8192x128 : Shape := ⟨3, ![32, 8192, 128]⟩
abbrev S16x32x128 : Shape := ⟨3, ![16, 32, 128]⟩
abbrev S32x16x128 : Shape := ⟨3, ![32, 16, 128]⟩
abbrev S32x8208x128 : Shape := ⟨3, ![32, 8208, 128]⟩
abbrev S_ : Shape := ⟨0, ![]⟩
abbrev S32x16 : Shape := ⟨2, ![32, 16]⟩
abbrev S32x16x1 : Shape := ⟨3, ![32, 16, 1]⟩

abbrev nBuf : Space → Nat
  | .hbm => 54
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x16x8208, .f32⟩
  | .hbm, ⟨5, _⟩ => ⟨S32x8192x128, .f32⟩
  | .hbm, ⟨6, _⟩ => ⟨S32x8192x128, .f32⟩
  | .hbm, ⟨7, _⟩ => ⟨S16x4096, .f32⟩
  | .hbm, ⟨8, _⟩ => ⟨S16x32x128, .f32⟩
  | .hbm, ⟨9, _⟩ => ⟨S32x16x128, .f32⟩
  | .hbm, ⟨10, _⟩ => ⟨S16x4096, .f32⟩
  | .hbm, ⟨11, _⟩ => ⟨S16x32x128, .f32⟩
  | .hbm, ⟨12, _⟩ => ⟨S32x16x128, .f32⟩
  | .hbm, ⟨13, _⟩ => ⟨S16x4096, .f32⟩
  | .hbm, ⟨14, _⟩ => ⟨S16x32x128, .f32⟩
  | .hbm, ⟨15, _⟩ => ⟨S32x16x128, .f32⟩
  | .hbm, ⟨16, _⟩ => ⟨S32x8208x128, .f32⟩
  | .hbm, ⟨17, _⟩ => ⟨S32x8208x128, .f32⟩
  | .hbm, ⟨18, _⟩ => ⟨S32x16x8208, .f32⟩
  | .hbm, ⟨19, _⟩ => ⟨S32x16x8208, .f32⟩
  | .hbm, ⟨20, _⟩ => ⟨S_, .f32⟩
  | .hbm, ⟨21, _⟩ => ⟨S32x16x8208, .f32⟩
  | .hbm, ⟨22, _⟩ => ⟨S32x16x8208, .f32⟩
  | .hbm, ⟨23, _⟩ => ⟨S_, .f32⟩
  | .hbm, ⟨24, _⟩ => ⟨S32x16, .f32⟩
  | .hbm, ⟨25, _⟩ => ⟨S_, .f32⟩
  | .hbm, ⟨26, _⟩ => ⟨S32x16, .f32⟩
  | .hbm, ⟨27, _⟩ => ⟨S32x16, .f32⟩
  | .hbm, ⟨28, _⟩ => ⟨S32x16x1, .f32⟩
  | .hbm, ⟨29, _⟩ => ⟨S32x16x8208, .f32⟩
  | .hbm, ⟨30, _⟩ => ⟨S32x16x8208, .f32⟩
  | .hbm, ⟨31, _⟩ => ⟨S32x16x8208, .f32⟩
  | .hbm, ⟨32, _⟩ => ⟨S_, .f32⟩
  | .hbm, ⟨33, _⟩ => ⟨S32x16, .f32⟩
  | .hbm, ⟨34, _⟩ => ⟨S32x16x1, .f32⟩
  | .hbm, ⟨35, _⟩ => ⟨S32x16x8208, .f32⟩
  | .hbm, ⟨36, _⟩ => ⟨S32x16x8208, .f32⟩
  | .hbm, ⟨37, _⟩ => ⟨S_, .f32⟩
  | .hbm, ⟨38, _⟩ => ⟨S32x16, .f32⟩
  | .hbm, ⟨39, _⟩ => ⟨S_, .f32⟩
  | .hbm, ⟨40, _⟩ => ⟨S32x16, .f32⟩
  | .hbm, ⟨41, _⟩ => ⟨S32x16, .f32⟩
  | .hbm, ⟨42, _⟩ => ⟨S32x16x1, .f32⟩
  | .hbm, ⟨43, _⟩ => ⟨S32x16x8208, .f32⟩
  | .hbm, ⟨44, _⟩ => ⟨S32x16x8208, .f32⟩
  | .hbm, ⟨45, _⟩ => ⟨S32x16x8208, .f32⟩
  | .hbm, ⟨46, _⟩ => ⟨S_, .f32⟩
  | .hbm, ⟨47, _⟩ => ⟨S32x16, .f32⟩
  | .hbm, ⟨48, _⟩ => ⟨S32x16x1, .f32⟩
  | .hbm, ⟨49, _⟩ => ⟨S32x16x8208, .f32⟩
  | .hbm, ⟨50, _⟩ => ⟨S32x16x8208, .f32⟩
  | .hbm, ⟨51, _⟩ => ⟨S32x16x128, .f32⟩
  | .hbm, ⟨52, _⟩ => ⟨S16x32x128, .f32⟩
  | .hbm, ⟨53, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  shapeCasts_S16x4096_S16x32x128 : S16x4096.ShapeCasts S16x32x128
  transposes_S16x32x128_S32x16x128_1_0_2 : S16x32x128.Transposes [1, 0, 2] S32x16x128
  concatenates_S32x8192x128_S32x16x128_S32x8208x128_d1 : Shape.Concatenates [S32x8192x128, S32x16x128] S32x8208x128 1
  bcast_S_S32x16x8208 : S_.BroadcastsInDim S32x16x8208 (![] : Fin 0 → Fin S32x16x8208.rank)
  reducesTo_S32x16x8208_S32x16_d2 : S32x16x8208.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x8208_0_1_2 : S32x16x1.BroadcastsInDim S32x16x8208 (![0, 1, 2] : Fin 3 → Fin S32x16x8208.rank)
  transposes_S32x16x128_S16x32x128_1_0_2 : S32x16x128.Transposes [1, 0, 2] S16x32x128
  shapeCasts_S16x32x128_S16x4096 : S16x32x128.ShapeCasts S16x4096
  dot_S16x4096_S4096x4096_S16x4096_1_0_0_1_n_n_wf : DotDims.WF S16x4096 S4096x4096 S16x4096 [1] [0] [0] [1] [] []
  dot_S32x16x128_S32x8208x128_S32x16x8208_2_2_1_1_0_0_wf : DotDims.WF S32x16x128 S32x8208x128 S32x16x8208 [2] [2] [1] [1] [0] [0]
  dot_S32x16x8208_S32x8208x128_S32x16x128_2_1_1_2_0_0_wf : DotDims.WF S32x16x8208 S32x8208x128 S32x16x128 [2] [1] [1] [2] [0] [0]

variable [Facts₀]

def dot_S16x4096_S4096x4096_S16x4096_1_0_0_1_n_n : DotDims S16x4096 S4096x4096 S16x4096 where
  lhsContracting := [1]
  rhsContracting := [0]
  lhsNonContracting := [0]
  rhsNonContracting := [1]
  lhsBatch := []
  rhsBatch := []
  wf := dot_S16x4096_S4096x4096_S16x4096_1_0_0_1_n_n_wf
def dot_S32x16x128_S32x8208x128_S32x16x8208_2_2_1_1_0_0 : DotDims S32x16x128 S32x8208x128 S32x16x8208 where
  lhsContracting := [2]
  rhsContracting := [2]
  lhsNonContracting := [1]
  rhsNonContracting := [1]
  lhsBatch := [0]
  rhsBatch := [0]
  wf := dot_S32x16x128_S32x8208x128_S32x16x8208_2_2_1_1_0_0_wf
def dot_S32x16x8208_S32x8208x128_S32x16x128_2_1_1_2_0_0 : DotDims S32x16x8208 S32x8208x128 S32x16x128 where
  lhsContracting := [2]
  rhsContracting := [1]
  lhsNonContracting := [1]
  rhsNonContracting := [2]
  lhsBatch := [0]
  rhsBatch := [0]
  wf := dot_S32x16x8208_S32x8208x128_S32x16x128_2_1_1_2_0_0_wf

class Facts : Prop extends Facts₀ where

variable [Facts]
-- ==== Proof.ProjBody.lean ====
import proofs.«170767_j317827580173_2_alg».proof.Proof.Gen.KernelIdeal.Launch
import proofs.«170767_j317827580173_2_alg».proof.Proof.Gen.KernelIdeal.Skeleton
import proofs.«170767_j317827580173_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ProjBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The projection region: one row block against three weight streams, accumulated over eight trips

The grid is 4 column tiles by 8 trips along the contracted axis. Each point adds the product of the 16 x 512 row
block with each 512 x 1024 weight block to that projection's accumulator, a scratch buffer the kernel keeps
between points: zeroed at a tile's first trip, copied to the tile's output block at its last. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data over these arrays that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, for any proof data over these arrays that leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, for any proof data over these arrays that leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, for any proof data over these arrays that leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the 32 points -/

/-- "This is the tile's first trip": the test the body makes on the trip coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the tile's last trip". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle; an output block is idle, and not written back, except at a tile's last trip. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body, case by case -/

set_option maxHeartbeats 4000000 in
/-- The projection body at the first trip of a column tile: the accumulators are zeroed, then the block product is added.
    On whole staging memrefs holding the row block `x0` and the three weight blocks, whatever the accumulators held,
    it runs to the continuation with each accumulator at its zeroed contents plus `x0` times the weight block; the output blocks are not touched. -/
theorem run0_A (c : Dev nD) (i : grid0.Coords) (arg2 : Memref sig .tc .vmem S16x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (hc0 : cond0_0 i) (hc1 : ¬cond0_1 i)
    (x0 : Vec F S16x512 .f32) (x1 x2 x3 : Vec F S512x1024 .f32) (xi4 xi5 xi6 : Vec F S16x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xi4
        ∗ owns (c : Thread nD τ) arg7 fullShare xi5
        ∗ owns (c : Thread nD τ) arg8 fullShare xi6
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare (k0_pay5 x0 x1 (k0_pay1 (F := F)))
            ∗ owns (c : Thread nD τ) arg10 fullShare (k0_pay6 x0 x2 (k0_pay2 (F := F)))
            ∗ owns (c : Thread nD τ) arg11 fullShare (k0_pay7 x0 x3 (k0_pay3 (F := F)))) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS1]
  · iexists _; isplitr
    swap; · iexact HS1
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  iexists _; isplitr
  swap; · iexact HS2
  ipureintro
  (try sl_unfold_run_names)
  rw [View.read_writes_eq_canon _ _ _ (fun y => ⟨_, List.mem_cons_self, View.mem_set_unit_zero hz2 Facts₀.inb_S16x1024_S16x1024_0_0 y⟩), View.canon_cons_unit_zero hz2]
  simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]

set_option maxHeartbeats 4000000 in
/-- The projection body at a middle trip: the block product is added to the accumulators.
    On whole staging memrefs holding the row block `x0` and the three weight blocks, the accumulators holding what the trip before left,
    it runs to the continuation with each accumulator at its old contents plus `x0` times the weight block; the output blocks are not touched. -/
theorem run0_B (c : Dev nD) (i : grid0.Coords) (arg2 : Memref sig .tc .vmem S16x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (hc0 : ¬cond0_0 i) (hc1 : ¬cond0_1 i)
    (x0 : Vec F S16x512 .f32) (x1 x2 x3 : Vec F S512x1024 .f32) (xi4 xi5 xi6 : Vec F S16x1024 .f32) (xs0 xs1 xs2 : Vec F S16x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xi4
        ∗ owns (c : Thread nD τ) arg7 fullShare xi5
        ∗ owns (c : Thread nD τ) arg8 fullShare xi6
        ∗ owns (c : Thread nD τ) arg9 fullShare xs0
        ∗ owns (c : Thread nD τ) arg10 fullShare xs1
        ∗ owns (c : Thread nD τ) arg11 fullShare xs2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare (k0_pay5 x0 x1 xs0)
            ∗ owns (c : Thread nD τ) arg10 fullShare (k0_pay6 x0 x2 xs1)
            ∗ owns (c : Thread nD τ) arg11 fullShare (k0_pay7 x0 x3 xs2)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS1]
  · iexists _; isplitr
    swap; · iexact HS1
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  iexists _; isplitr
  swap; · iexact HS2
  ipureintro
  (try sl_unfold_run_names)
  rw [View.read_writes_eq_canon _ _ _ (fun y => ⟨_, List.mem_cons_self, View.mem_set_unit_zero hz2 Facts₀.inb_S16x1024_S16x1024_0_0 y⟩), View.canon_cons_unit_zero hz2]
  simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]

set_option maxHeartbeats 4000000 in
/-- The projection body at the last trip: the block product is added and the accumulators are copied to the output blocks.
    On whole staging memrefs holding the row block `x0` and the three weight blocks, the accumulators holding what the trip before left,
    it runs to the continuation with each accumulator at its old contents plus `x0` times the weight block, and each output block at the same. -/
theorem run0_C (c : Dev nD) (i : grid0.Coords) (arg2 : Memref sig .tc .vmem S16x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (hc0 : ¬cond0_0 i) (hc1 : cond0_1 i)
    (x0 : Vec F S16x512 .f32) (x1 x2 x3 : Vec F S512x1024 .f32) (xs0 xs1 xs2 : Vec F S16x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare xs0
        ∗ owns (c : Thread nD τ) arg10 fullShare xs1
        ∗ owns (c : Thread nD τ) arg11 fullShare xs2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay5 x0 x1 xs0)
            ∗ owns (c : Thread nD τ) arg7 fullShare (k0_pay6 x0 x2 xs1)
            ∗ owns (c : Thread nD τ) arg8 fullShare (k0_pay7 x0 x3 xs2)
            ∗ owns (c : Thread nD τ) arg9 fullShare (k0_pay5 x0 x1 xs0)
            ∗ owns (c : Thread nD τ) arg10 fullShare (k0_pay6 x0 x2 xs1)
            ∗ owns (c : Thread nD τ) arg11 fullShare (k0_pay7 x0 x3 xs2)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [H5]
  · iexists _; isplitr
    swap; · iexact H5
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [H6]
  · iexists _; isplitr
    swap; · iexact H6
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS0]
  · iexists _; isplitr
    swap; · iexact HS0
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS1]
  · iexists _; isplitr
    swap; · iexact HS1
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  iexists _; isplitr
  swap; · iexact HS2
  ipureintro
  (try sl_unfold_run_names)
  rw [View.read_writes_eq_canon _ _ _ (fun y => ⟨_, List.mem_cons_self, View.mem_set_unit_zero hz2 Facts₀.inb_S16x1024_S16x1024_0_0 y⟩), View.canon_cons_unit_zero hz2]
  simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]

/-! ## What the accumulators hold after each point -/

/-- One trip: each accumulator plus the row block times its weight block. -/
def accStep (x0 : Vec F S16x512 .f32) (x1 x2 x3 : Vec F S512x1024 .f32)
    (a : Vec F S16x1024 .f32 × Vec F S16x1024 .f32 × Vec F S16x1024 .f32) : Vec F S16x1024 .f32 × Vec F S16x1024 .f32 × Vec F S16x1024 .f32 :=
  (k0_pay5 x0 x1 a.1, k0_pay6 x0 x2 a.2.1, k0_pay7 x0 x3 a.2.2)
/-- The zeroed accumulators. -/
def accZero : Vec F S16x1024 .f32 × Vec F S16x1024 .f32 × Vec F S16x1024 .f32 := (k0_pay1, k0_pay2, k0_pay3)

/-- THE ACCUMULATION: the three accumulators after the body at position `n` of the grid — one trip over the zeroed
    accumulators at a tile's first trip, over what position `n - 1` left otherwise. -/
def accAt (c : Dev nD) : (n : ℕ) → n < cfg0.N → Vec F S16x1024 .f32 × Vec F S16x1024 .f32 × Vec F S16x1024 .f32
  | 0, hn => accStep (F := F) (iblk0 V c 0 ⟨0, hn⟩) (iblk0 V c 1 ⟨0, hn⟩) (iblk0 V c 2 ⟨0, hn⟩) (iblk0 V c 3 ⟨0, hn⟩) accZero
  | n + 1, hn =>
    if (n + 1) % 8 = 0 then accStep (F := F) (iblk0 V c 0 ⟨n + 1, hn⟩) (iblk0 V c 1 ⟨n + 1, hn⟩) (iblk0 V c 2 ⟨n + 1, hn⟩) (iblk0 V c 3 ⟨n + 1, hn⟩) accZero
    else accStep (F := F) (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn))

theorem accAt_first (c : Dev nD) (t : Fin cfg0.N) (h0 : t.val % 8 = 0) :
    accAt V c t.val t.isLt = accStep (F := F) (iblk0 V c 0 t) (iblk0 V c 1 t) (iblk0 V c 2 t) (iblk0 V c 3 t) accZero := by
  obtain ⟨n, hn⟩ := t
  cases n with
  | zero => rfl
  | succ n => exact (if_pos h0).trans rfl

theorem accAt_next (c : Dev nD) (t : Fin cfg0.N) (h0 : ¬t.val % 8 = 0) :
    accAt V c t.val t.isLt = accStep (F := F) (iblk0 V c 0 t) (iblk0 V c 1 t) (iblk0 V c 2 t) (iblk0 V c 3 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant: the accumulators between points -/

/-- The three accumulators as whole scoped buffers of the kernel's own. -/
abbrev scM0_0 : Memref sig .tc .vmem S16x1024 .f32 := Memref.whole cc0_scratch0
abbrev scM0_1 : Memref sig .tc .vmem S16x1024 .f32 := Memref.whole cc0_scratch1
abbrev scM0_2 : Memref sig .tc .vmem S16x1024 .f32 := Memref.whole cc0_scratch2

/-- The core's other scoped buffers (the attention region's staging buffers), each whole at some contents: they ride
    through this region untouched. -/
def restScoped (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg7_1), ((c : Thread nD τ).loc cc1_stg7_1) ↦{fullShare} f))

/-- The region's plain invariant, with the accumulators named. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ restScoped (F := F) c) ∗ (∃ r, prngReg c r)) := by
  unfold Pipeline.ΦA restScoped; rw [scopedRest0_eq]; simp only [scM0_0, scM0_1, scM0_2, owns_whole]; try rfl

/-- Before position `n`: the plain invariant before the first point, afterwards the accumulators at what the point
    before left. -/
def PhiS (c : Dev nD) : (n : ℕ) → n ≤ cfg0.N → sProp 𝕄
  | 0, _ => Pipeline.ΦA spec0 c
  | n + 1, hn => iprop(iprop(owns (c : Thread nD τ) scM0_0 fullShare (accAt V c n hn).1 ∗ owns (c : Thread nD τ) scM0_1 fullShare (accAt V c n hn).2.1 ∗ owns (c : Thread nD τ) scM0_2 fullShare (accAt V c n hn).2.2 ∗ restScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt V c n hn).1 ∗ owns (c : Thread nD τ) scM0_1 fullShare (accAt V c n hn).2.1 ∗ owns (c : Thread nD τ) scM0_2 fullShare (accAt V c n hn).2.2 ∗ restScoped (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt V c (n - 1) (by omega)).1 ∗ owns (c : Thread nD τ) scM0_1 fullShare (accAt V c (n - 1) (by omega)).2.1 ∗ owns (c : Thread nD τ) scM0_2 fullShare (accAt V c (n - 1) (by omega)).2.2 ∗ restScoped (F := F) c) ∗ (∃ r, prngReg c r)) := by
  cases n with
  | zero => exact absurd rfl hz
  | succ n => rfl

/-- At any position the invariant holds the accumulators at SOME contents. -/
theorem PhiS_weak (c : Dev nD) (n : ℕ) (h : n ≤ cfg0.N) :
    PhiS V c n h ⊢ iprop(iprop((∃ d, owns (c : Thread nD τ) scM0_0 fullShare d) ∗ (∃ d, owns (c : Thread nD τ) scM0_1 fullShare d) ∗ (∃ d, owns (c : Thread nD τ) scM0_2 fullShare d) ∗ restScoped (F := F) c) ∗ (∃ r, prngReg c r)) := by
  by_cases hz : n = 0
  · rw [PhiS_zero V c n h hz, PhiA0_eq]
  · rw [PhiS_pos V c n h hz]
    iintro ⟨⟨HS0, HS1, HS2, Hr⟩, Hg⟩
    isplitl [HS0 HS1 HS2 Hr]
    · isplitl [HS0]; · iexists _; iexact HS0
      isplitl [HS1]; · iexists _; iexact HS1
      isplitl [HS2]; · iexists _; iexact HS2
      iexact Hr
    iexact Hg

/-! ## The pipeline's proof data -/

/-- The proof data of the projection pipeline on core `c`: the arrays as the region finds them; after the body at point
    `t` each input's buffer at its block and each output's at that projection's accumulator; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (accAt V c t.val t.isLt).1
    | ⟨5, _⟩ => (accAt V c t.val t.isLt).2.1
    | ⟨6, _⟩ => (accAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (accAt V c t.val t.isLt).1 := by dsimp only [dat0]
theorem after0_5 (c : Dev nD) (t : Fin cfg0.N) : (dat0 V c).after 5 t = (accAt V c t.val t.isLt).2.1 := by dsimp only [dat0]
theorem after0_6 (c : Dev nD) (t : Fin cfg0.N) : (dat0 V c).after 6 t = (accAt V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the point's position in its tile says which case it
    is; the invariant hands the body the accumulators (at what the point before left, or at anything at a tile's first
    trip) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [accAt_first V c t h0]; unfold accStep accZero; dsimp only
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS_weak V c t.val (Nat.le_of_lt t.isLt)) $$ HΦ
    icases HΦ' with ⟨⟨HS0, HS1, HS2, Hr⟩, Hg⟩
    iapply (run0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hz : t.val ≠ 0 := fun hz => h0 (by rw [hz])
    by_cases h1 : t.val % 8 = 7
    ·
      rw [show (dat0 V c).leavesExact 4 t = owns (c : Thread nD τ) (st0_4 t) fullShare ((dat0 V c).after 4 t) from by
        unfold Dat.leavesExact; rw [liveAt0_4 t ((hcond0_1 t).mpr h1)], after0_4]
      rw [show (dat0 V c).leavesExact 5 t = owns (c : Thread nD τ) (st0_5 t) fullShare ((dat0 V c).after 5 t) from by
        unfold Dat.leavesExact; rw [liveAt0_5 t ((hcond0_1 t).mpr h1)], after0_5]
      rw [show (dat0 V c).leavesExact 6 t = owns (c : Thread nD τ) (st0_6 t) fullShare ((dat0 V c).after 6 t) from by
        unfold Dat.leavesExact; rw [liveAt0_6 t ((hcond0_1 t).mpr h1)], after0_6]
      rw [accAt_next V c t h0]; unfold accStep; dsimp only
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      icases HΦ with ⟨⟨HS0, HS1, HS2, Hr⟩, Hg⟩
      iapply (run0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (accAt V c (t.val - 1) (Nat.lt_of_le_of_lt (Nat.sub_le _ _) t.isLt)).1 (accAt V c (t.val - 1) (Nat.lt_of_le_of_lt (Nat.sub_le _ _) t.isLt)).2.1 (accAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitl [HS0 HS1 HS2 Hr]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [accAt_next V c t h0]; unfold accStep; dsimp only
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      icases HΦ with ⟨⟨HS0, HS1, HS2, Hr⟩, Hg⟩
      iapply (run0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ (accAt V c (t.val - 1) (Nat.lt_of_le_of_lt (Nat.sub_le _ _) t.isLt)).1 (accAt V c (t.val - 1) (Nat.lt_of_le_of_lt (Nat.sub_le _ _) t.isLt)).2.1 (accAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitl [HS0 HS1 HS2 Hr]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weak V c _ _

end Cert.KernelIdeal.ProjBody

end
-- ==== Proof.AttnBody.lean ====
/-
  The attention kernel's half of the frame, at any float instance and at any contents `V` of the
  TensorCore's buffers on entry to its region.

  The kernel is run at 32 grid points over eight windows. At a point it reads six blocks whole — the query
  rows (window 0), the new key rows (1), the new value rows (2), one head of the key cache (3), one head of
  the value cache (4) and one head of the noise (5) — and writes two: the 16 x 128 block of attention
  outputs (window 6) in one store of the whole block, and the 1 x 16 x 8208 block of perturbed softmax
  weights (window 7) in two stores side by side along the last axis, columns 0..8191 and columns
  8192..8207. It also reads each output block just before writing over it; what is read there is never
  used. Nothing is carried from one point to the next.

  So what a point leaves in an output block is a closed function of the six input blocks at that point:
  the stored values laid over one another, the later store on top (`out1_6`, `out1_7`). The two stores of
  window 7 are disjoint and together hold every column, so nothing of the block's earlier contents
  survives (`cover1_7`). From this follow the body's triple (`sound_kernel1`), the proof data of the
  pipeline (`dat1`) and the obligation the launch theorems ask of the body (`body_obligation1`).
-/
import proofs.«170767_j317827580173_2_alg».proof.Proof.Gen.KernelIdeal.Launch
import proofs.«170767_j317827580173_2_alg».proof.Proof.Gen.KernelIdeal.Skeleton
import proofs.«170767_j317827580173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AttnBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point's
    index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through -/

/-- A whole 16 x 128 block. -/
abbrev rRow : Rect S16x128 := Rect.unit (s := S16x128) ![0, 0] S16x128.size inb_S16x128_S16x128_0_0
/-- A whole head of a cache, 1 x 8192 x 128. -/
abbrev rCache : Rect S1x8192x128 := Rect.unit (s := S1x8192x128) ![0, 0, 0] S1x8192x128.size inb_S1x8192x128_S1x8192x128_0_0_0
/-- A whole 1 x 16 x 8208 block. -/
abbrev rWide : Rect S1x16x8208 := Rect.unit (s := S1x16x8208) ![0, 0, 0] S1x16x8208.size inb_S1x16x8208_S1x16x8208_0_0_0
/-- Columns 0..8191 of a 1 x 16 x 8208 block: the cache positions. -/
abbrev rLo : Rect S1x16x8208 := Rect.unit (s := S1x16x8208) ![0, 0, 0] S1x16x8192.size inb_S1x16x8208_S1x16x8192_0_0_0
/-- Columns 8192..8207 of a 1 x 16 x 8208 block: the new rows' positions. -/
abbrev rHi : Rect S1x16x8208 := Rect.unit (s := S1x16x8208) ![0, 0, 8192] S1x16x16.size inb_S1x16x8208_S1x16x16_0_0_8192

/-! ## What the body leaves in each output block -/

/-- Window 6 after the body, from the six input blocks: one store of the whole block, the attention
    output — the exponentials of the raw scores less their row maximum, against the value rows (cache and
    new), over the row's sum of exponentials. -/
def out1_6 (x0 x1 x2 : Vec F S16x128 .f32) (x3 x4 : Vec F S1x8192x128 .f32) (x5 : Vec F S1x16x8208 .f32) : Vec F S16x128 .f32 :=
  View.canon [⟨rRow, k1_pay5 (k1_pay9 (View.ld x4 rCache)) (k1_pay10 (View.ld x2 rRow))
      (k1_pay12 (View.ld x0 rRow) (View.ld x3 rCache)) (k1_pay13 (View.ld x0 rRow) (View.ld x1 rRow))
      (k1_pay16 (View.ld x0 rRow) (View.ld x3 rCache) (View.ld x1 rRow))⟩]

/-- Window 7 after the body, from the six input blocks: the softmax weights of the perturbed scores, the
    16 new positions (stored last, so listed first) and the 8192 cache positions. -/
def out1_7 (x0 x1 x2 : Vec F S16x128 .f32) (x3 x4 : Vec F S1x8192x128 .f32) (x5 : Vec F S1x16x8208 .f32) : Vec F S1x16x8208 .f32 :=
  View.canon
    [⟨rHi, k1_pay7 (k1_pay14 (View.ld x0 rRow) (View.ld x3 rCache) (View.ld x5 rWide))
        (k1_pay15 (View.ld x0 rRow) (View.ld x1 rRow) (View.ld x5 rWide))
        (k1_pay17 (View.ld x0 rRow) (View.ld x3 rCache) (View.ld x5 rWide))
        (k1_pay18 (View.ld x0 rRow) (View.ld x1 rRow) (View.ld x5 rWide))⟩,
     ⟨rLo, k1_pay6 (k1_pay14 (View.ld x0 rRow) (View.ld x3 rCache) (View.ld x5 rWide))
        (k1_pay15 (View.ld x0 rRow) (View.ld x1 rRow) (View.ld x5 rWide))
        (k1_pay17 (View.ld x0 rRow) (View.ld x3 rCache) (View.ld x5 rWide))
        (k1_pay18 (View.ld x0 rRow) (View.ld x1 rRow) (View.ld x5 rWide))⟩]

/-- The one store of window 6 is the whole block. -/
theorem cover1_6 (p : Vec F S16x128 .f32) (y : S16x128.Idx) :
    ∃ pc ∈ ([⟨rRow, p⟩] : List (View.Piece (Elt F) S16x128 .f32)), y ∈ pc.1.set :=
  View.cover_of_tiled [⟨rRow, p⟩] S16x128.size (by rfl) y

/-- The two stores of window 7 hold every index of the block between them: a column below 8192 lies in
    the first rectangle, any other in the second. -/
theorem cover1_7 (pHi : Vec F S1x16x16 .f32) (pLo : Vec F S1x16x8192 .f32) (y : S1x16x8208.Idx) :
    ∃ pc ∈ ([⟨rHi, pHi⟩, ⟨rLo, pLo⟩] : List (View.Piece (Elt F) S1x16x8208 .f32)), y ∈ pc.1.set :=
  View.cover_of_tiledBy [⟨rHi, pHi⟩, ⟨rLo, pLo⟩] ![1, 16, 16] (by sl_kernel_rfl) y

/-! ## The body's triple -/

set_option maxHeartbeats 4000000 in
/-- The body at any grid coordinate, on whole staging memrefs: the six inputs' reading `x0 … x5` and the
    two outputs' holding anything. It runs to its continuation with the inputs as they were, window 6 at
    `out1_6` and window 7 at `out1_7` of the inputs. -/
theorem sound_kernel1 (c : Dev nD) (E : Set ℕ) (i : grid1.Coords)
    (arg1 : Memref sig .tc .vmem S16x128 .f32) (harg1 : arg1.IsWhole) (arg2 : Memref sig .tc .vmem S16x128 .f32) (harg2 : arg2.IsWhole)
    (arg3 : Memref sig .tc .vmem S16x128 .f32) (harg3 : arg3.IsWhole) (arg4 : Memref sig .tc .vmem S1x8192x128 .f32) (harg4 : arg4.IsWhole)
    (arg5 : Memref sig .tc .vmem S1x8192x128 .f32) (harg5 : arg5.IsWhole) (arg6 : Memref sig .tc .vmem S1x16x8208 .f32) (harg6 : arg6.IsWhole)
    (arg7 : Memref sig .tc .vmem S16x128 .f32) (harg7 : arg7.IsWhole) (arg8 : Memref sig .tc .vmem S1x16x8208 .f32) (harg8 : arg8.IsWhole)
    (x0 x1 x2 : Vec F S16x128 .f32) (x3 x4 : Vec F S1x8192x128 .f32) (x5 : Vec F S1x16x8208 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E
          (cc1__attn_kernel i arg1 harg1 arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    dsimp only
    exact View.read_writes_eq_canon _ _ _ (cover1_6 _)
  iexists _; isplitr
  swap; · iexact H8
  ipureintro
  dsimp only
  exact View.read_writes_eq_canon _ _ _ (cover1_7 _ _)

/-! ## The pipeline's proof data -/

/-- The proof data of the attention pipeline on core `c`: the windows' arrays as the region finds them;
    after the body at point `t`, each input window's buffer still at its block, window 6 at `out1_6`
    and window 7 at `out1_7` of the six input blocks at `t`; the invariant is the part of the core the
    body never touches; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The arrays of the proof data are the contents on entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]

/-! ## What the body finds in the input windows

Every point fetches each of the six input windows afresh, and none of them is cut: the fetch fills the
whole staging buffer with the window's block at the point. -/

theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)
theorem before1_5 (c : Dev nD) (t : Fin cfg1.N) (d) : (dat1 V c).before 5 t d = iblk1 V c 5 t :=
  ((dat1 V c).before_fetched 5 t (fetch1_5 t) d).trans (by unfold Dat.fetched Dat.blockOf iblk1; rw [A_eq1]; try rfl)

/-! ## The body obligation, at a generic point -/

/-- What the body is handed at point `t`: the invariant, what the core owes, and the eight windows'
    current staging buffers, each at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the six input buffers hold their blocks, so the body's triple applies at those
    blocks; the invariant and what the core owes are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation the launch theorems ask of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.AttnBody

end
-- ==== Proof.FrameRun.lean ====
/-
  The program's two kernel regions run one after the other: the frame, and the run with its results named.

  Between the regions every unscoped buffer of a core is held at a valuation: the launch contents before the
  first region; after it the same but for the first region's three output arrays, which hold what its
  write-backs left; after the second the same again but for its two output arrays. Beside the buffers ride the
  core's generator register and its dues, which are nothing.

  Each region is entered by splitting its windows' arrays out of the unscoped buffers and is left by putting
  them back at the next valuation: an input array is never written, so it holds what it held; an output array
  holds the fold of the write-backs. Hence every argument array ends as launched (`frame`), and the two result
  arrays end at what the second region's write-backs left (`run_named`).
-/
import proofs.«170767_j317827580173_2_alg».proof.Proof.Gen.KernelIdeal.Regions
import proofs.«170767_j317827580173_2_alg».proof.Proof.ProjBody
import proofs.«170767_j317827580173_2_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.FrameRun

open Cert.KernelIdeal Cert.KernelIdeal.Gen Cert.KernelIdeal.ProjBody Cert.KernelIdeal.AttnBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- Two distinct references of the TensorCore are distinct buffers of the device. -/
theorem dev_ne {r r' : Ref sig .tc} (h : r ≠ r') : (Proc.devRef .tc r : DevRef τ sig) ≠ Proc.devRef .tc r' :=
  StableHlo.devRef_ne_of_ne h

/-- The launch contents read at the TensorCore's references: what the first region is entered from. -/
abbrev E0 : (c : Dev nD) → (b : Ref sig .tc) → Buf (Elt F) ((c : Thread nD τ).loc b) := fun c b => V0 m c b

/-- The buffers after the first region: its three output arrays after the last point's write-back, every other
    buffer as launched. -/
def X1 (c : Dev nD) : Valuation τ sig (Elt F) :=
  Function.update (Function.update (Function.update (V0 m c) main_v0_0 ((dat0 (E0 m) c).arrAt 4 cfg0.N))
    main_v0_1 ((dat0 (E0 m) c).arrAt 5 cfg0.N)) main_v0_2 ((dat0 (E0 m) c).arrAt 6 cfg0.N)

/-- The same read at the TensorCore's references: what the second region is entered from. -/
abbrev EX1 : (c : Dev nD) → (b : Ref sig .tc) → Buf (Elt F) ((c : Thread nD τ).loc b) := fun c b => X1 m c b

/-- The buffers after the second region: its two output arrays after the last point's write-back, every other
    buffer as the second region found it. -/
def X2 (c : Dev nD) : Valuation τ sig (Elt F) :=
  Function.update (Function.update (X1 m c) main_v1_0 ((dat1 (EX1 m) c).arrAt 6 cfg1.N))
    main_v1_1 ((dat1 (EX1 m) c).arrAt 7 cfg1.N)

/-- What each region leaves, as the unknowns of the conditional frame: after the first region `X1`, after the
    second `X2`. -/
def outs : Outs (F := F)
  | 1, r, c => X1 m c r
  | _, r, c => X2 m c r

theorem outs_one (r : Ref sig .tc) (c : Dev nD) : outs m 1 r c = X1 m c r := rfl
theorem outs_two (r : Ref sig .tc) (c : Dev nD) : outs m 2 r c = X2 m c r := rfl

/-! ### Reading the contents after the first region -/

theorem X1_v0_0 (c : Dev nD) : X1 m c main_v0_0 = (dat0 (E0 m) c).arrAt 4 cfg0.N := by
  unfold X1
  rw [Function.update_of_ne (dev_ne (show main_v0_0 ≠ main_v0_2 by decide)),
    Function.update_of_ne (dev_ne (show main_v0_0 ≠ main_v0_1 by decide)), Function.update_self]
theorem X1_v0_1 (c : Dev nD) : X1 m c main_v0_1 = (dat0 (E0 m) c).arrAt 5 cfg0.N := by
  unfold X1
  rw [Function.update_of_ne (dev_ne (show main_v0_1 ≠ main_v0_2 by decide)), Function.update_self]
theorem X1_v0_2 (c : Dev nD) : X1 m c main_v0_2 = (dat0 (E0 m) c).arrAt 6 cfg0.N := by
  unfold X1
  rw [Function.update_self]

/-- The conditional frame's valuation after the first region, at these unknowns, is `X1`. -/
theorem V1_eq (c : Dev nD) : V1 m (outs m) c = X1 m c := by
  show Function.update (Function.update (Function.update (V0 m c) main_v0_0 (outs m 1 main_v0_0 c))
    main_v0_1 (outs m 1 main_v0_1 c)) main_v0_2 (outs m 1 main_v0_2 c) = X1 m c
  rw [outs_one, outs_one, outs_one, X1_v0_0, X1_v0_1, X1_v0_2]
  unfold X1
  rfl

/-- The contents after the first region, read at the TensorCore's references. -/
abbrev E1 : (c : Dev nD) → (b : Ref sig .tc) → Buf (Elt F) ((c : Thread nD τ).loc b) := fun c b => V1 m (outs m) c b

theorem E1_eq : E1 m = EX1 m := funext fun c => funext fun b => congrFun (V1_eq m c) b

/-- After the first region each of its output arrays holds what the region's write-backs left. -/
theorem V1_v0_0 (c : Dev nD) : V1 m (outs m) c main_v0_0 = (dat0 (E0 m) c).arrAt 4 cfg0.N :=
  (congrFun (V1_eq m c) _).trans (X1_v0_0 m c)
theorem V1_v0_1 (c : Dev nD) : V1 m (outs m) c main_v0_1 = (dat0 (E0 m) c).arrAt 5 cfg0.N :=
  (congrFun (V1_eq m c) _).trans (X1_v0_1 m c)
theorem V1_v0_2 (c : Dev nD) : V1 m (outs m) c main_v0_2 = (dat0 (E0 m) c).arrAt 6 cfg0.N :=
  (congrFun (V1_eq m c) _).trans (X1_v0_2 m c)

/-- After the first region every argument array is as launched. -/
theorem V1_arg0 (c : Dev nD) : V1 m (outs m) c main_arg0 = m ((c : Thread nD τ).loc main_arg0) := V1_of m (outs m) c main_arg0 (by decide)
theorem V1_arg1 (c : Dev nD) : V1 m (outs m) c main_arg1 = m ((c : Thread nD τ).loc main_arg1) := V1_of m (outs m) c main_arg1 (by decide)
theorem V1_arg2 (c : Dev nD) : V1 m (outs m) c main_arg2 = m ((c : Thread nD τ).loc main_arg2) := V1_of m (outs m) c main_arg2 (by decide)
theorem V1_arg3 (c : Dev nD) : V1 m (outs m) c main_arg3 = m ((c : Thread nD τ).loc main_arg3) := V1_of m (outs m) c main_arg3 (by decide)
theorem V1_arg4 (c : Dev nD) : V1 m (outs m) c main_arg4 = m ((c : Thread nD τ).loc main_arg4) := V1_of m (outs m) c main_arg4 (by decide)
theorem V1_arg5 (c : Dev nD) : V1 m (outs m) c main_arg5 = m ((c : Thread nD τ).loc main_arg5) := V1_of m (outs m) c main_arg5 (by decide)
theorem V1_arg6 (c : Dev nD) : V1 m (outs m) c main_arg6 = m ((c : Thread nD τ).loc main_arg6) := V1_of m (outs m) c main_arg6 (by decide)

/-! ### Reading the contents after the second region -/

theorem X2_v1_0 (c : Dev nD) : X2 m c main_v1_0 = (dat1 (EX1 m) c).arrAt 6 cfg1.N := by
  unfold X2
  rw [Function.update_of_ne (dev_ne (show main_v1_0 ≠ main_v1_1 by decide)), Function.update_self]
theorem X2_v1_1 (c : Dev nD) : X2 m c main_v1_1 = (dat1 (EX1 m) c).arrAt 7 cfg1.N := by
  unfold X2
  rw [Function.update_self]

/-- After the second region each of its output arrays holds what the region's write-backs left. -/
theorem V2_v1_0 (c : Dev nD) : V2 m (outs m) c main_v1_0 = (dat1 (E1 m) c).arrAt 6 cfg1.N := by
  show Function.update (Function.update (V1 m (outs m) c) main_v1_0 (outs m 2 main_v1_0 c)) main_v1_1
    (outs m 2 main_v1_1 c) main_v1_0 = _
  rw [Function.update_of_ne (dev_ne (show main_v1_0 ≠ main_v1_1 by decide)), Function.update_self, outs_two, X2_v1_0,
    E1_eq]
theorem V2_v1_1 (c : Dev nD) : V2 m (outs m) c main_v1_1 = (dat1 (E1 m) c).arrAt 7 cfg1.N := by
  show Function.update (Function.update (V1 m (outs m) c) main_v1_0 (outs m 2 main_v1_0 c)) main_v1_1
    (outs m 2 main_v1_1 c) main_v1_1 = _
  rw [Function.update_self, outs_two, X2_v1_1, E1_eq]

/-! ## The regions' arrays at their exits -/

/-- At the first region's exit each of its arrays holds what the pipeline leaves: an input array what it held,
    an output array its write-backs. -/
theorem hF0 (c : Dev nD) (w : Fin 7) : (dat0 (E0 m) c).arrAt w cfg0.N = E1 m c (Pipeline.arrRef spec0 w) :=
  match w with
  | ⟨0, _⟩ => ((dat0 (E0 m) c).arrAt_in 0 rfl _).trans ((A_eq0 (E0 m) c 0).trans (V1_of m (outs m) c main_arg0 (by decide)).symm)
  | ⟨1, _⟩ => ((dat0 (E0 m) c).arrAt_in 1 rfl _).trans ((A_eq0 (E0 m) c 1).trans (V1_of m (outs m) c main_arg1 (by decide)).symm)
  | ⟨2, _⟩ => ((dat0 (E0 m) c).arrAt_in 2 rfl _).trans ((A_eq0 (E0 m) c 2).trans (V1_of m (outs m) c main_arg2 (by decide)).symm)
  | ⟨3, _⟩ => ((dat0 (E0 m) c).arrAt_in 3 rfl _).trans ((A_eq0 (E0 m) c 3).trans (V1_of m (outs m) c main_arg3 (by decide)).symm)
  | ⟨4, _⟩ => (V1_v0_0 m c).symm
  | ⟨5, _⟩ => (V1_v0_1 m c).symm
  | ⟨6, _⟩ => (V1_v0_2 m c).symm

/-- Off the first region's arrays nothing changed. -/
theorem hrest0 (c : Dev nD) : ∀ b, b ∉ Finset.univ.image (Pipeline.arrRef spec0) → E1 m c b = E0 m c b :=
  fun b hb => V1_of m (outs m) c b fun hmem => by
    simp only [List.mem_cons, List.not_mem_nil, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

/-- The contents after the second region, read at the TensorCore's references. -/
abbrev E2 : (c : Dev nD) → (b : Ref sig .tc) → Buf (Elt F) ((c : Thread nD τ).loc b) := fun c b => V2 m (outs m) c b

/-- At the second region's exit each of its arrays holds what the pipeline leaves. -/
theorem hF1 (c : Dev nD) (w : Fin 8) : (dat1 (E1 m) c).arrAt w cfg1.N = E2 m c (Pipeline.arrRef spec1 w) :=
  match w with
  | ⟨0, _⟩ => ((dat1 (E1 m) c).arrAt_in 0 rfl _).trans ((A_eq1 (E1 m) c 0).trans (V2_of m (outs m) c main_v0_0 (by decide)).symm)
  | ⟨1, _⟩ => ((dat1 (E1 m) c).arrAt_in 1 rfl _).trans ((A_eq1 (E1 m) c 1).trans (V2_of m (outs m) c main_v0_1 (by decide)).symm)
  | ⟨2, _⟩ => ((dat1 (E1 m) c).arrAt_in 2 rfl _).trans ((A_eq1 (E1 m) c 2).trans (V2_of m (outs m) c main_v0_2 (by decide)).symm)
  | ⟨3, _⟩ => ((dat1 (E1 m) c).arrAt_in 3 rfl _).trans ((A_eq1 (E1 m) c 3).trans (V2_of m (outs m) c main_arg5 (by decide)).symm)
  | ⟨4, _⟩ => ((dat1 (E1 m) c).arrAt_in 4 rfl _).trans ((A_eq1 (E1 m) c 4).trans (V2_of m (outs m) c main_arg6 (by decide)).symm)
  | ⟨5, _⟩ => ((dat1 (E1 m) c).arrAt_in 5 rfl _).trans ((A_eq1 (E1 m) c 5).trans (V2_of m (outs m) c main_arg4 (by decide)).symm)
  | ⟨6, _⟩ => (V2_v1_0 m c).symm
  | ⟨7, _⟩ => (V2_v1_1 m c).symm

/-- Off the second region's arrays nothing changed. -/
theorem hrest1 (c : Dev nD) : ∀ b, b ∉ Finset.univ.image (Pipeline.arrRef spec1) → E2 m c b = E1 m c b :=
  fun b hb => V2_of m (outs m) c b fun hmem => by
    simp only [List.mem_cons, List.not_mem_nil, or_false] at hmem
    rcases hmem with rfl | rfl
    · exact hb (Finset.mem_image.mpr ⟨6, Finset.mem_univ _, rfl⟩)
    · exact hb (Finset.mem_image.mpr ⟨7, Finset.mem_univ _, rfl⟩)

/-! ## The proof data family and the thread state -/

/-- Each pipeline's proof data at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No core owes another anything: no level is assigned. -/
abbrev L : GSem nD τ sig → Finset Unit := fun _ => ∅
abbrev lv : GSem nD τ sig → Unit → ℕ := fun _ _ => 0

/-- What rides beside the buffers through both regions: the core's generator register at some state and its
    dues, at nothing. -/
abbrev R (c : Dev nD) : sProp 𝕄 :=
  iprop((∃ r, prngReg c r) ∗ ∃ W, owes (c : Thread nD τ) (0 : CellTallies nD τ sig Unit) W)

/-! ## The regions as segments -/

set_option backward.isDefEq.respectTransparency.types false in
/-- The first region over the thread state: entered from every unscoped buffer at the launch contents, left at
    the contents after it. Its arrays are split out of the unscoped buffers at entry and put back at exit; the
    generator register goes into the kernel's invariant and comes back; nothing is owed. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the first
    region, left at the contents after the second. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, and the frame -/

/-- The launch element yields the pipelines' element at every staging cell; no further ghost resource is dealt. -/
theorem launch_elem :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, less the buffers, makes the rest of the first thread state. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of the program terminates and
    every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond (m := m) (EP := emb₁) (ι := ()) (𝒱₀ := Variants.none) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := launch_elem)
    (E := fun _ c => R c) (hE0 := launch_rest ρ)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

set_option backward.isDefEq.respectTransparency.types false in
/-- THE RUN, WITH THE RESULTS NAMED: from any memory with zero counters every weakly fair execution of the program
    terminates, and every final memory holds in each of the two result arrays what the second region's write-backs
    left there, and each argument array as launched. -/
theorem run_named (ρ : Dev nD → PrngReg) :
    θ_run defs (onTc (τ := τ) (main (F := F))) ⟨m, fun _ => 0, ρ⟩ (fun r => ∀ c : Dev nD,
      r.2.mem ((c.tc : Thread nD τ).loc main_v1_0) = (dat1 (E1 m) c).arrAt 6 cfg1.N
      ∧ r.2.mem ((c.tc : Thread nD τ).loc main_v1_1) = (dat1 (E1 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ Variants.none L lv m ρ main
    (segs Variants.none L lv (fun _ c => R c) () (pdats m) (reg0 m) (reg1 m))
    (fun c Q => by
      rewrite [main_chain c, Pipeline.Seg.run_eq_chain,
        show (segs Variants.none L lv (fun _ c => R c) () (pdats m) (reg0 m) (reg1 m) c).map Pipeline.Seg.prog = [
          Prog.lift (.customCall (Pipeline.entry 0) ()),
          Prog.lift (.customCall (Pipeline.entry 1) ()) ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) launch_elem
    (T₀ := fun c => iprop(StableHlo.held (c : Thread nD τ) (Pipeline.ucRefs τ sig) (V0 m c) ∗ R c))
    (Tₙ := fun c => StableHlo.held (c : Thread nD τ) (Pipeline.ucRefs τ sig) (V2 m (outs m) c))
    (hch := fun c => ⟨.rfl, .rfl, sep_mono .rfl (by iintro ⟨-, HO⟩; iexact HO)⟩)
    (hinit := ?_)
    (QY := fun c s => s.mem ((c.tc : Thread nD τ).loc main_v1_0) = (dat1 (E1 m) c).arrAt 6 cfg1.N
      ∧ s.mem ((c.tc : Thread nD τ).loc main_v1_1) = (dat1 (E1 m) c).arrAt 7 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  · -- the launch: every unscoped buffer at the launch contents, the generator register, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the two results and each argument read off the last valuation
    unfold StableHlo.held
    iintro ⟨Hh, HSI⟩
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨(h (Proc.devRef .tc main_v1_0) (Finset.mem_filter.mpr ⟨StableHlo.devRef_mem_tcRefs main_v1_0, by decide⟩)).trans (V2_v1_0 m c),
        (h (Proc.devRef .tc main_v1_1) (Finset.mem_filter.mpr ⟨StableHlo.devRef_mem_tcRefs main_v1_1, by decide⟩)).trans (V2_v1_1 m c),
        (h (Proc.devRef .tc main_arg0) (Finset.mem_filter.mpr ⟨StableHlo.devRef_mem_tcRefs main_arg0, by decide⟩)).trans (V2_main_arg0 m (outs m) c),
        (h (Proc.devRef .tc main_arg1) (Finset.mem_filter.mpr ⟨StableHlo.devRef_mem_tcRefs main_arg1, by decide⟩)).trans (V2_main_arg1 m (outs m) c),
        (h (Proc.devRef .tc main_arg2) (Finset.mem_filter.mpr ⟨StableHlo.devRef_mem_tcRefs main_arg2, by decide⟩)).trans (V2_main_arg2 m (outs m) c),
        (h (Proc.devRef .tc main_arg3) (Finset.mem_filter.mpr ⟨StableHlo.devRef_mem_tcRefs main_arg3, by decide⟩)).trans (V2_main_arg3 m (outs m) c),
        (h (Proc.devRef .tc main_arg4) (Finset.mem_filter.mpr ⟨StableHlo.devRef_mem_tcRefs main_arg4, by decide⟩)).trans (V2_main_arg4 m (outs m) c),
        (h (Proc.devRef .tc main_arg5) (Finset.mem_filter.mpr ⟨StableHlo.devRef_mem_tcRefs main_arg5, by decide⟩)).trans (V2_main_arg5 m (outs m) c),
        (h (Proc.devRef .tc main_arg6) (Finset.mem_filter.mpr ⟨StableHlo.devRef_mem_tcRefs main_arg6, by decide⟩)).trans (V2_main_arg6 m (outs m) c)⟩
    · iexact HSI

end Cert.KernelIdeal.FrameRun

end
-- ==== Proof.ProjBodyBits.lean ====
import proofs.«170767_j317827580173_2_alg».proof.Proof.Gen.Kernel.Launch
import proofs.«170767_j317827580173_2_alg».proof.Proof.Gen.Kernel.Skeleton
import proofs.«170767_j317827580173_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.ProjBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The projection region: one row block against three weight streams, accumulated over eight trips

The grid is 4 column tiles by 8 trips along the contracted axis. Each point adds the product of the 16 x 512 row
block with each 512 x 1024 weight block to that projection's accumulator, a scratch buffer the kernel keeps
between points: zeroed at a tile's first trip, copied to the tile's output block at its last. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data over these arrays that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, for any proof data over these arrays that leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, for any proof data over these arrays that leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, for any proof data over these arrays that leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the 32 points -/

/-- "This is the tile's first trip": the test the body makes on the trip coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the tile's last trip". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle; an output block is idle, and not written back, except at a tile's last trip. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body, case by case -/

set_option maxHeartbeats 4000000 in
/-- The projection body at the first trip of a column tile: the accumulators are zeroed, then the block product is added.
    On whole staging memrefs holding the row block `x0` and the three weight blocks, whatever the accumulators held,
    it runs to the continuation with each accumulator at its zeroed contents plus `x0` times the weight block; the output blocks are not touched. -/
theorem run0_A (c : Dev nD) (i : grid0.Coords) (arg2 : Memref sig .tc .vmem S16x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (hc0 : cond0_0 i) (hc1 : ¬cond0_1 i)
    (x0 : Vec F S16x512 .f32) (x1 x2 x3 : Vec F S512x1024 .f32) (xi4 xi5 xi6 : Vec F S16x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xi4
        ∗ owns (c : Thread nD τ) arg7 fullShare xi5
        ∗ owns (c : Thread nD τ) arg8 fullShare xi6
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare (k0_pay5 x0 x1 (k0_pay1 (F := F)))
            ∗ owns (c : Thread nD τ) arg10 fullShare (k0_pay6 x0 x2 (k0_pay2 (F := F)))
            ∗ owns (c : Thread nD τ) arg11 fullShare (k0_pay7 x0 x3 (k0_pay3 (F := F)))) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS1]
  · iexists _; isplitr
    swap; · iexact HS1
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  iexists _; isplitr
  swap; · iexact HS2
  ipureintro
  (try sl_unfold_run_names)
  rw [View.read_writes_eq_canon _ _ _ (fun y => ⟨_, List.mem_cons_self, View.mem_set_unit_zero hz2 Facts₀.inb_S16x1024_S16x1024_0_0 y⟩), View.canon_cons_unit_zero hz2]
  simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]

set_option maxHeartbeats 4000000 in
/-- The projection body at a middle trip: the block product is added to the accumulators.
    On whole staging memrefs holding the row block `x0` and the three weight blocks, the accumulators holding what the trip before left,
    it runs to the continuation with each accumulator at its old contents plus `x0` times the weight block; the output blocks are not touched. -/
theorem run0_B (c : Dev nD) (i : grid0.Coords) (arg2 : Memref sig .tc .vmem S16x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (hc0 : ¬cond0_0 i) (hc1 : ¬cond0_1 i)
    (x0 : Vec F S16x512 .f32) (x1 x2 x3 : Vec F S512x1024 .f32) (xi4 xi5 xi6 : Vec F S16x1024 .f32) (xs0 xs1 xs2 : Vec F S16x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xi4
        ∗ owns (c : Thread nD τ) arg7 fullShare xi5
        ∗ owns (c : Thread nD τ) arg8 fullShare xi6
        ∗ owns (c : Thread nD τ) arg9 fullShare xs0
        ∗ owns (c : Thread nD τ) arg10 fullShare xs1
        ∗ owns (c : Thread nD τ) arg11 fullShare xs2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare (k0_pay5 x0 x1 xs0)
            ∗ owns (c : Thread nD τ) arg10 fullShare (k0_pay6 x0 x2 xs1)
            ∗ owns (c : Thread nD τ) arg11 fullShare (k0_pay7 x0 x3 xs2)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS1]
  · iexists _; isplitr
    swap; · iexact HS1
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  iexists _; isplitr
  swap; · iexact HS2
  ipureintro
  (try sl_unfold_run_names)
  rw [View.read_writes_eq_canon _ _ _ (fun y => ⟨_, List.mem_cons_self, View.mem_set_unit_zero hz2 Facts₀.inb_S16x1024_S16x1024_0_0 y⟩), View.canon_cons_unit_zero hz2]
  simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]

set_option maxHeartbeats 4000000 in
/-- The projection body at the last trip: the block product is added and the accumulators are copied to the output blocks.
    On whole staging memrefs holding the row block `x0` and the three weight blocks, the accumulators holding what the trip before left,
    it runs to the continuation with each accumulator at its old contents plus `x0` times the weight block, and each output block at the same. -/
theorem run0_C (c : Dev nD) (i : grid0.Coords) (arg2 : Memref sig .tc .vmem S16x512 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S16x1024 .f32) (harg11 : arg11.IsWhole) (hc0 : ¬cond0_0 i) (hc1 : cond0_1 i)
    (x0 : Vec F S16x512 .f32) (x1 x2 x3 : Vec F S512x1024 .f32) (xs0 xs1 xs2 : Vec F S16x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare xs0
        ∗ owns (c : Thread nD τ) arg10 fullShare xs1
        ∗ owns (c : Thread nD τ) arg11 fullShare xs2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay5 x0 x1 xs0)
            ∗ owns (c : Thread nD τ) arg7 fullShare (k0_pay6 x0 x2 xs1)
            ∗ owns (c : Thread nD τ) arg8 fullShare (k0_pay7 x0 x3 xs2)
            ∗ owns (c : Thread nD τ) arg9 fullShare (k0_pay5 x0 x1 xs0)
            ∗ owns (c : Thread nD τ) arg10 fullShare (k0_pay6 x0 x2 xs1)
            ∗ owns (c : Thread nD τ) arg11 fullShare (k0_pay7 x0 x3 xs2)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [H5]
  · iexists _; isplitr
    swap; · iexact H5
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [H6]
  · iexists _; isplitr
    swap; · iexact H6
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS0]
  · iexists _; isplitr
    swap; · iexact HS0
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  isplitl [HS1]
  · iexists _; isplitr
    swap; · iexact HS1
    ipureintro
    (try sl_unfold_run_names)
    rw [View.read_writes_eq_canon _ _ _ (fun y => ⟨_, List.mem_cons_self, View.mem_set_unit_zero hz2 Facts₀.inb_S16x1024_S16x1024_0_0 y⟩), View.canon_cons_unit_zero hz2]
    simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]
  iexists _; isplitr
  swap; · iexact HS2
  ipureintro
  (try sl_unfold_run_names)
  rw [View.read_writes_eq_canon _ _ _ (fun y => ⟨_, List.mem_cons_self, View.mem_set_unit_zero hz2 Facts₀.inb_S16x1024_S16x1024_0_0 y⟩), View.canon_cons_unit_zero hz2]
  simp only [View.readAt_eq_ld, View.readCov_unit_zero (S := S16x1024) _ hz2, Memref.IsWhole.read_unread, View.ld_unit_zero (S := S16x512) hz2, View.ld_unit_zero (S := S512x1024) hz2, View.ld_unit_zero (S := S16x1024) hz2]

/-! ## What the accumulators hold after each point -/

/-- One trip: each accumulator plus the row block times its weight block. -/
def accStep (x0 : Vec F S16x512 .f32) (x1 x2 x3 : Vec F S512x1024 .f32)
    (a : Vec F S16x1024 .f32 × Vec F S16x1024 .f32 × Vec F S16x1024 .f32) : Vec F S16x1024 .f32 × Vec F S16x1024 .f32 × Vec F S16x1024 .f32 :=
  (k0_pay5 x0 x1 a.1, k0_pay6 x0 x2 a.2.1, k0_pay7 x0 x3 a.2.2)
/-- The zeroed accumulators. -/
def accZero : Vec F S16x1024 .f32 × Vec F S16x1024 .f32 × Vec F S16x1024 .f32 := (k0_pay1, k0_pay2, k0_pay3)

/-- THE ACCUMULATION: the three accumulators after the body at position `n` of the grid — one trip over the zeroed
    accumulators at a tile's first trip, over what position `n - 1` left otherwise. -/
def accAt (c : Dev nD) : (n : ℕ) → n < cfg0.N → Vec F S16x1024 .f32 × Vec F S16x1024 .f32 × Vec F S16x1024 .f32
  | 0, hn => accStep (F := F) (iblk0 V c 0 ⟨0, hn⟩) (iblk0 V c 1 ⟨0, hn⟩) (iblk0 V c 2 ⟨0, hn⟩) (iblk0 V c 3 ⟨0, hn⟩) accZero
  | n + 1, hn =>
    if (n + 1) % 8 = 0 then accStep (F := F) (iblk0 V c 0 ⟨n + 1, hn⟩) (iblk0 V c 1 ⟨n + 1, hn⟩) (iblk0 V c 2 ⟨n + 1, hn⟩) (iblk0 V c 3 ⟨n + 1, hn⟩) accZero
    else accStep (F := F) (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn))

theorem accAt_first (c : Dev nD) (t : Fin cfg0.N) (h0 : t.val % 8 = 0) :
    accAt V c t.val t.isLt = accStep (F := F) (iblk0 V c 0 t) (iblk0 V c 1 t) (iblk0 V c 2 t) (iblk0 V c 3 t) accZero := by
  obtain ⟨n, hn⟩ := t
  cases n with
  | zero => rfl
  | succ n => exact (if_pos h0).trans rfl

theorem accAt_next (c : Dev nD) (t : Fin cfg0.N) (h0 : ¬t.val % 8 = 0) :
    accAt V c t.val t.isLt = accStep (F := F) (iblk0 V c 0 t) (iblk0 V c 1 t) (iblk0 V c 2 t) (iblk0 V c 3 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant: the accumulators between points -/

/-- The three accumulators as whole scoped buffers of the kernel's own. -/
abbrev scM0_0 : Memref sig .tc .vmem S16x1024 .f32 := Memref.whole cc0_scratch0
abbrev scM0_1 : Memref sig .tc .vmem S16x1024 .f32 := Memref.whole cc0_scratch1
abbrev scM0_2 : Memref sig .tc .vmem S16x1024 .f32 := Memref.whole cc0_scratch2

/-- The core's other scoped buffers (the attention region's staging buffers), each whole at some contents: they ride
    through this region untouched. -/
def restScoped (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg7_1), ((c : Thread nD τ).loc cc1_stg7_1) ↦{fullShare} f))

/-- The region's plain invariant, with the accumulators named. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ restScoped (F := F) c) ∗ (∃ r, prngReg c r)) := by
  unfold Pipeline.ΦA restScoped; rw [scopedRest0_eq]; simp only [scM0_0, scM0_1, scM0_2, owns_whole]; try rfl

/-- Before position `n`: the plain invariant before the first point, afterwards the accumulators at what the point
    before left. -/
def PhiS (c : Dev nD) : (n : ℕ) → n ≤ cfg0.N → sProp 𝕄
  | 0, _ => Pipeline.ΦA spec0 c
  | n + 1, hn => iprop(iprop(owns (c : Thread nD τ) scM0_0 fullShare (accAt V c n hn).1 ∗ owns (c : Thread nD τ) scM0_1 fullShare (accAt V c n hn).2.1 ∗ owns (c : Thread nD τ) scM0_2 fullShare (accAt V c n hn).2.2 ∗ restScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt V c n hn).1 ∗ owns (c : Thread nD τ) scM0_1 fullShare (accAt V c n hn).2.1 ∗ owns (c : Thread nD τ) scM0_2 fullShare (accAt V c n hn).2.2 ∗ restScoped (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt V c (n - 1) (by omega)).1 ∗ owns (c : Thread nD τ) scM0_1 fullShare (accAt V c (n - 1) (by omega)).2.1 ∗ owns (c : Thread nD τ) scM0_2 fullShare (accAt V c (n - 1) (by omega)).2.2 ∗ restScoped (F := F) c) ∗ (∃ r, prngReg c r)) := by
  cases n with
  | zero => exact absurd rfl hz
  | succ n => rfl

/-- At any position the invariant holds the accumulators at SOME contents. -/
theorem PhiS_weak (c : Dev nD) (n : ℕ) (h : n ≤ cfg0.N) :
    PhiS V c n h ⊢ iprop(iprop((∃ d, owns (c : Thread nD τ) scM0_0 fullShare d) ∗ (∃ d, owns (c : Thread nD τ) scM0_1 fullShare d) ∗ (∃ d, owns (c : Thread nD τ) scM0_2 fullShare d) ∗ restScoped (F := F) c) ∗ (∃ r, prngReg c r)) := by
  by_cases hz : n = 0
  · rw [PhiS_zero V c n h hz, PhiA0_eq]
  · rw [PhiS_pos V c n h hz]
    iintro ⟨⟨HS0, HS1, HS2, Hr⟩, Hg⟩
    isplitl [HS0 HS1 HS2 Hr]
    · isplitl [HS0]; · iexists _; iexact HS0
      isplitl [HS1]; · iexists _; iexact HS1
      isplitl [HS2]; · iexists _; iexact HS2
      iexact Hr
    iexact Hg

/-! ## The pipeline's proof data -/

/-- The proof data of the projection pipeline on core `c`: the arrays as the region finds them; after the body at point
    `t` each input's buffer at its block and each output's at that projection's accumulator; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (accAt V c t.val t.isLt).1
    | ⟨5, _⟩ => (accAt V c t.val t.isLt).2.1
    | ⟨6, _⟩ => (accAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (accAt V c t.val t.isLt).1 := by dsimp only [dat0]
theorem after0_5 (c : Dev nD) (t : Fin cfg0.N) : (dat0 V c).after 5 t = (accAt V c t.val t.isLt).2.1 := by dsimp only [dat0]
theorem after0_6 (c : Dev nD) (t : Fin cfg0.N) : (dat0 V c).after 6 t = (accAt V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the point's position in its tile says which case it
    is; the invariant hands the body the accumulators (at what the point before left, or at anything at a tile's first
    trip) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [accAt_first V c t h0]; unfold accStep accZero; dsimp only
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS_weak V c t.val (Nat.le_of_lt t.isLt)) $$ HΦ
    icases HΦ' with ⟨⟨HS0, HS1, HS2, Hr⟩, Hg⟩
    iapply (run0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hz : t.val ≠ 0 := fun hz => h0 (by rw [hz])
    by_cases h1 : t.val % 8 = 7
    ·
      rw [show (dat0 V c).leavesExact 4 t = owns (c : Thread nD τ) (st0_4 t) fullShare ((dat0 V c).after 4 t) from by
        unfold Dat.leavesExact; rw [liveAt0_4 t ((hcond0_1 t).mpr h1)], after0_4]
      rw [show (dat0 V c).leavesExact 5 t = owns (c : Thread nD τ) (st0_5 t) fullShare ((dat0 V c).after 5 t) from by
        unfold Dat.leavesExact; rw [liveAt0_5 t ((hcond0_1 t).mpr h1)], after0_5]
      rw [show (dat0 V c).leavesExact 6 t = owns (c : Thread nD τ) (st0_6 t) fullShare ((dat0 V c).after 6 t) from by
        unfold Dat.leavesExact; rw [liveAt0_6 t ((hcond0_1 t).mpr h1)], after0_6]
      rw [accAt_next V c t h0]; unfold accStep; dsimp only
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      icases HΦ with ⟨⟨HS0, HS1, HS2, Hr⟩, Hg⟩
      iapply (run0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (accAt V c (t.val - 1) (Nat.lt_of_le_of_lt (Nat.sub_le _ _) t.isLt)).1 (accAt V c (t.val - 1) (Nat.lt_of_le_of_lt (Nat.sub_le _ _) t.isLt)).2.1 (accAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitl [HS0 HS1 HS2 Hr]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [accAt_next V c t h0]; unfold accStep; dsimp only
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      icases HΦ with ⟨⟨HS0, HS1, HS2, Hr⟩, Hg⟩
      iapply (run0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ (accAt V c (t.val - 1) (Nat.lt_of_le_of_lt (Nat.sub_le _ _) t.isLt)).1 (accAt V c (t.val - 1) (Nat.lt_of_le_of_lt (Nat.sub_le _ _) t.isLt)).2.1 (accAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitl [HS0 HS1 HS2 Hr]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weak V c _ _

end Cert.Kernel.ProjBody

end
-- ==== Proof.AttnBodyBits.lean ====
/-
  The attention kernel's half of the frame, at any float instance and at any contents `V` of the
  TensorCore's buffers on entry to its region.

  The kernel is run at 32 grid points over eight windows. At a point it reads six blocks whole — the query
  rows (window 0), the new key rows (1), the new value rows (2), one head of the key cache (3), one head of
  the value cache (4) and one head of the noise (5) — and writes two: the 16 x 128 block of attention
  outputs (window 6) in one store of the whole block, and the 1 x 16 x 8208 block of perturbed softmax
  weights (window 7) in two stores side by side along the last axis, columns 0..8191 and columns
  8192..8207. It also reads each output block just before writing over it; what is read there is never
  used. Nothing is carried from one point to the next.

  So what a point leaves in an output block is a closed function of the six input blocks at that point:
  the stored values laid over one another, the later store on top (`out1_6`, `out1_7`). The two stores of
  window 7 are disjoint and together hold every column, so nothing of the block's earlier contents
  survives (`cover1_7`). From this follow the body's triple (`sound_kernel1`), the proof data of the
  pipeline (`dat1`) and the obligation the launch theorems ask of the body (`body_obligation1`).
-/
import proofs.«170767_j317827580173_2_alg».proof.Proof.Gen.Kernel.Launch
import proofs.«170767_j317827580173_2_alg».proof.Proof.Gen.Kernel.Skeleton
import proofs.«170767_j317827580173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.AttnBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point's
    index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through -/

/-- A whole 16 x 128 block. -/
abbrev rRow : Rect S16x128 := Rect.unit (s := S16x128) ![0, 0] S16x128.size inb_S16x128_S16x128_0_0
/-- A whole head of a cache, 1 x 8192 x 128. -/
abbrev rCache : Rect S1x8192x128 := Rect.unit (s := S1x8192x128) ![0, 0, 0] S1x8192x128.size inb_S1x8192x128_S1x8192x128_0_0_0
/-- A whole 1 x 16 x 8208 block. -/
abbrev rWide : Rect S1x16x8208 := Rect.unit (s := S1x16x8208) ![0, 0, 0] S1x16x8208.size inb_S1x16x8208_S1x16x8208_0_0_0
/-- Columns 0..8191 of a 1 x 16 x 8208 block: the cache positions. -/
abbrev rLo : Rect S1x16x8208 := Rect.unit (s := S1x16x8208) ![0, 0, 0] S1x16x8192.size inb_S1x16x8208_S1x16x8192_0_0_0
/-- Columns 8192..8207 of a 1 x 16 x 8208 block: the new rows' positions. -/
abbrev rHi : Rect S1x16x8208 := Rect.unit (s := S1x16x8208) ![0, 0, 8192] S1x16x16.size inb_S1x16x8208_S1x16x16_0_0_8192

/-! ## What the body leaves in each output block -/

/-- Window 6 after the body, from the six input blocks: one store of the whole block, the attention
    output — the exponentials of the raw scores less their row maximum, against the value rows (cache and
    new), over the row's sum of exponentials. -/
def out1_6 (x0 x1 x2 : Vec F S16x128 .f32) (x3 x4 : Vec F S1x8192x128 .f32) (x5 : Vec F S1x16x8208 .f32) : Vec F S16x128 .f32 :=
  View.canon [⟨rRow, k1_pay5 (k1_pay9 (View.ld x4 rCache)) (k1_pay10 (View.ld x2 rRow))
      (k1_pay12 (View.ld x0 rRow) (View.ld x3 rCache)) (k1_pay13 (View.ld x0 rRow) (View.ld x1 rRow))
      (k1_pay16 (View.ld x0 rRow) (View.ld x3 rCache) (View.ld x1 rRow))⟩]

/-- Window 7 after the body, from the six input blocks: the softmax weights of the perturbed scores, the
    16 new positions (stored last, so listed first) and the 8192 cache positions. -/
def out1_7 (x0 x1 x2 : Vec F S16x128 .f32) (x3 x4 : Vec F S1x8192x128 .f32) (x5 : Vec F S1x16x8208 .f32) : Vec F S1x16x8208 .f32 :=
  View.canon
    [⟨rHi, k1_pay7 (k1_pay14 (View.ld x0 rRow) (View.ld x3 rCache) (View.ld x5 rWide))
        (k1_pay15 (View.ld x0 rRow) (View.ld x1 rRow) (View.ld x5 rWide))
        (k1_pay17 (View.ld x0 rRow) (View.ld x3 rCache) (View.ld x5 rWide))
        (k1_pay18 (View.ld x0 rRow) (View.ld x1 rRow) (View.ld x5 rWide))⟩,
     ⟨rLo, k1_pay6 (k1_pay14 (View.ld x0 rRow) (View.ld x3 rCache) (View.ld x5 rWide))
        (k1_pay15 (View.ld x0 rRow) (View.ld x1 rRow) (View.ld x5 rWide))
        (k1_pay17 (View.ld x0 rRow) (View.ld x3 rCache) (View.ld x5 rWide))
        (k1_pay18 (View.ld x0 rRow) (View.ld x1 rRow) (View.ld x5 rWide))⟩]

/-- The one store of window 6 is the whole block. -/
theorem cover1_6 (p : Vec F S16x128 .f32) (y : S16x128.Idx) :
    ∃ pc ∈ ([⟨rRow, p⟩] : List (View.Piece (Elt F) S16x128 .f32)), y ∈ pc.1.set :=
  View.cover_of_tiled [⟨rRow, p⟩] S16x128.size (by rfl) y

/-- The two stores of window 7 hold every index of the block between them: a column below 8192 lies in
    the first rectangle, any other in the second. -/
theorem cover1_7 (pHi : Vec F S1x16x16 .f32) (pLo : Vec F S1x16x8192 .f32) (y : S1x16x8208.Idx) :
    ∃ pc ∈ ([⟨rHi, pHi⟩, ⟨rLo, pLo⟩] : List (View.Piece (Elt F) S1x16x8208 .f32)), y ∈ pc.1.set :=
  View.cover_of_tiledBy [⟨rHi, pHi⟩, ⟨rLo, pLo⟩] ![1, 16, 16] (by sl_kernel_rfl) y

/-! ## The body's triple -/

set_option maxHeartbeats 4000000 in
/-- The body at any grid coordinate, on whole staging memrefs: the six inputs' reading `x0 … x5` and the
    two outputs' holding anything. It runs to its continuation with the inputs as they were, window 6 at
    `out1_6` and window 7 at `out1_7` of the inputs. -/
theorem sound_kernel1 (c : Dev nD) (E : Set ℕ) (i : grid1.Coords)
    (arg1 : Memref sig .tc .vmem S16x128 .f32) (harg1 : arg1.IsWhole) (arg2 : Memref sig .tc .vmem S16x128 .f32) (harg2 : arg2.IsWhole)
    (arg3 : Memref sig .tc .vmem S16x128 .f32) (harg3 : arg3.IsWhole) (arg4 : Memref sig .tc .vmem S1x8192x128 .f32) (harg4 : arg4.IsWhole)
    (arg5 : Memref sig .tc .vmem S1x8192x128 .f32) (harg5 : arg5.IsWhole) (arg6 : Memref sig .tc .vmem S1x16x8208 .f32) (harg6 : arg6.IsWhole)
    (arg7 : Memref sig .tc .vmem S16x128 .f32) (harg7 : arg7.IsWhole) (arg8 : Memref sig .tc .vmem S1x16x8208 .f32) (harg8 : arg8.IsWhole)
    (x0 x1 x2 : Vec F S16x128 .f32) (x3 x4 : Vec F S1x8192x128 .f32) (x5 : Vec F S1x16x8208 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E
          (cc1__attn_kernel i arg1 harg1 arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    dsimp only
    exact View.read_writes_eq_canon _ _ _ (cover1_6 _)
  iexists _; isplitr
  swap; · iexact H8
  ipureintro
  dsimp only
  exact View.read_writes_eq_canon _ _ _ (cover1_7 _ _)

/-! ## The pipeline's proof data -/

/-- The proof data of the attention pipeline on core `c`: the windows' arrays as the region finds them;
    after the body at point `t`, each input window's buffer still at its block, window 6 at `out1_6`
    and window 7 at `out1_7` of the six input blocks at `t`; the invariant is the part of the core the
    body never touches; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The arrays of the proof data are the contents on entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]

/-! ## What the body finds in the input windows

Every point fetches each of the six input windows afresh, and none of them is cut: the fetch fills the
whole staging buffer with the window's block at the point. -/

theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)
theorem before1_3 (c : Dev nD) (t : Fin cfg1.N) (d) : (dat1 V c).before 3 t d = iblk1 V c 3 t :=
  ((dat1 V c).before_fetched 3 t (fetch1_3 t) d).trans (by unfold Dat.fetched Dat.blockOf iblk1; rw [A_eq1]; try rfl)
theorem before1_4 (c : Dev nD) (t : Fin cfg1.N) (d) : (dat1 V c).before 4 t d = iblk1 V c 4 t :=
  ((dat1 V c).before_fetched 4 t (fetch1_4 t) d).trans (by unfold Dat.fetched Dat.blockOf iblk1; rw [A_eq1]; try rfl)
theorem before1_5 (c : Dev nD) (t : Fin cfg1.N) (d) : (dat1 V c).before 5 t d = iblk1 V c 5 t :=
  ((dat1 V c).before_fetched 5 t (fetch1_5 t) d).trans (by unfold Dat.fetched Dat.blockOf iblk1; rw [A_eq1]; try rfl)

/-! ## The body obligation, at a generic point -/

/-- What the body is handed at point `t`: the invariant, what the core owes, and the eight windows'
    current staging buffers, each at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the six input buffers hold their blocks, so the body's triple applies at those
    blocks; the invariant and what the core owes are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation the launch theorems ask of the body, at every point. -/
theorem body_obligation1 (c : Dev nD) : BodyObligation (dat1 (F := F) V c) (defs₀ (F := F)) Variants.none () Set.univ := fun t => by
  rw [bigSep_W1, bigSep_W1]
  exact sound_body1 V c t

end Cert.Kernel.AttnBody

end
-- ==== Proof.FrameRunBits.lean ====
/-
  The word-level program's two kernel regions run one after the other: the frame.

  Between the regions every unscoped buffer of a core is held at a valuation: the launch contents before the
  first region; after it the same but for the first region's three output arrays, which hold what its
  write-backs left; after the second the same again but for its two output arrays. Beside the buffers ride the
  core's generator register and its dues, which are nothing.

  Each region is entered by splitting its windows' arrays out of the unscoped buffers and is left by putting
  them back at the next valuation: an input array is never written, so it holds what it held; an output array
  holds the fold of the write-backs. Hence every argument array ends as launched (`frame`).
-/
import proofs.«170767_j317827580173_2_alg».proof.Proof.Gen.Kernel.Regions
import proofs.«170767_j317827580173_2_alg».proof.Proof.ProjBodyBits
import proofs.«170767_j317827580173_2_alg».proof.Proof.AttnBodyBits
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.FrameRun

open Cert.Kernel Cert.Kernel.Gen Cert.Kernel.ProjBody Cert.Kernel.AttnBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- Two distinct references of the TensorCore are distinct buffers of the device. -/
theorem dev_ne {r r' : Ref sig .tc} (h : r ≠ r') : (Proc.devRef .tc r : DevRef τ sig) ≠ Proc.devRef .tc r' :=
  StableHlo.devRef_ne_of_ne h

/-- The launch contents read at the TensorCore's references: what the first region is entered from. -/
abbrev E0 : (c : Dev nD) → (b : Ref sig .tc) → Buf (Elt F) ((c : Thread nD τ).loc b) := fun c b => V0 m c b

/-- The buffers after the first region: its three output arrays after the last point's write-back, every other
    buffer as launched. -/
def X1 (c : Dev nD) : Valuation τ sig (Elt F) :=
  Function.update (Function.update (Function.update (V0 m c) main_v0_0 ((dat0 (E0 m) c).arrAt 4 cfg0.N))
    main_v0_1 ((dat0 (E0 m) c).arrAt 5 cfg0.N)) main_v0_2 ((dat0 (E0 m) c).arrAt 6 cfg0.N)

/-- The same read at the TensorCore's references: what the second region is entered from. -/
abbrev EX1 : (c : Dev nD) → (b : Ref sig .tc) → Buf (Elt F) ((c : Thread nD τ).loc b) := fun c b => X1 m c b

/-- The buffers after the second region: its two output arrays after the last point's write-back, every other
    buffer as the second region found it. -/
def X2 (c : Dev nD) : Valuation τ sig (Elt F) :=
  Function.update (Function.update (X1 m c) main_v1_0 ((dat1 (EX1 m) c).arrAt 6 cfg1.N))
    main_v1_1 ((dat1 (EX1 m) c).arrAt 7 cfg1.N)

/-- What each region leaves, as the unknowns of the conditional frame: after the first region `X1`, after the
    second `X2`. -/
def outs : Outs (F := F)
  | 1, r, c => X1 m c r
  | _, r, c => X2 m c r

theorem outs_one (r : Ref sig .tc) (c : Dev nD) : outs m 1 r c = X1 m c r := rfl
theorem outs_two (r : Ref sig .tc) (c : Dev nD) : outs m 2 r c = X2 m c r := rfl

/-! ### Reading the contents after the first region -/

theorem X1_v0_0 (c : Dev nD) : X1 m c main_v0_0 = (dat0 (E0 m) c).arrAt 4 cfg0.N := by
  unfold X1
  rw [Function.update_of_ne (dev_ne (show main_v0_0 ≠ main_v0_2 by decide)),
    Function.update_of_ne (dev_ne (show main_v0_0 ≠ main_v0_1 by decide)), Function.update_self]
theorem X1_v0_1 (c : Dev nD) : X1 m c main_v0_1 = (dat0 (E0 m) c).arrAt 5 cfg0.N := by
  unfold X1
  rw [Function.update_of_ne (dev_ne (show main_v0_1 ≠ main_v0_2 by decide)), Function.update_self]
theorem X1_v0_2 (c : Dev nD) : X1 m c main_v0_2 = (dat0 (E0 m) c).arrAt 6 cfg0.N := by
  unfold X1
  rw [Function.update_self]

/-- The conditional frame's valuation after the first region, at these unknowns, is `X1`. -/
theorem V1_eq (c : Dev nD) : V1 m (outs m) c = X1 m c := by
  show Function.update (Function.update (Function.update (V0 m c) main_v0_0 (outs m 1 main_v0_0 c))
    main_v0_1 (outs m 1 main_v0_1 c)) main_v0_2 (outs m 1 main_v0_2 c) = X1 m c
  rw [outs_one, outs_one, outs_one, X1_v0_0, X1_v0_1, X1_v0_2]
  unfold X1
  rfl

/-- The contents after the first region, read at the TensorCore's references. -/
abbrev E1 : (c : Dev nD) → (b : Ref sig .tc) → Buf (Elt F) ((c : Thread nD τ).loc b) := fun c b => V1 m (outs m) c b

theorem E1_eq : E1 m = EX1 m := funext fun c => funext fun b => congrFun (V1_eq m c) b

/-- After the first region each of its output arrays holds what the region's write-backs left. -/
theorem V1_v0_0 (c : Dev nD) : V1 m (outs m) c main_v0_0 = (dat0 (E0 m) c).arrAt 4 cfg0.N :=
  (congrFun (V1_eq m c) _).trans (X1_v0_0 m c)
theorem V1_v0_1 (c : Dev nD) : V1 m (outs m) c main_v0_1 = (dat0 (E0 m) c).arrAt 5 cfg0.N :=
  (congrFun (V1_eq m c) _).trans (X1_v0_1 m c)
theorem V1_v0_2 (c : Dev nD) : V1 m (outs m) c main_v0_2 = (dat0 (E0 m) c).arrAt 6 cfg0.N :=
  (congrFun (V1_eq m c) _).trans (X1_v0_2 m c)

/-- After the first region every argument array is as launched. -/
theorem V1_arg0 (c : Dev nD) : V1 m (outs m) c main_arg0 = m ((c : Thread nD τ).loc main_arg0) := V1_of m (outs m) c main_arg0 (by decide)
theorem V1_arg1 (c : Dev nD) : V1 m (outs m) c main_arg1 = m ((c : Thread nD τ).loc main_arg1) := V1_of m (outs m) c main_arg1 (by decide)
theorem V1_arg2 (c : Dev nD) : V1 m (outs m) c main_arg2 = m ((c : Thread nD τ).loc main_arg2) := V1_of m (outs m) c main_arg2 (by decide)
theorem V1_arg3 (c : Dev nD) : V1 m (outs m) c main_arg3 = m ((c : Thread nD τ).loc main_arg3) := V1_of m (outs m) c main_arg3 (by decide)
theorem V1_arg4 (c : Dev nD) : V1 m (outs m) c main_arg4 = m ((c : Thread nD τ).loc main_arg4) := V1_of m (outs m) c main_arg4 (by decide)
theorem V1_arg5 (c : Dev nD) : V1 m (outs m) c main_arg5 = m ((c : Thread nD τ).loc main_arg5) := V1_of m (outs m) c main_arg5 (by decide)
theorem V1_arg6 (c : Dev nD) : V1 m (outs m) c main_arg6 = m ((c : Thread nD τ).loc main_arg6) := V1_of m (outs m) c main_arg6 (by decide)

/-! ### Reading the contents after the second region -/

theorem X2_v1_0 (c : Dev nD) : X2 m c main_v1_0 = (dat1 (EX1 m) c).arrAt 6 cfg1.N := by
  unfold X2
  rw [Function.update_of_ne (dev_ne (show main_v1_0 ≠ main_v1_1 by decide)), Function.update_self]
theorem X2_v1_1 (c : Dev nD) : X2 m c main_v1_1 = (dat1 (EX1 m) c).arrAt 7 cfg1.N := by
  unfold X2
  rw [Function.update_self]

/-- After the second region each of its output arrays holds what the region's write-backs left. -/
theorem V2_v1_0 (c : Dev nD) : V2 m (outs m) c main_v1_0 = (dat1 (E1 m) c).arrAt 6 cfg1.N := by
  show Function.update (Function.update (V1 m (outs m) c) main_v1_0 (outs m 2 main_v1_0 c)) main_v1_1
    (outs m 2 main_v1_1 c) main_v1_0 = _
  rw [Function.update_of_ne (dev_ne (show main_v1_0 ≠ main_v1_1 by decide)), Function.update_self, outs_two, X2_v1_0,
    E1_eq]
theorem V2_v1_1 (c : Dev nD) : V2 m (outs m) c main_v1_1 = (dat1 (E1 m) c).arrAt 7 cfg1.N := by
  show Function.update (Function.update (V1 m (outs m) c) main_v1_0 (outs m 2 main_v1_0 c)) main_v1_1
    (outs m 2 main_v1_1 c) main_v1_1 = _
  rw [Function.update_self, outs_two, X2_v1_1, E1_eq]

/-! ## The regions' arrays at their exits -/

/-- At the first region's exit each of its arrays holds what the pipeline leaves: an input array what it held,
    an output array its write-backs. -/
theorem hF0 (c : Dev nD) (w : Fin 7) : (dat0 (E0 m) c).arrAt w cfg0.N = E1 m c (Pipeline.arrRef spec0 w) :=
  match w with
  | ⟨0, _⟩ => ((dat0 (E0 m) c).arrAt_in 0 rfl _).trans ((A_eq0 (E0 m) c 0).trans (V1_of m (outs m) c main_arg0 (by decide)).symm)
  | ⟨1, _⟩ => ((dat0 (E0 m) c).arrAt_in 1 rfl _).trans ((A_eq0 (E0 m) c 1).trans (V1_of m (outs m) c main_arg1 (by decide)).symm)
  | ⟨2, _⟩ => ((dat0 (E0 m) c).arrAt_in 2 rfl _).trans ((A_eq0 (E0 m) c 2).trans (V1_of m (outs m) c main_arg2 (by decide)).symm)
  | ⟨3, _⟩ => ((dat0 (E0 m) c).arrAt_in 3 rfl _).trans ((A_eq0 (E0 m) c 3).trans (V1_of m (outs m) c main_arg3 (by decide)).symm)
  | ⟨4, _⟩ => (V1_v0_0 m c).symm
  | ⟨5, _⟩ => (V1_v0_1 m c).symm
  | ⟨6, _⟩ => (V1_v0_2 m c).symm

/-- Off the first region's arrays nothing changed. -/
theorem hrest0 (c : Dev nD) : ∀ b, b ∉ Finset.univ.image (Pipeline.arrRef spec0) → E1 m c b = E0 m c b :=
  fun b hb => V1_of m (outs m) c b fun hmem => by
    simp only [List.mem_cons, List.not_mem_nil, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

/-- The contents after the second region, read at the TensorCore's references. -/
abbrev E2 : (c : Dev nD) → (b : Ref sig .tc) → Buf (Elt F) ((c : Thread nD τ).loc b) := fun c b => V2 m (outs m) c b

/-- At the second region's exit each of its arrays holds what the pipeline leaves. -/
theorem hF1 (c : Dev nD) (w : Fin 8) : (dat1 (E1 m) c).arrAt w cfg1.N = E2 m c (Pipeline.arrRef spec1 w) :=
  match w with
  | ⟨0, _⟩ => ((dat1 (E1 m) c).arrAt_in 0 rfl _).trans ((A_eq1 (E1 m) c 0).trans (V2_of m (outs m) c main_v0_0 (by decide)).symm)
  | ⟨1, _⟩ => ((dat1 (E1 m) c).arrAt_in 1 rfl _).trans ((A_eq1 (E1 m) c 1).trans (V2_of m (outs m) c main_v0_1 (by decide)).symm)
  | ⟨2, _⟩ => ((dat1 (E1 m) c).arrAt_in 2 rfl _).trans ((A_eq1 (E1 m) c 2).trans (V2_of m (outs m) c main_v0_2 (by decide)).symm)
  | ⟨3, _⟩ => ((dat1 (E1 m) c).arrAt_in 3 rfl _).trans ((A_eq1 (E1 m) c 3).trans (V2_of m (outs m) c main_arg5 (by decide)).symm)
  | ⟨4, _⟩ => ((dat1 (E1 m) c).arrAt_in 4 rfl _).trans ((A_eq1 (E1 m) c 4).trans (V2_of m (outs m) c main_arg6 (by decide)).symm)
  | ⟨5, _⟩ => ((dat1 (E1 m) c).arrAt_in 5 rfl _).trans ((A_eq1 (E1 m) c 5).trans (V2_of m (outs m) c main_arg4 (by decide)).symm)
  | ⟨6, _⟩ => (V2_v1_0 m c).symm
  | ⟨7, _⟩ => (V2_v1_1 m c).symm

/-- Off the second region's arrays nothing changed. -/
theorem hrest1 (c : Dev nD) : ∀ b, b ∉ Finset.univ.image (Pipeline.arrRef spec1) → E2 m c b = E1 m c b :=
  fun b hb => V2_of m (outs m) c b fun hmem => by
    simp only [List.mem_cons, List.not_mem_nil, or_false] at hmem
    rcases hmem with rfl | rfl
    · exact hb (Finset.mem_image.mpr ⟨6, Finset.mem_univ _, rfl⟩)
    · exact hb (Finset.mem_image.mpr ⟨7, Finset.mem_univ _, rfl⟩)

/-! ## The proof data family and the thread state -/

/-- Each pipeline's proof data at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No core owes another anything: no level is assigned. -/
abbrev L : GSem nD τ sig → Finset Unit := fun _ => ∅
abbrev lv : GSem nD τ sig → Unit → ℕ := fun _ _ => 0

/-- What rides beside the buffers through both regions: the core's generator register at some state and its
    dues, at nothing. -/
abbrev R (c : Dev nD) : sProp 𝕄 :=
  iprop((∃ r, prngReg c r) ∗ ∃ W, owes (c : Thread nD τ) (0 : CellTallies nD τ sig Unit) W)

/-! ## The regions as segments -/

set_option backward.isDefEq.respectTransparency.types false in
/-- The first region over the thread state: entered from every unscoped buffer at the launch contents, left at
    the contents after it. Its arrays are split out of the unscoped buffers at entry and put back at exit; the
    generator register goes into the kernel's invariant and comes back; nothing is owed. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the first
    region, left at the contents after the second. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, and the frame -/

/-- The launch element yields the pipelines' element at every staging cell; no further ghost resource is dealt. -/
theorem launch_elem :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, less the buffers, makes the rest of the first thread state. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of the program terminates and
    every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond (m := m) (EP := emb₁) (ι := ()) (𝒱₀ := Variants.none) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := launch_elem)
    (E := fun _ c => R c) (hE0 := launch_rest ρ)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.FrameRun

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.Spec.lean ====
/-
  The mathematics of the claim, free of any program: fused Q/K/V projections followed by attention over a
  key/value cache of 8192 rows extended by the 16 new rows, per head, with a second softmax of the
  noise-perturbed scores. Everything is a function on literal index sets over the extended reals.

  Two spellings of the same per-row quantities are stated here:
  * the WHOLE-ROW form: one row of 8208 scores, its maximum folded from -inf, the exponentials of the
    differences, their sum from the zero word, each exponential over that sum; the output is the sum over
    all 8208 positions of the normalised weight times the value row;
  * the TWO-CHUNK form: the first 8192 positions (the cache) and the last 16 (the new rows) treated apart:
    the maximum of the two chunk maxima, two sums of exponentials added, the two weighted sums of value
    rows added and THEN divided by the denominator.
  They agree on finite data; the law that joins the outputs is that a quotient of a finite sum by a finite
  nonzero number is the sum of the quotients.
-/
import Idealize.ShloMosaic.PureOps.Ideal
import Idealize.ShloMosaic.Lib.ValueIdx
import proofs.«170767_j317827580173_2_alg».proof.Proof.LibRowReduce

noncomputable section

namespace Cert.Attn

open Idealize.ShloMosaic Idealize.ShloMosaic.ValueIdx

/-- The shapes of the arguments and results. -/
abbrev SX : Shape := ⟨2, ![16, 4096]⟩
abbrev SW : Shape := ⟨2, ![4096, 4096]⟩
abbrev SN : Shape := ⟨3, ![32, 16, 8208]⟩
abbrev SC : Shape := ⟨3, ![32, 8192, 128]⟩

/-- The three float words of the programs: 1.5, -inf and zero. -/
def w15 : EReal := Ideal.ofBits .f32 0x3FC00000#32
def wNegInf : EReal := Ideal.ofBits .f32 0xFF800000#32
def wZero : EReal := Ideal.ofBits .f32 0x00000000#32

/-- Feature `d` of head `h` sits in column `h * 128 + d` of a 4096-wide row. -/
def col (h : Fin 32) (d : Fin 128) : Fin 4096 := ⟨h.val * 128 + d.val, by omega⟩

/-- Position `p` of the cache, and new row `j`, as positions of the extended sequence of 8208. -/
def posC (p : Fin 8192) : Fin 8208 := ⟨p.val, by omega⟩
def posN (j : Fin 16) : Fin 8208 := ⟨8192 + j.val, by omega⟩

/-- A projection `X · W` at row `m`, column `n`. -/
def proj (X : SX.Idx → EReal) (W : SW.Idx → EReal) (m : Fin 16) (n : Fin 4096) : EReal :=
  ∑ k : Fin 4096, X (ix2 m k) * W (ix2 k n)

/-- Head `h`'s extended key (or value) rows: the cache's 8192 rows, then the 16 projected rows. -/
def cat (C : SC.Idx → EReal) (P : Fin 16 → Fin 4096 → EReal) (h : Fin 32) (n : Fin 8208) (d : Fin 128) : EReal :=
  if hn : n.val < 8192 then C (ix3 h ⟨n.val, hn⟩ d) else P ⟨n.val - 8192, by omega⟩ (col h d)

/-- The raw score of query row `m` of head `h` against extended position `n`. -/
def score (q : Fin 16 → Fin 4096 → EReal) (kc : Fin 32 → Fin 8208 → Fin 128 → EReal)
    (h : Fin 32) (m : Fin 16) (n : Fin 8208) : EReal :=
  ∑ d : Fin 128, q m (col h d) * kc h n d

/-- The perturbed score: the raw score plus the noise, over 1.5. -/
def pert (s : Fin 32 → Fin 16 → Fin 8208 → EReal) (Nz : SN.Idx → EReal) (h : Fin 32) (m : Fin 16) (n : Fin 8208) : EReal :=
  Ideal.div (s h m n + Nz (ix3 h m n)) w15

/-! ## The whole-row form -/

/-- A row's maximum, folded from -inf (and once more against -inf, as the host spells it). -/
def rowMax (f : Fin 8208 → EReal) : EReal := max wNegInf (RowReduce.foldMax wNegInf f)
/-- The exponential of a row's entry less the row's maximum. -/
def rowExp (f : Fin 8208 → EReal) (n : Fin 8208) : EReal := Ideal.exp (f n - rowMax f)
/-- The row's denominator: the zero word plus the sum of the exponentials. -/
def rowSum (f : Fin 8208 → EReal) : EReal := wZero + ∑ n : Fin 8208, rowExp f n
/-- The softmax weight of entry `n` of the row. -/
def soft (f : Fin 8208 → EReal) (n : Fin 8208) : EReal := Ideal.div (rowExp f n) (rowSum f)
/-- The attention output of one row: the weights against the value rows, feature `d`. -/
def attend (f : Fin 8208 → EReal) (v : Fin 8208 → Fin 128 → EReal) (d : Fin 128) : EReal :=
  ∑ n : Fin 8208, soft f n * v n d

/-! ## The two-chunk form -/

/-- The maximum of the two chunk maxima, each folded from -inf. -/
def chunkMax (fc : Fin 8192 → EReal) (fn : Fin 16 → EReal) : EReal :=
  max (RowReduce.foldMax wNegInf fc) (RowReduce.foldMax wNegInf fn)
/-- The denominator: the two chunk sums of exponentials, added. -/
def chunkSum (fc : Fin 8192 → EReal) (fn : Fin 16 → EReal) : EReal :=
  (∑ p : Fin 8192, Ideal.exp (fc p - chunkMax fc fn)) + (∑ j : Fin 16, Ideal.exp (fn j - chunkMax fc fn))
/-- The softmax weight of a cache position, and of a new row. -/
def chunkSoftC (fc : Fin 8192 → EReal) (fn : Fin 16 → EReal) (p : Fin 8192) : EReal :=
  Ideal.div (Ideal.exp (fc p - chunkMax fc fn)) (chunkSum fc fn)
def chunkSoftN (fc : Fin 8192 → EReal) (fn : Fin 16 → EReal) (j : Fin 16) : EReal :=
  Ideal.div (Ideal.exp (fn j - chunkMax fc fn)) (chunkSum fc fn)
/-- The attention output of one row: the two weighted sums of value rows added, then divided. -/
def chunkAttend (fc : Fin 8192 → EReal) (fn : Fin 16 → EReal) (vc : Fin 8192 → Fin 128 → EReal)
    (vn : Fin 16 → Fin 128 → EReal) (d : Fin 128) : EReal :=
  Ideal.div ((∑ p : Fin 8192, Ideal.exp (fc p - chunkMax fc fn) * vc p d)
      + (∑ j : Fin 16, Ideal.exp (fn j - chunkMax fc fn) * vn j d)) (chunkSum fc fn)

/-! ## The results as functions of the argument arrays (whole-row form) -/

section
variable (X : SX.Idx → EReal) (Wq Wk Wv : SW.Idx → EReal) (Nz : SN.Idx → EReal) (cK cV : SC.Idx → EReal)

/-- The raw scores of all heads. -/
def scores : Fin 32 → Fin 16 → Fin 8208 → EReal := score (proj X Wq) (cat cK (proj X Wk))

/-- Result 0 at row `m`, head `h`, feature `d` (column `col h d` of the 16 x 4096 array). -/
def G0 (m : Fin 16) (h : Fin 32) (d : Fin 128) : EReal :=
  attend (scores X Wq Wk cK h m) (cat cV (proj X Wv) h) d

/-- Result 1 at head `h`, row `m`, position `n`. -/
def G1 (h : Fin 32) (m : Fin 16) (n : Fin 8208) : EReal :=
  soft (pert (scores X Wq Wk cK) Nz h m) n

end

/-! ## The results in the two-chunk form, and as whole arrays -/

section
variable (X : SX.Idx → EReal) (Wq Wk Wv : SW.Idx → EReal) (Nz : SN.Idx → EReal) (cK cV : SC.Idx → EReal)

/-- Row `m` of head `h`: its raw scores against the cache positions, and against the 16 new rows. -/
def sC (h : Fin 32) (m : Fin 16) (p : Fin 8192) : EReal := ∑ e : Fin 128, proj X Wq m (col h e) * cK (ix3 h p e)
def sN (h : Fin 32) (m : Fin 16) (j : Fin 16) : EReal := ∑ e : Fin 128, proj X Wq m (col h e) * proj X Wk j (col h e)
/-- The same, perturbed. -/
def pC (h : Fin 32) (m : Fin 16) (p : Fin 8192) : EReal := Ideal.div (sC X Wq cK h m p + Nz (ix3 h m (posC p))) w15
def pN (h : Fin 32) (m : Fin 16) (j : Fin 16) : EReal := Ideal.div (sN X Wq Wk h m j + Nz (ix3 h m (posN j))) w15

/-- Result 0 in the two-chunk form. -/
def K0 (m : Fin 16) (h : Fin 32) (d : Fin 128) : EReal :=
  chunkAttend (sC X Wq cK h m) (sN X Wq Wk h m) (fun p e => cV (ix3 h p e)) (fun j e => proj X Wv j (col h e)) d
/-- Result 1 in the two-chunk form, at a cache position and at a new row. -/
def K1C (h : Fin 32) (m : Fin 16) (p : Fin 8192) : EReal := chunkSoftC (pC X Wq Nz cK h m) (pN X Wq Wk Nz h m) p
def K1N (h : Fin 32) (m : Fin 16) (j : Fin 16) : EReal := chunkSoftN (pC X Wq Nz cK h m) (pN X Wq Wk Nz h m) j

/-- Result 0 as a whole 16 x 4096 array: column `n` is feature `n % 128` of head `n / 128`. -/
def R0 : SX.Idx → EReal := fun i =>
  G0 X Wq Wk Wv cK cV (i 0) ⟨(i 1).val / 128, Nat.div_lt_of_lt_mul (i 1).isLt⟩ ⟨(i 1).val % 128, Nat.mod_lt _ (by norm_num)⟩
/-- Result 1 as a whole 32 x 16 x 8208 array. -/
def R1 : SN.Idx → EReal := fun i => G1 X Wq Wk Nz cK (i 0) (i 1) (i 2)

theorem R0_apply (m : Fin 16) (h : Fin 32) (d : Fin 128) :
    R0 X Wq Wk Wv cK cV (ix2 m (col h d)) = G0 X Wq Wk Wv cK cV m h d := by
  have h1 : (h.val * 128 + d.val) / 128 = h.val := by omega
  have h2 : (h.val * 128 + d.val) % 128 = d.val := by omega
  show G0 X Wq Wk Wv cK cV m ⟨(h.val * 128 + d.val) / 128, _⟩ ⟨(h.val * 128 + d.val) % 128, _⟩ = _
  congr 1 <;> exact Fin.ext (by assumption)

theorem R1_apply (h : Fin 32) (m : Fin 16) (n : Fin 8208) :
    R1 X Wq Wk Nz cK (ix3 h m n) = G1 X Wq Wk Nz cK h m n := rfl

end

end Cert.Attn

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibChunkedSum.lean ====
/-
  A long sum cut into equal chunks.

  In any commutative monoid (no subtraction, no finiteness: the extended reals qualify) a sum over the first a*b
  naturals is the sum, over the a chunks s, of the sum over the b positions j inside chunk s of the term at s*b + j.
  Only associativity and commutativity of addition are used, so the regrouping holds whatever the summands are.
-/
import Mathlib.Algebra.BigOperators.Fin
import Mathlib.Algebra.BigOperators.Intervals

open Finset

namespace Cert.ChunkedSum

variable {β : Type*} [AddCommMonoid β]

/-- A sum over `range (a*b)` is the sum over the chunk number of the sums over the positions inside a chunk. -/
theorem sum_range_chunks (a b : ℕ) (f : ℕ → β) :
    ∑ h ∈ range (a * b), f h = ∑ s ∈ range a, ∑ j ∈ range b, f (s * b + j) := by
  induction a with
  | zero => simp
  | succ a ih => rw [Nat.succ_mul, Finset.sum_range_add, ih, Finset.sum_range_succ]

/-- The same with the long sum and the inner sums over `Fin`. -/
theorem sum_fin_chunks (a b : ℕ) (f : ℕ → β) :
    ∑ h : Fin (a * b), f h.val = ∑ s ∈ range a, ∑ j : Fin b, f (s * b + j.val) := by
  rw [Fin.sum_univ_eq_sum_range (fun h => f h) (a * b), sum_range_chunks]
  refine Finset.sum_congr rfl fun s _ => ?_
  rw [Fin.sum_univ_eq_sum_range (fun j => f (s * b + j)) b]

/-- A function on `Fin n` extended by zero to every natural. -/
def ext0 {n : ℕ} (g : Fin n → β) (k : ℕ) : β := if h : k < n then g ⟨k, h⟩ else 0

theorem ext0_val {n : ℕ} (g : Fin n → β) (h : Fin n) : ext0 g h.val = g h := by
  unfold ext0; rw [dif_pos h.isLt]

/-- A sum over `Fin (a*b)` of any function is the sum over the chunks of the chunk sums of its extension. -/
theorem sum_chunks_ext0 (a b : ℕ) (g : Fin (a * b) → β) :
    ∑ h : Fin (a * b), g h = ∑ s ∈ range a, ∑ j : Fin b, ext0 g (s * b + j.val) := by
  rw [← sum_fin_chunks a b (ext0 g)]
  exact Finset.sum_congr rfl fun h _ => (ext0_val g h).symm

end Cert.ChunkedSum
-- ==== Proof.ProjPayload.lean ====
/-
  The projection kernel's pure values on the extended reals.

  Each grid step of the projection kernel adds, to three running 16 x 1024 blocks, the product of a 16 x 512 block of
  the input rows with a 512 x 1024 block of one of the three weight matrices; the first step of a run starts the
  running blocks at zero. On the extended reals a change of float format is the identity and the matrix-unit product
  into a zero accumulator is the plain sum of products, so the value stored at (p, e) is the running entry plus the
  sum over the 512 contracted positions of x(p, k) * w(k, e), and the starting value is 0.
-/
import proofs.«170767_j317827580173_2_alg».proof.Proof.Gen.KernelIdeal.Skeleton
import proofs.«170767_j317827580173_2_alg».proof.Proof.Spec
import proofs.«170767_j317827580173_2_alg».proof.Proof.LibColsMatmul
import proofs.«170767_j317827580173_2_alg».proof.Proof.LibChunkedSum
import Idealize.ShloMosaic.Lib.Pipeline.Value
import Idealize.ShloMosaic.Lib.ValueIdx

noncomputable section

namespace Cert.KernelIdeal.ProjPayload

open Idealize.ShloMosaic Idealize.ShloMosaic.ValueIdx

/-- The printed dimension record is "rows against columns". -/
theorem dot_eq : dot_S16x512_S512x1024_S16x1024_1_0_0_1_n_n
    = Cert.ColsMatmul.colsDims (a := 16) (n := 512) (b := 1024) Gen.dot_S16x512_S512x1024_S16x1024_1_0_0_1_n_n_wf := rfl

/-- The block product at (p, e): the operands' change of format is the identity, the accumulator is zero. -/
theorem block_prod (x : Vec Ideal S16x512 .f32) (w : Vec Ideal S512x1024 .f32) (p : Fin 16) (e : Fin 1024) :
    matmul dot_S16x512_S512x1024_S16x1024_1_0_0_1_n_n none (Gen.k0_pay4 x) (truncf .bf16 w Gen.bitsLt_bf16_f32)
        (constant S16x1024 .f32 0x00000000#32) (ix2 p e)
      = ∑ k : Fin 512, x (ix2 p k) * w (ix2 k e) :=
  Cert.ColsMatmul.cols_matmul _ _ dot_eq (Gen.k0_pay4 x) (truncf .bf16 w Gen.bitsLt_bf16_f32) p e

theorem pay5_apply (x : Vec Ideal S16x512 .f32) (w : Vec Ideal S512x1024 .f32) (a : Vec Ideal S16x1024 .f32)
    (p : Fin 16) (e : Fin 1024) :
    Gen.k0_pay5 x w a (ix2 p e) = a (ix2 p e) + ∑ k : Fin 512, x (ix2 p k) * w (ix2 k e) := by
  unfold Gen.k0_pay5
  rw [shapeCast_self]
  exact congrArg (a (ix2 p e) + ·) (block_prod x w p e)

theorem pay6_apply (x : Vec Ideal S16x512 .f32) (w : Vec Ideal S512x1024 .f32) (a : Vec Ideal S16x1024 .f32)
    (p : Fin 16) (e : Fin 1024) :
    Gen.k0_pay6 x w a (ix2 p e) = a (ix2 p e) + ∑ k : Fin 512, x (ix2 p k) * w (ix2 k e) := by
  unfold Gen.k0_pay6
  rw [shapeCast_self]
  exact congrArg (a (ix2 p e) + ·) (block_prod x w p e)

theorem pay7_apply (x : Vec Ideal S16x512 .f32) (w : Vec Ideal S512x1024 .f32) (a : Vec Ideal S16x1024 .f32)
    (p : Fin 16) (e : Fin 1024) :
    Gen.k0_pay7 x w a (ix2 p e) = a (ix2 p e) + ∑ k : Fin 512, x (ix2 p k) * w (ix2 k e) := by
  unfold Gen.k0_pay7
  rw [shapeCast_self]
  exact congrArg (a (ix2 p e) + ·) (block_prod x w p e)

/-- The starting blocks are zero: a broadcast of the zero word. -/
theorem pay1_apply (p : Fin 16) (e : Fin 1024) : Gen.k0_pay1 (F := Ideal) (ix2 p e) = 0 := by
  unfold Gen.k0_pay1
  rw [shapeCast_self]
  exact Ideal.ofBits_zero_f32

theorem pay2_apply (p : Fin 16) (e : Fin 1024) : Gen.k0_pay2 (F := Ideal) (ix2 p e) = 0 := by
  unfold Gen.k0_pay2
  rw [shapeCast_self]
  exact Ideal.ofBits_zero_f32

theorem pay3_apply (p : Fin 16) (e : Fin 1024) : Gen.k0_pay3 (F := Ideal) (ix2 p e) = 0 := by
  unfold Gen.k0_pay3
  rw [shapeCast_self]
  exact Ideal.ofBits_zero_f32

end Cert.KernelIdeal.ProjPayload

/-! ## Eight partial products make the projection -/

namespace Cert.Attn

open Idealize.ShloMosaic Idealize.ShloMosaic.ValueIdx

/-- Position `k` of chunk `j` of a row of 4096 cut into 8 chunks of 512. -/
def blk (j : Fin 8) (k : Fin 512) : Fin 4096 := ⟨j.val * 512 + k.val, by omega⟩

/-- A total that starts at `0 + t 0` and adds `t (j+1)` at step `j + 1` is, after the eighth step, the sum of the
    eight terms. Only the laws of a commutative monoid are used, so nothing is asked of the terms. -/
theorem acc_eight_steps (t acc : Fin 8 → EReal) (h0 : acc 0 = 0 + t 0)
    (hs : ∀ j : Fin 7, acc j.succ = acc j.castSucc + t j.succ) : acc 7 = ∑ j : Fin 8, t j := by
  have h1 : acc 1 = acc 0 + t 1 := hs 0
  have h2 : acc 2 = acc 1 + t 2 := hs 1
  have h3 : acc 3 = acc 2 + t 3 := hs 2
  have h4 : acc 4 = acc 3 + t 4 := hs 3
  have h5 : acc 5 = acc 4 + t 5 := hs 4
  have h6 : acc 6 = acc 5 + t 6 := hs 5
  have h7 : acc 7 = acc 6 + t 7 := hs 6
  rw [Fin.sum_univ_eight, h7, h6, h5, h4, h3, h2, h1, h0, zero_add]

/-- A sum over the 4096 positions is the sum over the 8 chunks of the sums over the 512 positions of a chunk. -/
theorem sum_blk {M : Type*} [AddCommMonoid M] (g : Fin 4096 → M) :
    ∑ j : Fin 8, ∑ k : Fin 512, g (blk j k) = ∑ n : Fin 4096, g n := by
  rw [Cert.ChunkedSum.sum_chunks_ext0 8 512 g, ← Fin.sum_univ_eq_sum_range (fun s => ∑ k : Fin 512, Cert.ChunkedSum.ext0 g (s * 512 + k.val)) 8]
  exact Finset.sum_congr rfl fun j _ => Finset.sum_congr rfl fun k _ => (Cert.ChunkedSum.ext0_val g (blk j k)).symm

/-- THE ACCUMULATION over the terms of one long sum: a total that starts at zero plus the first chunk's sum and adds
    one chunk's sum per step is, after the eighth step, the sum over all 4096 positions. -/
theorem acc_eight_blocks (g : Fin 4096 → EReal) (acc : Fin 8 → EReal)
    (h0 : acc 0 = 0 + ∑ k : Fin 512, g (blk 0 k))
    (hs : ∀ j : Fin 7, acc j.succ = acc j.castSucc + ∑ k : Fin 512, g (blk j.succ k)) :
    acc 7 = ∑ n : Fin 4096, g n :=
  (acc_eight_steps (fun j => ∑ k : Fin 512, g (blk j k)) acc h0 hs).trans (sum_blk g)

/-- The same for terms given chunk by chunk: position `n` of the long sum is position `n % 512` of chunk `n / 512`. -/
theorem acc_eight (f : Fin 8 → Fin 512 → EReal) (acc : Fin 8 → EReal) (h0 : acc 0 = 0 + ∑ k, f 0 k)
    (hs : ∀ j : Fin 7, acc j.succ = acc j.castSucc + ∑ k, f j.succ k) :
    acc 7 = ∑ n : Fin 4096, f ⟨n.val / 512, by omega⟩ ⟨n.val % 512, by omega⟩ := by
  have hf : ∀ (j : Fin 8) (k : Fin 512),
      f j k = (fun n : Fin 4096 => f ⟨n.val / 512, by omega⟩ ⟨n.val % 512, by omega⟩) (blk j k) := fun j k => by
    have h1 : (⟨(j.val * 512 + k.val) / 512, by omega⟩ : Fin 8) = j :=
      Fin.ext (by show (j.val * 512 + k.val) / 512 = j.val; omega)
    have h2 : (⟨(j.val * 512 + k.val) % 512, by omega⟩ : Fin 512) = k :=
      Fin.ext (by show (j.val * 512 + k.val) % 512 = k.val; omega)
    exact (congrArg₂ f h1 h2).symm
  refine acc_eight_blocks (fun n : Fin 4096 => f ⟨n.val / 512, by omega⟩ ⟨n.val % 512, by omega⟩) acc ?_ ?_
  · rw [h0]; exact congrArg (0 + ·) (Finset.sum_congr rfl fun k _ => hf 0 k)
  · intro j; rw [hs j]; exact congrArg (acc j.castSucc + ·) (Finset.sum_congr rfl fun k _ => hf j.succ k)

/-- The projection from its eight partial products: with the running total fed, at step `j`, the products of row `p` of
    `X` and column `n` of `W` over the 512 positions of chunk `j`, the eighth total is the projection's entry. -/
theorem proj_of_acc (X : SX.Idx → EReal) (W : SW.Idx → EReal) (p : Fin 16) (n : Fin 4096) (acc : Fin 8 → EReal)
    (h0 : acc 0 = 0 + ∑ k : Fin 512, X (ix2 p (blk 0 k)) * W (ix2 (blk 0 k) n))
    (hs : ∀ j : Fin 7, acc j.succ = acc j.castSucc + ∑ k : Fin 512, X (ix2 p (blk j.succ k)) * W (ix2 (blk j.succ k) n)) :
    acc 7 = proj X W p n :=
  acc_eight_blocks (fun k => X (ix2 p k) * W (ix2 k n)) acc h0 hs

end Cert.Attn

end
-- ==== Proof.ProjValue.lean ====
/-
  From blocks to arrays: what the projection region leaves in its three output arrays.

  The region runs over 4 column tiles of 8 trips each (grid point 8 n + j is trip j of tile n). At trip j of tile n the
  kernel reads columns 512 j … 512 j + 511 of the 16 input rows and rows 512 j … 512 j + 511, columns 1024 n … 1024 n + 1023
  of each weight matrix, and adds the block product to a running 16 x 1024 block that the tile's first trip starts
  from zero. So after the tile's eighth trip the running entry (p, e) is

      0 + ∑_{k < 512} X(p, k) W(k, 1024 n + e) + … + ∑_{k < 512} X(p, 3584 + k) W(3584 + k, 1024 n + e)
        = ∑_{k < 4096} X(p, k) W(k, 1024 n + e),

  the projection's entry at row p and column 1024 n + e: a sum over 4096 positions is the sum over its 8 chunks of
  512, whatever the summands (only associativity and commutativity of + are used, so nothing is asked of the data).
  Only a tile's last trip writes its block back, to columns 1024 n … 1024 n + 1023 of the output array; the four last
  trips cover every column, so each output array ends holding the whole projection.
-/
import proofs.«170767_j317827580173_2_alg».proof.Proof.ProjBody
import proofs.«170767_j317827580173_2_alg».proof.Proof.ProjPayload
import proofs.«170767_j317827580173_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.ProjValue

open Cert.KernelIdeal Cert.KernelIdeal.Gen Cert.KernelIdeal.ProjBody Idealize.ShloMosaic.ValueIdx
open Cert.Attn (proj blk)

/-- Column `e` of column tile `n` of a row of 4096 cut into 4 tiles of 1024. -/
def colOf (n : Fin 4) (e : Fin 1024) : Fin 4096 := ⟨n.val * 1024 + e.val, by omega⟩

/-- The grid has 32 points: 4 column tiles of 8 trips. -/
theorem hN : cfg0.N = 32 := Gen.N_0

/-- Trip `j` of tile `n` is grid point `8 n + j`. -/
theorem pt_lt (n : Fin 4) (j : Fin 8) : 8 * n.val + j.val < cfg0.N := by rw [hN]; omega
def pt (n : Fin 4) (j : Fin 8) : Fin cfg0.N := ⟨8 * n.val + j.val, pt_lt n j⟩

/-- The printed index maps, decided once over the grid. -/
theorem idx_facts : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = t.val % 8 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = t.val / 8
    ∧ win0_6.index t (0 : Fin 2) = 0 ∧ win0_6.index t (1 : Fin 2) = t.val / 8 :=
  (by decide +kernel : ∀ t : Fin grid0.N, _)

variable (V : (c : Dev nD) → (b : Ref sig .tc) → Buf (Elt Ideal) ((c : Thread nD τ).loc b))

/-- The input rows' block at a point of trip `j`: columns `512 j … 512 j + 511`. -/
theorem iblk_X (c : Dev nD) (t : Fin cfg0.N) (j : Fin 8) (hj : t.val % 8 = j.val) (p : Fin 16) (k : Fin 512) :
    (iblk0 V c 0 t : Vec Ideal S16x512 .f32) (ix2 p k) = (V c main_arg0 : Cert.Attn.SX.Idx → EReal) (ix2 p (blk j k)) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 16 + 1 * p.val = p.val; rw [e0]; omega
  | ⟨1, _⟩ => show win0_0.index t 1 * 512 + 1 * k.val = j.val * 512 + k.val; rw [e1, hj]; omega
/-- A weight matrix's block at a point of trip `j` of tile `n`: rows `512 j …`, columns `1024 n …`. -/
theorem iblk_W1 (c : Dev nD) (t : Fin cfg0.N) (j : Fin 8) (n : Fin 4) (hj : t.val % 8 = j.val) (hn : t.val / 8 = n.val)
    (k : Fin 512) (e : Fin 1024) :
    (iblk0 V c 1 t : Vec Ideal S512x1024 .f32) (ix2 k e)
      = (V c main_arg1 : Cert.Attn.SW.Idx → EReal) (ix2 (blk j k) (colOf n e)) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 512 + 1 * k.val = j.val * 512 + k.val; rw [e0, hj]; omega
  | ⟨1, _⟩ => show win0_1.index t 1 * 1024 + 1 * e.val = n.val * 1024 + e.val; rw [e1, hn]; omega

/-- A weight matrix's block at a point of trip `j` of tile `n`: rows `512 j …`, columns `1024 n …`. -/
theorem iblk_W2 (c : Dev nD) (t : Fin cfg0.N) (j : Fin 8) (n : Fin 4) (hj : t.val % 8 = j.val) (hn : t.val / 8 = n.val)
    (k : Fin 512) (e : Fin 1024) :
    (iblk0 V c 2 t : Vec Ideal S512x1024 .f32) (ix2 k e)
      = (V c main_arg2 : Cert.Attn.SW.Idx → EReal) (ix2 (blk j k) (colOf n e)) := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 512 + 1 * k.val = j.val * 512 + k.val; rw [e0, hj]; omega
  | ⟨1, _⟩ => show win0_2.index t 1 * 1024 + 1 * e.val = n.val * 1024 + e.val; rw [e1, hn]; omega

/-- A weight matrix's block at a point of trip `j` of tile `n`: rows `512 j …`, columns `1024 n …`. -/
theorem iblk_W3 (c : Dev nD) (t : Fin cfg0.N) (j : Fin 8) (n : Fin 4) (hj : t.val % 8 = j.val) (hn : t.val / 8 = n.val)
    (k : Fin 512) (e : Fin 1024) :
    (iblk0 V c 3 t : Vec Ideal S512x1024 .f32) (ix2 k e)
      = (V c main_arg3 : Cert.Attn.SW.Idx → EReal) (ix2 (blk j k) (colOf n e)) := by
  obtain ⟨-, -, -, -, -, -, e0, e1, -⟩ := idx_facts t
  unfold iblk0
  rw [View.read_apply]
  show V c main_arg3 _ = V c main_arg3 _
  congr 1
  funext a
  apply Fin.ext
  match a with
  | ⟨0, _⟩ => show win0_3.index t 0 * 512 + 1 * k.val = j.val * 512 + k.val; rw [e0, hj]; omega
  | ⟨1, _⟩ => show win0_3.index t 1 * 1024 + 1 * e.val = n.val * 1024 + e.val; rw [e1, hn]; omega

/-- Equal positions give equal accumulators (the bound proofs are irrelevant). -/
theorem accAt_congr (c : Dev nD) (a b : ℕ) (ha : a < cfg0.N) (hb : b < cfg0.N) (h : a = b) : accAt V c a ha = accAt V c b hb := by
  subst h; rfl

/-- THE ACCUMULATION, for the first accumulator: after the eighth trip of tile `n` its entry (p, e) is the projection's
    entry at row p and column `1024 n + e`. -/
theorem acc4_tile (c : Dev nD) (n : Fin 4) (p : Fin 16) (e : Fin 1024) :
    (accAt V c (pt n 7).val (pt n 7).isLt).1 (ix2 p e)
      = proj (V c main_arg0) (V c main_arg1) p (colOf n e) := by
  refine Cert.Attn.proj_of_acc (V c main_arg0) (V c main_arg1) p (colOf n e)
    (fun j => (accAt V c (pt n j).val (pt n j).isLt).1 (ix2 p e)) ?_ ?_
  · show (accAt V c (pt n 0).val (pt n 0).isLt).1 (ix2 p e) = _
    rw [accAt_first V c (pt n 0) (by show (8 * n.val + 0) % 8 = 0; omega)]
    show Gen.k0_pay5 (iblk0 V c 0 (pt n 0)) (iblk0 V c 1 (pt n 0)) (Gen.k0_pay1 (F := Ideal)) (ix2 p e) = _
    refine (ProjPayload.pay5_apply (iblk0 V c 0 (pt n 0)) (iblk0 V c 1 (pt n 0)) (Gen.k0_pay1 (F := Ideal)) p e).trans ?_
    rw [ProjPayload.pay1_apply]
    refine congrArg (0 + ·) (Finset.sum_congr rfl fun k _ => ?_)
    rw [iblk_X V c (pt n 0) 0 (by show (8 * n.val + 0) % 8 = 0; omega) p k,
      iblk_W1 V c (pt n 0) 0 n (by show (8 * n.val + 0) % 8 = 0; omega) (by show (8 * n.val + 0) / 8 = n.val; omega) k e]
  · intro j
    show (accAt V c (pt n j.succ).val (pt n j.succ).isLt).1 (ix2 p e) = (accAt V c (pt n j.castSucc).val (pt n j.castSucc).isLt).1 (ix2 p e) + _
    have hj1 : (pt n j.succ).val = 8 * n.val + (j.val + 1) := rfl
    rw [accAt_next V c (pt n j.succ) (by rw [hj1]; omega)]
    show Gen.k0_pay5 (iblk0 V c 0 (pt n j.succ)) (iblk0 V c 1 (pt n j.succ)) (accAt V c ((pt n j.succ).val - 1) _).1 (ix2 p e) = _
    refine (ProjPayload.pay5_apply (iblk0 V c 0 (pt n j.succ)) (iblk0 V c 1 (pt n j.succ)) (accAt V c ((pt n j.succ).val - 1) _).1 p e).trans ?_
    rw [accAt_congr V c ((pt n j.succ).val - 1) (pt n j.castSucc).val _ (pt n j.castSucc).isLt
      (by show 8 * n.val + (j.val + 1) - 1 = 8 * n.val + j.val; omega)]
    refine congrArg (_ + ·) (Finset.sum_congr rfl fun k _ => ?_)
    rw [iblk_X V c (pt n j.succ) j.succ (by rw [hj1]; show _ = j.val + 1; omega) p k,
      iblk_W1 V c (pt n j.succ) j.succ n (by rw [hj1]; show _ = j.val + 1; omega) (by rw [hj1]; omega) k e]
/-- THE ACCUMULATION, for the second accumulator: after the eighth trip of tile `n` its entry (p, e) is the projection's
    entry at row p and column `1024 n + e`. -/
theorem acc5_tile (c : Dev nD) (n : Fin 4) (p : Fin 16) (e : Fin 1024) :
    (accAt V c (pt n 7).val (pt n 7).isLt).2.1 (ix2 p e)
      = proj (V c main_arg0) (V c main_arg2) p (colOf n e) := by
  refine Cert.Attn.proj_of_acc (V c main_arg0) (V c main_arg2) p (colOf n e)
    (fun j => (accAt V c (pt n j).val (pt n j).isLt).2.1 (ix2 p e)) ?_ ?_
  · show (accAt V c (pt n 0).val (pt n 0).isLt).2.1 (ix2 p e) = _
    rw [accAt_first V c (pt n 0) (by show (8 * n.val + 0) % 8 = 0; omega)]
    show Gen.k0_pay6 (iblk0 V c 0 (pt n 0)) (iblk0 V c 2 (pt n 0)) (Gen.k0_pay2 (F := Ideal)) (ix2 p e) = _
    refine (ProjPayload.pay6_apply (iblk0 V c 0 (pt n 0)) (iblk0 V c 2 (pt n 0)) (Gen.k0_pay2 (F := Ideal)) p e).trans ?_
    rw [ProjPayload.pay2_apply]
    refine congrArg (0 + ·) (Finset.sum_congr rfl fun k _ => ?_)
    rw [iblk_X V c (pt n 0) 0 (by show (8 * n.val + 0) % 8 = 0; omega) p k,
      iblk_W2 V c (pt n 0) 0 n (by show (8 * n.val + 0) % 8 = 0; omega) (by show (8 * n.val + 0) / 8 = n.val; omega) k e]
  · intro j
    show (accAt V c (pt n j.succ).val (pt n j.succ).isLt).2.1 (ix2 p e) = (accAt V c (pt n j.castSucc).val (pt n j.castSucc).isLt).2.1 (ix2 p e) + _
    have hj1 : (pt n j.succ).val = 8 * n.val + (j.val + 1) := rfl
    rw [accAt_next V c (pt n j.succ) (by rw [hj1]; omega)]
    show Gen.k0_pay6 (iblk0 V c 0 (pt n j.succ)) (iblk0 V c 2 (pt n j.succ)) (accAt V c ((pt n j.succ).val - 1) _).2.1 (ix2 p e) = _
    refine (ProjPayload.pay6_apply (iblk0 V c 0 (pt n j.succ)) (iblk0 V c 2 (pt n j.succ)) (accAt V c ((pt n j.succ).val - 1) _).2.1 p e).trans ?_
    rw [accAt_congr V c ((pt n j.succ).val - 1) (pt n j.castSucc).val _ (pt n j.castSucc).isLt
      (by show 8 * n.val + (j.val + 1) - 1 = 8 * n.val + j.val; omega)]
    refine congrArg (_ + ·) (Finset.sum_congr rfl fun k _ => ?_)
    rw [iblk_X V c (pt n j.succ) j.succ (by rw [hj1]; show _ = j.val + 1; omega) p k,
      iblk_W2 V c (pt n j.succ) j.succ n (by rw [hj1]; show _ = j.val + 1; omega) (by rw [hj1]; omega) k e]
/-- THE ACCUMULATION, for the third accumulator: after the eighth trip of tile `n` its entry (p, e) is the projection's
    entry at row p and column `1024 n + e`. -/
theorem acc6_tile (c : Dev nD) (n : Fin 4) (p : Fin 16) (e : Fin 1024) :
    (accAt V c (pt n 7).val (pt n 7).isLt).2.2 (ix2 p e)
      = proj (V c main_arg0) (V c main_arg3) p (colOf n e) := by
  refine Cert.Attn.proj_of_acc (V c main_arg0) (V c main_arg3) p (colOf n e)
    (fun j => (accAt V c (pt n j).val (pt n j).isLt).2.2 (ix2 p e)) ?_ ?_
  · show (accAt V c (pt n 0).val (pt n 0).isLt).2.2 (ix2 p e) = _
    rw [accAt_first V c (pt n 0) (by show (8 * n.val + 0) % 8 = 0; omega)]
    show Gen.k0_pay7 (iblk0 V c 0 (pt n 0)) (iblk0 V c 3 (pt n 0)) (Gen.k0_pay3 (F := Ideal)) (ix2 p e) = _
    refine (ProjPayload.pay7_apply (iblk0 V c 0 (pt n 0)) (iblk0 V c 3 (pt n 0)) (Gen.k0_pay3 (F := Ideal)) p e).trans ?_
    rw [ProjPayload.pay3_apply]
    refine congrArg (0 + ·) (Finset.sum_congr rfl fun k _ => ?_)
    rw [iblk_X V c (pt n 0) 0 (by show (8 * n.val + 0) % 8 = 0; omega) p k,
      iblk_W3 V c (pt n 0) 0 n (by show (8 * n.val + 0) % 8 = 0; omega) (by show (8 * n.val + 0) / 8 = n.val; omega) k e]
  · intro j
    show (accAt V c (pt n j.succ).val (pt n j.succ).isLt).2.2 (ix2 p e) = (accAt V c (pt n j.castSucc).val (pt n j.castSucc).isLt).2.2 (ix2 p e) + _
    have hj1 : (pt n j.succ).val = 8 * n.val + (j.val + 1) := rfl
    rw [accAt_next V c (pt n j.succ) (by rw [hj1]; omega)]
    show Gen.k0_pay7 (iblk0 V c 0 (pt n j.succ)) (iblk0 V c 3 (pt n j.succ)) (accAt V c ((pt n j.succ).val - 1) _).2.2 (ix2 p e) = _
    refine (ProjPayload.pay7_apply (iblk0 V c 0 (pt n j.succ)) (iblk0 V c 3 (pt n j.succ)) (accAt V c ((pt n j.succ).val - 1) _).2.2 p e).trans ?_
    rw [accAt_congr V c ((pt n j.succ).val - 1) (pt n j.castSucc).val _ (pt n j.castSucc).isLt
      (by show 8 * n.val + (j.val + 1) - 1 = 8 * n.val + j.val; omega)]
    refine congrArg (_ + ·) (Finset.sum_congr rfl fun k _ => ?_)
    rw [iblk_X V c (pt n j.succ) j.succ (by rw [hj1]; show _ = j.val + 1; omega) p k,
      iblk_W3 V c (pt n j.succ) j.succ n (by rw [hj1]; show _ = j.val + 1; omega) (by rw [hj1]; omega) k e]

/-- A flushing point is the last trip of some tile. -/
theorem flush_pt (t : Fin cfg0.N) (h7 : t.val % 8 = 7) : ∃ n : Fin 4, t = pt n 7 := by
  have htl : t.val < 32 := lt_of_lt_of_eq t.isLt hN
  exact ⟨⟨t.val / 8, by omega⟩, Fin.ext (by show t.val = 8 * (t.val / 8) + 7; omega)⟩

/-- WHAT A TILE'S LAST TRIP WRITES BACK to the first output: its block of the projection `X · W_q`. -/
theorem flushed4_eq (c : Dev nD) (t : Fin cfg0.N) (hf : (cfg0.win 4).flush t = true) :
    (dat0 V c).flushed 4 t
      = ((cfg0.win 4).blk t).view.read (Elt Ideal) (fun i => proj (V c main_arg0) (V c main_arg1) (i 0) (i 1)) := by
  obtain ⟨n, rfl⟩ := flush_pt t ((Gen.flush0_4 t).mp hf)
  obtain ⟨-, -, -, -, -, -, -, -, f0, f1, -⟩ := idx_facts (pt n 7)
  show (cfg0.win 4).cut (grid0.coords (pt n 7)) ((dat0 V c).after 4 (pt n 7)) = _
  rw [after0_4]
  funext y
  obtain ⟨p, e, rfl⟩ : ∃ (p : Fin 16) (e : Fin 1024), y = ix2 p e := ⟨y 0, y 1, eq_ix2 y⟩
  show (accAt V c (pt n 7).val (pt n 7).isLt).1 (ix2 p e)
    = proj (V c main_arg0) (V c main_arg1) ((((cfg0.win 4).blk (pt n 7)).view.emb (ix2 p e)) 0) ((((cfg0.win 4).blk (pt n 7)).view.emb (ix2 p e)) 1)
  have e0 : (((cfg0.win 4).blk (pt n 7)).view.emb (ix2 p e)) 0 = p :=
    Fin.ext (by show win0_4.index (pt n 7) 0 * 16 + 1 * p.val = p.val; rw [f0]; omega)
  have e1 : (((cfg0.win 4).blk (pt n 7)).view.emb (ix2 p e)) 1 = colOf n e :=
    Fin.ext (by show win0_4.index (pt n 7) 1 * 1024 + 1 * e.val = n.val * 1024 + e.val; rw [f1]; show (8 * n.val + 7) / 8 * 1024 + 1 * e.val = _; omega)
  exact (acc4_tile V c n p e).trans (congrArg₂ (proj (V c main_arg0) (V c main_arg1)) e0.symm e1.symm)

/-- An index of the first output array is in point `t`'s block iff each coordinate is in the block's range. -/
theorem mem_blk4 (t : Fin cfg0.N) (i : S16x4096.Idx) :
    i ∈ ((cfg0.win 4).blk t).view.set ↔ ∀ a : Fin 2, win0_4.index t a * S16x1024.size a ≤ (i a).val
      ∧ (i a).val < win0_4.index t a * S16x1024.size a + S16x1024.size a := by
  show i ∈ ((View.whole main_v0_0).slice (win0_4.rect t)).set ↔ _
  rw [View.set_slice_whole, Rect.mem_set_unit]
  exact Iff.rfl

/-- Column `q` of the array is written back by the last trip of tile `q / 1024`. -/
theorem cover4 (i : S16x4096.Idx) : ∃ t : Fin cfg0.N, (cfg0.win 4).flush t = true ∧ i ∈ ((cfg0.win 4).blk t).view.set := by
  have hi0 : (i 0).val < 16 := (i 0).isLt
  have hi1 : (i 1).val < 4096 := (i 1).isLt
  obtain ⟨-, -, -, -, -, -, -, -, f0, f1, -⟩ := idx_facts (pt ⟨(i 1).val / 1024, by omega⟩ 7)
  refine ⟨pt ⟨(i 1).val / 1024, by omega⟩ 7, (Gen.flush0_4 _).mpr (by show (8 * ((i 1).val / 1024) + 7) % 8 = 7; omega), ?_⟩
  rw [mem_blk4]
  intro a
  match a with
  | ⟨0, _⟩ =>
    show win0_4.index (pt ⟨(i 1).val / 1024, _⟩ 7) 0 * 16 ≤ (i 0).val ∧ (i 0).val < win0_4.index (pt ⟨(i 1).val / 1024, _⟩ 7) 0 * 16 + 16
    rw [f0]; omega
  | ⟨1, _⟩ =>
    show win0_4.index (pt ⟨(i 1).val / 1024, _⟩ 7) 1 * 1024 ≤ (i 1).val ∧ (i 1).val < win0_4.index (pt ⟨(i 1).val / 1024, _⟩ 7) 1 * 1024 + 1024
    rw [f1]
    show (8 * ((i 1).val / 1024) + 7) / 8 * 1024 ≤ (i 1).val ∧ (i 1).val < (8 * ((i 1).val / 1024) + 7) / 8 * 1024 + 1024
    omega

/-- THE FIRST OUTPUT ARRAY after the region: the projection `X · W_q`. -/
theorem final4 (c : Dev nD) :
    (dat0 V c).arrAt 4 cfg0.N = fun i => proj (V c main_arg0) (V c main_arg1) (i 0) (i 1) :=
  (dat0 V c).arrAt_eq_of_cover 4 _ (fun t ht => flushed4_eq V c t ht) cover4
/-- WHAT A TILE'S LAST TRIP WRITES BACK to the second output: its block of the projection `X · W_k`. -/
theorem flushed5_eq (c : Dev nD) (t : Fin cfg0.N) (hf : (cfg0.win 5).flush t = true) :
    (dat0 V c).flushed 5 t
      = ((cfg0.win 5).blk t).view.read (Elt Ideal) (fun i => proj (V c main_arg0) (V c main_arg2) (i 0) (i 1)) := by
  obtain ⟨n, rfl⟩ := flush_pt t ((Gen.flush0_5 t).mp hf)
  obtain ⟨-, -, -, -, -, -, -, -, -, -, f0, f1, -⟩ := idx_facts (pt n 7)
  show (cfg0.win 5).cut (grid0.coords (pt n 7)) ((dat0 V c).after 5 (pt n 7)) = _
  rw [after0_5]
  funext y
  obtain ⟨p, e, rfl⟩ : ∃ (p : Fin 16) (e : Fin 1024), y = ix2 p e := ⟨y 0, y 1, eq_ix2 y⟩
  show (accAt V c (pt n 7).val (pt n 7).isLt).2.1 (ix2 p e)
    = proj (V c main_arg0) (V c main_arg2) ((((cfg0.win 5).blk (pt n 7)).view.emb (ix2 p e)) 0) ((((cfg0.win 5).blk (pt n 7)).view.emb (ix2 p e)) 1)
  have e0 : (((cfg0.win 5).blk (pt n 7)).view.emb (ix2 p e)) 0 = p :=
    Fin.ext (by show win0_5.index (pt n 7) 0 * 16 + 1 * p.val = p.val; rw [f0]; omega)
  have e1 : (((cfg0.win 5).blk (pt n 7)).view.emb (ix2 p e)) 1 = colOf n e :=
    Fin.ext (by show win0_5.index (pt n 7) 1 * 1024 + 1 * e.val = n.val * 1024 + e.val; rw [f1]; show (8 * n.val + 7) / 8 * 1024 + 1 * e.val = _; omega)
  exact (acc5_tile V c n p e).trans (congrArg₂ (proj (V c main_arg0) (V c main_arg2)) e0.symm e1.symm)

/-- An index of the second output array is in point `t`'s block iff each coordinate is in the block's range. -/
theorem mem_blk5 (t : Fin cfg0.N) (i : S16x4096.Idx) :
    i ∈ ((cfg0.win 5).blk t).view.set ↔ ∀ a : Fin 2, win0_5.index t a * S16x1024.size a ≤ (i a).val
      ∧ (i a).val < win0_5.index t a * S16x1024.size a + S16x1024.size a := by
  show i ∈ ((View.whole main_v0_1).slice (win0_5.rect t)).set ↔ _
  rw [View.set_slice_whole, Rect.mem_set_unit]
  exact Iff.rfl

/-- Column `q` of the array is written back by the last trip of tile `q / 1024`. -/
theorem cover5 (i : S16x4096.Idx) : ∃ t : Fin cfg0.N, (cfg0.win 5).flush t = true ∧ i ∈ ((cfg0.win 5).blk t).view.set := by
  have hi0 : (i 0).val < 16 := (i 0).isLt
  have hi1 : (i 1).val < 4096 := (i 1).isLt
  obtain ⟨-, -, -, -, -, -, -, -, -, -, f0, f1, -⟩ := idx_facts (pt ⟨(i 1).val / 1024, by omega⟩ 7)
  refine ⟨pt ⟨(i 1).val / 1024, by omega⟩ 7, (Gen.flush0_5 _).mpr (by show (8 * ((i 1).val / 1024) + 7) % 8 = 7; omega), ?_⟩
  rw [mem_blk5]
  intro a
  match a with
  | ⟨0, _⟩ =>
    show win0_5.index (pt ⟨(i 1).val / 1024, _⟩ 7) 0 * 16 ≤ (i 0).val ∧ (i 0).val < win0_5.index (pt ⟨(i 1).val / 1024, _⟩ 7) 0 * 16 + 16
    rw [f0]; omega
  | ⟨1, _⟩ =>
    show win0_5.index (pt ⟨(i 1).val / 1024, _⟩ 7) 1 * 1024 ≤ (i 1).val ∧ (i 1).val < win0_5.index (pt ⟨(i 1).val / 1024, _⟩ 7) 1 * 1024 + 1024
    rw [f1]
    show (8 * ((i 1).val / 1024) + 7) / 8 * 1024 ≤ (i 1).val ∧ (i 1).val < (8 * ((i 1).val / 1024) + 7) / 8 * 1024 + 1024
    omega

/-- THE SECOND OUTPUT ARRAY after the region: the projection `X · W_k`. -/
theorem final5 (c : Dev nD) :
    (dat0 V c).arrAt 5 cfg0.N = fun i => proj (V c main_arg0) (V c main_arg2) (i 0) (i 1) :=
  (dat0 V c).arrAt_eq_of_cover 5 _ (fun t ht => flushed5_eq V c t ht) cover5
/-- WHAT A TILE'S LAST TRIP WRITES BACK to the third output: its block of the projection `X · W_v`. -/
theorem flushed6_eq (c : Dev nD) (t : Fin cfg0.N) (hf : (cfg0.win 6).flush t = true) :
    (dat0 V c).flushed 6 t
      = ((cfg0.win 6).blk t).view.read (Elt Ideal) (fun i => proj (V c main_arg0) (V c main_arg3) (i 0) (i 1)) := by
  obtain ⟨n, rfl⟩ := flush_pt t ((Gen.flush0_6 t).mp hf)
  obtain ⟨-, -, -, -, -, -, -, -, -, -, -, -, f0, f1⟩ := idx_facts (pt n 7)
  show (cfg0.win 6).cut (grid0.coords (pt n 7)) ((dat0 V c).after 6 (pt n 7)) = _
  rw [after0_6]
  funext y
  obtain ⟨p, e, rfl⟩ : ∃ (p : Fin 16) (e : Fin 1024), y = ix2 p e := ⟨y 0, y 1, eq_ix2 y⟩
  show (accAt V c (pt n 7).val (pt n 7).isLt).2.2 (ix2 p e)
    = proj (V c main_arg0) (V c main_arg3) ((((cfg0.win 6).blk (pt n 7)).view.emb (ix2 p e)) 0) ((((cfg0.win 6).blk (pt n 7)).view.emb (ix2 p e)) 1)
  have e0 : (((cfg0.win 6).blk (pt n 7)).view.emb (ix2 p e)) 0 = p :=
    Fin.ext (by show win0_6.index (pt n 7) 0 * 16 + 1 * p.val = p.val; rw [f0]; omega)
  have e1 : (((cfg0.win 6).blk (pt n 7)).view.emb (ix2 p e)) 1 = colOf n e :=
    Fin.ext (by show win0_6.index (pt n 7) 1 * 1024 + 1 * e.val = n.val * 1024 + e.val; rw [f1]; show (8 * n.val + 7) / 8 * 1024 + 1 * e.val = _; omega)
  exact (acc6_tile V c n p e).trans (congrArg₂ (proj (V c main_arg0) (V c main_arg3)) e0.symm e1.symm)

/-- An index of the third output array is in point `t`'s block iff each coordinate is in the block's range. -/
theorem mem_blk6 (t : Fin cfg0.N) (i : S16x4096.Idx) :
    i ∈ ((cfg0.win 6).blk t).view.set ↔ ∀ a : Fin 2, win0_6.index t a * S16x1024.size a ≤ (i a).val
      ∧ (i a).val < win0_6.index t a * S16x1024.size a + S16x1024.size a := by
  show i ∈ ((View.whole main_v0_2).slice (win0_6.rect t)).set ↔ _
  rw [View.set_slice_whole, Rect.mem_set_unit]
  exact Iff.rfl

/-- Column `q` of the array is written back by the last trip of tile `q / 1024`. -/
theorem cover6 (i : S16x4096.Idx) : ∃ t : Fin cfg0.N, (cfg0.win 6).flush t = true ∧ i ∈ ((cfg0.win 6).blk t).view.set := by
  have hi0 : (i 0).val < 16 := (i 0).isLt
  have hi1 : (i 1).val < 4096 := (i 1).isLt
  obtain ⟨-, -, -, -, -, -, -, -, -, -, -, -, f0, f1⟩ := idx_facts (pt ⟨(i 1).val / 1024, by omega⟩ 7)
  refine ⟨pt ⟨(i 1).val / 1024, by omega⟩ 7, (Gen.flush0_6 _).mpr (by show (8 * ((i 1).val / 1024) + 7) % 8 = 7; omega), ?_⟩
  rw [mem_blk6]
  intro a
  match a with
  | ⟨0, _⟩ =>
    show win0_6.index (pt ⟨(i 1).val / 1024, _⟩ 7) 0 * 16 ≤ (i 0).val ∧ (i 0).val < win0_6.index (pt ⟨(i 1).val / 1024, _⟩ 7) 0 * 16 + 16
    rw [f0]; omega
  | ⟨1, _⟩ =>
    show win0_6.index (pt ⟨(i 1).val / 1024, _⟩ 7) 1 * 1024 ≤ (i 1).val ∧ (i 1).val < win0_6.index (pt ⟨(i 1).val / 1024, _⟩ 7) 1 * 1024 + 1024
    rw [f1]
    show (8 * ((i 1).val / 1024) + 7) / 8 * 1024 ≤ (i 1).val ∧ (i 1).val < (8 * ((i 1).val / 1024) + 7) / 8 * 1024 + 1024
    omega

/-- THE THIRD OUTPUT ARRAY after the region: the projection `X · W_v`. -/
theorem final6 (c : Dev nD) :
    (dat0 V c).arrAt 6 cfg0.N = fun i => proj (V c main_arg0) (V c main_arg3) (i 0) (i 1) :=
  (dat0 V c).arrAt_eq_of_cover 6 _ (fun t ht => flushed6_eq V c t ht) cover6

end Cert.KernelIdeal.ProjValue

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«170767_j317827580173_2_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.AttnPayload.lean ====
/-
  The attention step's stored values, read at an index on the extended reals.

  One grid step handles one head: the query rows q (16 x 128), the cache's key and value rows (8192 x 128), the new key
  and value rows (16 x 128), and one slab of noise (16 x 8208).  For query row m the step forms

    * the raw scores against the cache rows and against the new rows, each the inner product over the 128 features;
    * the perturbed scores: the raw score plus the noise entry of the matching position, over 1.5;
    * for each of the two kinds of score, the maximum of the two chunk maxima, the exponentials of the differences,
      and the two sums of exponentials added.

  The output block is the two weighted sums of value rows, added, over the raw scores' denominator; the two soft-max
  blocks are the perturbed scores' exponentials over their denominator.  Each statement below reads one operation of
  that chain at one index; a change of float format is the identity on the extended reals, a leading unit axis is
  dropped or added by the row-major rule, a row statistic kept as a column reads the statistic of that row.
-/
import proofs.«170767_j317827580173_2_alg».proof.Proof.Gen.KernelIdeal.Skeleton
import proofs.«170767_j317827580173_2_alg».proof.Proof.Spec
import proofs.«170767_j317827580173_2_alg».proof.Proof.LibRowReduce
import proofs.«170767_j317827580173_2_alg».proof.Proof.LibRowOpsFormats
import proofs.«170767_j317827580173_2_alg».proof.Proof.LibColsMatmul
import Idealize.ShloMosaic.Lib.ValueLayout

noncomputable section

open scoped BigOperators

namespace Cert.KernelIdeal.AttnPayload

open Idealize.ShloMosaic Idealize.ShloMosaic.ValueIdx Cert.KernelIdeal Cert.Attn

/-! ## The operands as the products see them -/

/-- The query block in the shorter format is the query block. -/
theorem pay8_apply (x0 : Vec Ideal S16x128 .f32) (p : Fin 16) (e : Fin 128) :
    Gen.k1_pay8 x0 (ix2 p e) = x0 (ix2 p e) := by
  unfold Gen.k1_pay8
  exact congrFun (shapeCast_self x0 _) (ix2 p e)

/-- The cache's value rows without the leading unit axis. -/
theorem pay9_apply (x4 : Vec Ideal S1x8192x128 .f32) (k : Fin 8192) (d : Fin 128) :
    Gen.k1_pay9 x4 (ix2 k d) = x4 (ix3 (0 : Fin 1) k d) := by
  unfold Gen.k1_pay9
  exact shapeCast_1ab_ab_apply x4 _ k d

/-- The new value rows in the shorter format are the new value rows. -/
theorem pay10_apply (x2 : Vec Ideal S16x128 .f32) (j : Fin 16) (d : Fin 128) :
    Gen.k1_pay10 x2 (ix2 j d) = x2 (ix2 j d) := by
  unfold Gen.k1_pay10
  exact congrFun (shapeCast_self x2 _) (ix2 j d)

/-- The noise slab without the leading unit axis. -/
theorem pay11_apply (x5 : Vec Ideal S1x16x8208 .f32) (p : Fin 16) (n : Fin 8208) :
    Gen.k1_pay11 x5 (ix2 p n) = x5 (ix3 (0 : Fin 1) p n) := by
  unfold Gen.k1_pay11
  exact shapeCast_1ab_ab_apply x5 _ p n

/-! ## The raw scores -/

/-- Query row p against cache row q: the inner product over the features. -/
theorem pay12_apply (x0 : Vec Ideal S16x128 .f32) (x3 : Vec Ideal S1x8192x128 .f32) (p : Fin 16) (q : Fin 8192) :
    Gen.k1_pay12 x0 x3 (ix2 p q) = ∑ e : Fin 128, x0 (ix2 p e) * x3 (ix3 (0 : Fin 1) q e) := by
  unfold Gen.k1_pay12
  refine (Cert.RowOps.rows_matmul Gen.dot_S16x128_S8192x128_S16x8192_1_1_0_0_n_n_wf
    dot_S16x128_S8192x128_S16x8192_1_1_0_0_n_n rfl (Gen.k1_pay8 x0) _ p q).trans ?_
  refine Finset.sum_congr rfl fun e _ => ?_
  rw [pay8_apply]
  exact congrArg (x0 (ix2 p e) * ·) (shapeCast_1ab_ab_apply x3 _ q e)

/-- Query row p against new row j: the inner product over the features. -/
theorem pay13_apply (x0 x1 : Vec Ideal S16x128 .f32) (p : Fin 16) (j : Fin 16) :
    Gen.k1_pay13 x0 x1 (ix2 p j) = ∑ e : Fin 128, x0 (ix2 p e) * x1 (ix2 j e) := by
  unfold Gen.k1_pay13
  refine (Cert.RowOps.rows_matmul Gen.dot_S16x128_S16x128_S16x16_1_1_0_0_n_n_wf
    dot_S16x128_S16x128_S16x16_1_1_0_0_n_n rfl (Gen.k1_pay8 x0) _ p j).trans ?_
  refine Finset.sum_congr rfl fun e _ => ?_
  rw [pay8_apply]
  exact congrArg (x0 (ix2 p e) * ·) (congrFun (shapeCast_self x1 _) (ix2 j e))

/-! ## The perturbed scores -/

/-- The cache part of the noise row starts at column 0: position q of the cache is position q of the row. -/
theorem pay14_apply (x0 : Vec Ideal S16x128 .f32) (x3 : Vec Ideal S1x8192x128 .f32) (x5 : Vec Ideal S1x16x8208 .f32)
    (p : Fin 16) (q : Fin 8192) :
    Gen.k1_pay14 x0 x3 x5 (ix2 p q)
      = Ideal.div ((∑ e : Fin 128, x0 (ix2 p e) * x3 (ix3 (0 : Fin 1) q e)) + x5 (ix3 (0 : Fin 1) p (posC q))) w15 := by
  unfold Gen.k1_pay14
  rw [divf_apply, addf_apply, pay12_apply, broadcast_apply]
  refine congrArg (fun t => Ideal.div (_ + t) _) ?_
  refine (slice2_axis1_apply 0 (Gen.k1_pay11 x5) _ p q (posC q) (Nat.zero_add _).symm).trans ?_
  exact pay11_apply x5 p (posC q)

/-- The new part of the noise row starts at column 8192: new row j is position 8192 + j of the row. -/
theorem pay15_apply (x0 x1 : Vec Ideal S16x128 .f32) (x5 : Vec Ideal S1x16x8208 .f32) (p : Fin 16) (j : Fin 16) :
    Gen.k1_pay15 x0 x1 x5 (ix2 p j)
      = Ideal.div ((∑ e : Fin 128, x0 (ix2 p e) * x1 (ix2 j e)) + x5 (ix3 (0 : Fin 1) p (posN j))) w15 := by
  unfold Gen.k1_pay15
  rw [divf_apply, addf_apply, pay13_apply, broadcast_apply]
  refine congrArg (fun t => Ideal.div (_ + t) _) ?_
  refine (slice2_axis1_apply 8192 (Gen.k1_pay11 x5) _ p j (posN j) rfl).trans ?_
  exact pay11_apply x5 p (posN j)

/-! ## The row maxima, kept as columns -/

/-- The maximum over the last axis, kept as a column, reads at (p, 0) the fold of max over row p from the starting word. -/
theorem colMax_apply {b : Nat} (x : FVec Ideal ⟨2, ![16, b]⟩ .f32) (h : (⟨2, ![16, b]⟩ : Shape).Reduces [1] S16)
    (hφ : FKind.Formats .f32) (hacc : (0xFF800000#32 : BitVec 32) = FKind.maximumf.neutral .f32 hφ)
    (hc : S16.ShapeCasts S16x1) (p : Fin 16) :
    shapeCast S16x1 (multiReduction (F := Ideal) .maximumf [1] S16 x 0xFF800000#32 h hφ hacc) hc (ix2 p (0 : Fin 1))
      = RowReduce.foldMax wNegInf fun k : Fin b => x (ix2 p k) :=
  (RowReduce.shapeCast_column_apply _ hc p 0).trans (RowReduce.multiReduction_max_row x _ h hφ hacc p)

/-- The sum over the last axis, kept as a column, reads at (p, 0) the sum of row p. -/
theorem colSum_apply {b : Nat} (x : FVec Ideal ⟨2, ![16, b]⟩ .f32) (h : (⟨2, ![16, b]⟩ : Shape).Reduces [1] S16)
    (hφ : FKind.Formats .f32) (hacc : (0x00000000#32 : BitVec 32) = FKind.add.neutral .f32 hφ)
    (hc : S16.ShapeCasts S16x1) (p : Fin 16) :
    shapeCast S16x1 (multiReduction (F := Ideal) .add [1] S16 x 0x00000000#32 h hφ hacc) hc (ix2 p (0 : Fin 1))
      = ∑ k : Fin b, x (ix2 p k) :=
  (RowReduce.shapeCast_column_apply _ hc p 0).trans (RowReduce.multiReduction_add_row x _ h hφ hacc p)

/-- The raw scores' maximum of row p: the larger of the cache chunk's and the new chunk's. -/
theorem pay16_apply (x0 : Vec Ideal S16x128 .f32) (x3 : Vec Ideal S1x8192x128 .f32) (x1 : Vec Ideal S16x128 .f32) (p : Fin 16) :
    Gen.k1_pay16 x0 x3 x1 (ix2 p (0 : Fin 1))
      = max (RowReduce.foldMax wNegInf fun q : Fin 8192 => Gen.k1_pay12 x0 x3 (ix2 p q))
          (RowReduce.foldMax wNegInf fun j : Fin 16 => Gen.k1_pay13 x0 x1 (ix2 p j)) := by
  unfold Gen.k1_pay16
  rw [maximumf_apply]
  exact congrArg₂ max (colMax_apply (Gen.k1_pay12 x0 x3) _ _ _ _ p) (colMax_apply (Gen.k1_pay13 x0 x1) _ _ _ _ p)

/-- The perturbed cache scores' maximum of row p. -/
theorem pay17_apply (x0 : Vec Ideal S16x128 .f32) (x3 : Vec Ideal S1x8192x128 .f32) (x5 : Vec Ideal S1x16x8208 .f32) (p : Fin 16) :
    Gen.k1_pay17 x0 x3 x5 (ix2 p (0 : Fin 1)) = RowReduce.foldMax wNegInf fun q : Fin 8192 => Gen.k1_pay14 x0 x3 x5 (ix2 p q) := by
  unfold Gen.k1_pay17
  exact colMax_apply (Gen.k1_pay14 x0 x3 x5) _ _ _ _ p

/-- The perturbed new scores' maximum of row p. -/
theorem pay18_apply (x0 x1 : Vec Ideal S16x128 .f32) (x5 : Vec Ideal S1x16x8208 .f32) (p : Fin 16) :
    Gen.k1_pay18 x0 x1 x5 (ix2 p (0 : Fin 1)) = RowReduce.foldMax wNegInf fun j : Fin 16 => Gen.k1_pay15 x0 x1 x5 (ix2 p j) := by
  unfold Gen.k1_pay18
  exact colMax_apply (Gen.k1_pay15 x0 x1 x5) _ _ _ _ p

/-! ## The second soft-max over variables: exponentials, their sums, the quotients -/

section Soft
variable (v23 : FVec Ideal S16x8192 .f32) (v26 : FVec Ideal S16x16 .f32) (v33 v35 : FVec Ideal S16x1 .f32)

/-- The row's maximum: the larger of the two columns' entries. -/
theorem pay1_apply (p : Fin 16) :
    Gen.k1_pay1 v33 v35 (ix2 p (0 : Fin 1)) = max (v33 (ix2 p (0 : Fin 1))) (v35 (ix2 p (0 : Fin 1))) := rfl

/-- The exponential of a cache score less the row's maximum. -/
theorem pay2_apply (p : Fin 16) (q : Fin 8192) :
    Gen.k1_pay2 v23 v33 v35 (ix2 p q)
      = Ideal.exp (v23 (ix2 p q) - max (v33 (ix2 p (0 : Fin 1))) (v35 (ix2 p (0 : Fin 1)))) := by
  unfold Gen.k1_pay2
  show Ideal.exp (v23 (ix2 p q) - broadcastTo S16x8192 (Gen.k1_pay1 v33 v35) _ (ix2 p q)) = _
  rw [RowReduce.broadcastTo_column_apply (Gen.k1_pay1 v33 v35) _ p q, pay1_apply]

/-- The exponential of a new score less the row's maximum. -/
theorem pay3_apply (p : Fin 16) (j : Fin 16) :
    Gen.k1_pay3 v26 v33 v35 (ix2 p j)
      = Ideal.exp (v26 (ix2 p j) - max (v33 (ix2 p (0 : Fin 1))) (v35 (ix2 p (0 : Fin 1)))) := by
  unfold Gen.k1_pay3
  show Ideal.exp (v26 (ix2 p j) - broadcastTo S16x16 (Gen.k1_pay1 v33 v35) _ (ix2 p j)) = _
  rw [RowReduce.broadcastTo_column_apply (Gen.k1_pay1 v33 v35) _ p j, pay1_apply]

/-- The denominator of row p: the two sums of exponentials, added. -/
theorem pay4_apply (p : Fin 16) :
    Gen.k1_pay4 v23 v26 v33 v35 (ix2 p (0 : Fin 1))
      = (∑ q : Fin 8192, Ideal.exp (v23 (ix2 p q) - max (v33 (ix2 p (0 : Fin 1))) (v35 (ix2 p (0 : Fin 1)))))
        + (∑ j : Fin 16, Ideal.exp (v26 (ix2 p j) - max (v33 (ix2 p (0 : Fin 1))) (v35 (ix2 p (0 : Fin 1))))) := by
  unfold Gen.k1_pay4
  rw [addf_apply]
  refine congrArg₂ (· + ·) ((colSum_apply (Gen.k1_pay2 v23 v33 v35) _ _ _ _ p).trans ?_)
    ((colSum_apply (Gen.k1_pay3 v26 v33 v35) _ _ _ _ p).trans ?_)
  · exact Finset.sum_congr rfl fun q _ => pay2_apply v23 v33 v35 p q
  · exact Finset.sum_congr rfl fun j _ => pay3_apply v26 v33 v35 p j

/-- The cache part of the second soft-max at (0, p, q). -/
theorem pay6_apply' (p : Fin 16) (q : Fin 8192) :
    Gen.k1_pay6 v23 v26 v33 v35 (ix3 (0 : Fin 1) p q)
      = Ideal.div (Ideal.exp (v23 (ix2 p q) - max (v33 (ix2 p (0 : Fin 1))) (v35 (ix2 p (0 : Fin 1)))))
          ((∑ q : Fin 8192, Ideal.exp (v23 (ix2 p q) - max (v33 (ix2 p (0 : Fin 1))) (v35 (ix2 p (0 : Fin 1)))))
            + (∑ j : Fin 16, Ideal.exp (v26 (ix2 p j) - max (v33 (ix2 p (0 : Fin 1))) (v35 (ix2 p (0 : Fin 1)))))) := by
  unfold Gen.k1_pay6
  refine (shapeCast_ab_1ab_apply _ _ (0 : Fin 1) p q).trans ?_
  rw [divf_apply, pay2_apply, RowReduce.broadcastTo_column_apply (Gen.k1_pay4 v23 v26 v33 v35) _ p q, pay4_apply]

/-- The new part of the second soft-max at (0, p, j). -/
theorem pay7_apply' (p : Fin 16) (j : Fin 16) :
    Gen.k1_pay7 v23 v26 v33 v35 (ix3 (0 : Fin 1) p j)
      = Ideal.div (Ideal.exp (v26 (ix2 p j) - max (v33 (ix2 p (0 : Fin 1))) (v35 (ix2 p (0 : Fin 1)))))
          ((∑ q : Fin 8192, Ideal.exp (v23 (ix2 p q) - max (v33 (ix2 p (0 : Fin 1))) (v35 (ix2 p (0 : Fin 1)))))
            + (∑ j : Fin 16, Ideal.exp (v26 (ix2 p j) - max (v33 (ix2 p (0 : Fin 1))) (v35 (ix2 p (0 : Fin 1)))))) := by
  unfold Gen.k1_pay7
  refine (shapeCast_ab_1ab_apply _ _ (0 : Fin 1) p j).trans ?_
  rw [divf_apply, pay3_apply, RowReduce.broadcastTo_column_apply (Gen.k1_pay4 v23 v26 v33 v35) _ p j, pay4_apply]

end Soft

/-! ## Row m's scores as functions of the position -/

section Scores
variable (x0 x1 : Vec Ideal S16x128 .f32) (x3 : Vec Ideal S1x8192x128 .f32) (x5 : Vec Ideal S1x16x8208 .f32) (m : Fin 16)

/-- Row m's raw score against cache position p. -/
def fc (p : Fin 8192) : EReal := ∑ e : Fin 128, x0 (ix2 m e) * x3 (ix3 (0 : Fin 1) p e)
/-- Row m's raw score against new row j. -/
def fn (j : Fin 16) : EReal := ∑ e : Fin 128, x0 (ix2 m e) * x1 (ix2 j e)
/-- Row m's perturbed score at cache position p. -/
def gc (p : Fin 8192) : EReal := Ideal.div (fc x0 x3 m p + x5 (ix3 (0 : Fin 1) m (posC p))) w15
/-- Row m's perturbed score at new row j. -/
def gn (j : Fin 16) : EReal := Ideal.div (fn x0 x1 m j + x5 (ix3 (0 : Fin 1) m (posN j))) w15

theorem fc_apply (p : Fin 8192) : fc x0 x3 m p = ∑ e : Fin 128, x0 (ix2 m e) * x3 (ix3 (0 : Fin 1) p e) := rfl
theorem fn_apply (j : Fin 16) : fn x0 x1 m j = ∑ e : Fin 128, x0 (ix2 m e) * x1 (ix2 j e) := rfl
theorem gc_apply (p : Fin 8192) :
    gc x0 x3 x5 m p = Ideal.div (fc x0 x3 m p + x5 (ix3 (0 : Fin 1) m (posC p))) w15 := rfl
theorem gn_apply (j : Fin 16) :
    gn x0 x1 x5 m j = Ideal.div (fn x0 x1 m j + x5 (ix3 (0 : Fin 1) m (posN j))) w15 := rfl

theorem pay12_fun : (fun q : Fin 8192 => Gen.k1_pay12 x0 x3 (ix2 m q)) = fc x0 x3 m :=
  funext fun q => pay12_apply x0 x3 m q
theorem pay13_fun : (fun j : Fin 16 => Gen.k1_pay13 x0 x1 (ix2 m j)) = fn x0 x1 m :=
  funext fun j => pay13_apply x0 x1 m j
theorem pay14_fun : (fun q : Fin 8192 => Gen.k1_pay14 x0 x3 x5 (ix2 m q)) = gc x0 x3 x5 m :=
  funext fun q => pay14_apply x0 x3 x5 m q
theorem pay15_fun : (fun j : Fin 16 => Gen.k1_pay15 x0 x1 x5 (ix2 m j)) = gn x0 x1 x5 m :=
  funext fun j => pay15_apply x0 x1 x5 m j

end Scores

/-! ## Result 1's two blocks -/

section Result1
variable (x0 x1 : Vec Ideal S16x128 .f32) (x3 : Vec Ideal S1x8192x128 .f32) (x5 : Vec Ideal S1x16x8208 .f32) (m : Fin 16)

/-- The row's maximum as the kernel keeps it is the two-chunk maximum of the perturbed scores. -/
theorem max_perturbed :
    max (Gen.k1_pay17 x0 x3 x5 (ix2 m (0 : Fin 1))) (Gen.k1_pay18 x0 x1 x5 (ix2 m (0 : Fin 1)))
      = chunkMax (gc x0 x3 x5 m) (gn x0 x1 x5 m) := by
  rw [pay17_apply, pay18_apply, pay14_fun, pay15_fun]
  rfl

/-- The row's denominator as the kernel keeps it is the two-chunk sum of the perturbed scores' exponentials. -/
theorem sum_perturbed :
    (∑ q : Fin 8192, Ideal.exp (Gen.k1_pay14 x0 x3 x5 (ix2 m q)
        - max (Gen.k1_pay17 x0 x3 x5 (ix2 m (0 : Fin 1))) (Gen.k1_pay18 x0 x1 x5 (ix2 m (0 : Fin 1)))))
      + (∑ j : Fin 16, Ideal.exp (Gen.k1_pay15 x0 x1 x5 (ix2 m j)
        - max (Gen.k1_pay17 x0 x3 x5 (ix2 m (0 : Fin 1))) (Gen.k1_pay18 x0 x1 x5 (ix2 m (0 : Fin 1)))))
      = chunkSum (gc x0 x3 x5 m) (gn x0 x1 x5 m) := by
  rw [max_perturbed]
  unfold chunkSum
  refine congrArg₂ (· + ·) (Finset.sum_congr rfl fun q _ => ?_) (Finset.sum_congr rfl fun j _ => ?_)
  · rw [pay14_apply]; rfl
  · rw [pay15_apply]; rfl

/-- The cache block of result 1 at (0, m, p): the two-chunk soft-max weight of cache position p. -/
theorem pay6_apply (p : Fin 8192) :
    Gen.k1_pay6 (Gen.k1_pay14 x0 x3 x5) (Gen.k1_pay15 x0 x1 x5) (Gen.k1_pay17 x0 x3 x5) (Gen.k1_pay18 x0 x1 x5)
        (ix3 (0 : Fin 1) m p)
      = chunkSoftC (gc x0 x3 x5 m) (gn x0 x1 x5 m) p := by
  rw [pay6_apply', sum_perturbed, max_perturbed, pay14_apply]
  rfl

/-- The new block of result 1 at (0, m, j): the two-chunk soft-max weight of new row j. -/
theorem pay7_apply (j : Fin 16) :
    Gen.k1_pay7 (Gen.k1_pay14 x0 x3 x5) (Gen.k1_pay15 x0 x1 x5) (Gen.k1_pay17 x0 x3 x5) (Gen.k1_pay18 x0 x1 x5)
        (ix3 (0 : Fin 1) m j)
      = chunkSoftN (gc x0 x3 x5 m) (gn x0 x1 x5 m) j := by
  rw [pay7_apply', sum_perturbed, max_perturbed, pay15_apply]
  rfl

end Result1

/-! ## Result 0's block -/

/-- The exponential of an entry less its row's statistic kept as a column. -/
theorem expSub_apply {b : Nat} (v : FVec Ideal ⟨2, ![16, b]⟩ .f32) (c : FVec Ideal S16x1 .f32)
    (h : S16x1.Broadcasts ⟨2, ![16, b]⟩) (p : Fin 16) (k : Fin b) :
    exp (subf v (broadcastTo ⟨2, ![16, b]⟩ c h)) (ix2 p k) = Ideal.exp (v (ix2 p k) - c (ix2 p (0 : Fin 1))) := by
  show Ideal.exp (v (ix2 p k) - broadcastTo ⟨2, ![16, b]⟩ c h (ix2 p k)) = _
  rw [RowReduce.broadcastTo_column_apply c h p k]

section Out
variable (v8 : FVec Ideal S8192x128 .bf16) (v14 : FVec Ideal S16x128 .bf16) (v17 : FVec Ideal S16x8192 .f32)
  (v18 : FVec Ideal S16x16 .f32) (v31 : FVec Ideal S16x1 .f32)

/-- The output block at (p, d) over variables: the exponentials against the two value blocks, summed and added, over
    the two sums of exponentials added. -/
theorem pay5_apply' (p : Fin 16) (d : Fin 128) :
    Gen.k1_pay5 v8 v14 v17 v18 v31 (ix2 p d)
      = Ideal.div
          ((∑ k : Fin 8192, Ideal.exp (v17 (ix2 p k) - v31 (ix2 p (0 : Fin 1))) * v8 (ix2 k d))
            + (∑ k : Fin 16, Ideal.exp (v18 (ix2 p k) - v31 (ix2 p (0 : Fin 1))) * v14 (ix2 k d)))
          ((∑ q : Fin 8192, Ideal.exp (v17 (ix2 p q) - v31 (ix2 p (0 : Fin 1))))
            + (∑ j : Fin 16, Ideal.exp (v18 (ix2 p j) - v31 (ix2 p (0 : Fin 1))))) := by
  unfold Gen.k1_pay5
  rw [divf_apply, addf_apply]
  refine congrArg₂ Ideal.div (congrArg₂ (· + ·) ?_ ?_) ?_
  · refine (Cert.ColsMatmul.cols_matmul Gen.dot_S16x8192_S8192x128_S16x128_1_0_0_1_n_n_wf
      dot_S16x8192_S8192x128_S16x128_1_0_0_1_n_n rfl _ v8 p d).trans ?_
    exact Finset.sum_congr rfl fun k _ => congrArg (· * v8 (ix2 k d)) (expSub_apply v17 v31 _ p k)
  · refine (Cert.ColsMatmul.cols_matmul Gen.dot_S16x16_S16x128_S16x128_1_0_0_1_n_n_wf
      dot_S16x16_S16x128_S16x128_1_0_0_1_n_n rfl _ v14 p d).trans ?_
    exact Finset.sum_congr rfl fun k _ => congrArg (· * v14 (ix2 k d)) (expSub_apply v18 v31 _ p k)
  · refine (RowReduce.broadcastTo_column_apply _ _ p d).trans ?_
    rw [addf_apply]
    refine congrArg₂ (· + ·) ((colSum_apply _ _ _ _ _ p).trans ?_) ((colSum_apply _ _ _ _ _ p).trans ?_)
    · exact Finset.sum_congr rfl fun q _ => expSub_apply v17 v31 _ p q
    · exact Finset.sum_congr rfl fun j _ => expSub_apply v18 v31 _ p j

end Out

section Result0
variable (x0 x1 x2 : Vec Ideal S16x128 .f32) (x3 x4 : Vec Ideal S1x8192x128 .f32) (m : Fin 16)

/-- The row's maximum as the kernel keeps it is the two-chunk maximum of the raw scores. -/
theorem max_raw : Gen.k1_pay16 x0 x3 x1 (ix2 m (0 : Fin 1)) = chunkMax (fc x0 x3 m) (fn x0 x1 m) := by
  rw [pay16_apply, pay12_fun, pay13_fun]
  rfl

/-- The output block of result 0 at (m, d): the two-chunk attention output of row m, feature d. -/
theorem pay5_apply (d : Fin 128) :
    Gen.k1_pay5 (Gen.k1_pay9 x4) (Gen.k1_pay10 x2) (Gen.k1_pay12 x0 x3) (Gen.k1_pay13 x0 x1) (Gen.k1_pay16 x0 x3 x1) (ix2 m d)
      = chunkAttend (fc x0 x3 m) (fn x0 x1 m) (fun p e => x4 (ix3 (0 : Fin 1) p e)) (fun j e => x2 (ix2 j e)) d := by
  rw [pay5_apply', max_raw]
  unfold chunkAttend chunkSum
  refine congrArg₂ Ideal.div (congrArg₂ (· + ·) (Finset.sum_congr rfl fun k _ => ?_) (Finset.sum_congr rfl fun k _ => ?_))
    (congrArg₂ (· + ·) (Finset.sum_congr rfl fun q _ => ?_) (Finset.sum_congr rfl fun j _ => ?_))
  · rw [pay12_apply, pay9_apply]; rfl
  · rw [pay13_apply, pay10_apply]; rfl
  · rw [pay12_apply]; rfl
  · rw [pay13_apply]; rfl

end Result0

end Cert.KernelIdeal.AttnPayload

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.LibSignedLogSum.lean ====
/-
  A signed sum of exponentials, its logarithm and its sign, taken with any finite stabiliser.

  For a row (a k, s k) and a column (b k, z k) of real numbers — logarithms a, b and signed weights s, z — the signed
  sum  T = ∑ k, (s k · z k) · exp ((a k + b k) − μ)  stabilised by a real μ, and the factorised sum
  S = ∑ k, (s k · exp (a k − α)) · (z k · exp (b k − β))  stabilised separately by reals α and β, differ by the
  positive factor  exp (μ − α − β):  S = exp (μ − α − β) · T,  whatever the three stabilisers are, because
  exp (a − α) · exp (b − β) = exp (μ − α − β) · exp (a + b − μ).  Hence  sign S = sign T,  and
  (α + β) + log |S| = μ + log |T|:  for T ≠ 0 the logarithm of the factor is μ − α − β, and for T = 0 both sides are
  −∞ (log 0 = −∞ on the extended reals, and a real plus −∞ is −∞).

  On the extended reals the identity needs every entry and every stabiliser to be a real number (exp, the products and
  the differences misbehave at the infinities); the stabilisers used in practice are maxima of finitely many real
  entries taken from a starting value below +∞, which are real numbers (`isFin_foldMax`).
-/
import proofs.«170767_j317827580173_2_alg».proof.Proof.LibERealSums
import Idealize.ShloMosaic.PureOps.Ideal
import Mathlib.Data.Finset.Fold
import Mathlib.Analysis.SpecialFunctions.Log.Basic

noncomputable section

open scoped BigOperators

namespace Cert.SignedLogSum

open Idealize.ShloMosaic Cert.LibERealSums

variable {n : ℕ}

/-! ## The two sums, on the extended reals -/

/-- The factorised sum: row entries stabilised by `α`, column entries by `β`. -/
def splitSum (α β : EReal) (a s b z : Fin n → EReal) : EReal :=
  ∑ k, (s k * Ideal.exp (a k - α)) * (z k * Ideal.exp (b k - β))

/-- The joint sum: the products of the weights against the exponential of the summed logarithms, stabilised by `μ`. -/
def jointSum (μ : EReal) (a s b z : Fin n → EReal) : EReal :=
  ∑ k, (s k * z k) * Ideal.exp ((a k + b k) - μ)

/-- The maximum of a finite family folded from a starting value. -/
def foldMax (w : EReal) (f : Fin n → EReal) : EReal := (Finset.univ : Finset (Fin n)).fold max w f

/-! ## Over the reals -/

/-- The factorised sum is the joint sum times `exp (μ − α − β)`. -/
theorem real_split (α β μ : ℝ) (a s b z : Fin n → ℝ) :
    ∑ k, (s k * Real.exp (a k - α)) * (z k * Real.exp (b k - β))
      = Real.exp (μ - α - β) * ∑ k, (s k * z k) * Real.exp ((a k + b k) - μ) := by
  rw [Finset.mul_sum]
  refine Finset.sum_congr rfl fun k _ => ?_
  have h : Real.exp (a k - α) * Real.exp (b k - β) = Real.exp (μ - α - β) * Real.exp ((a k + b k) - μ) := by
    rw [← Real.exp_add, ← Real.exp_add]
    congr 1
    ring
  calc (s k * Real.exp (a k - α)) * (z k * Real.exp (b k - β))
      = (s k * z k) * (Real.exp (a k - α) * Real.exp (b k - β)) := by ring
    _ = Real.exp (μ - α - β) * ((s k * z k) * Real.exp ((a k + b k) - μ)) := by rw [h]; ring

/-! ## From the extended reals to the reals -/

/-- A finite sum of real numbers, seen in the extended reals. -/
theorem coe_sum {ι : Type*} (t : Finset ι) (g : ι → ℝ) : (∑ k ∈ t, ((g k : ℝ) : EReal)) = ((∑ k ∈ t, g k : ℝ) : EReal) := by
  classical
  induction t using Finset.induction_on with
  | empty => simp
  | insert i t hi ih => rw [Finset.sum_insert hi, Finset.sum_insert hi, EReal.coe_add, ih]

/-- The absolute value `max x (−x)` of a real number, seen in the extended reals. -/
theorem max_neg_coe (r : ℝ) : max (r : EReal) (-(r : EReal)) = ((|r| : ℝ) : EReal) := by
  rw [← EReal.coe_neg, ← EReal.coe_strictMono.monotone.map_max, abs_eq_max_neg]

/-- The factorised sum of real data is a real number. -/
theorem splitSum_coe (α β : ℝ) (a s b z : Fin n → ℝ) :
    splitSum (α : EReal) (β : EReal) (fun k => (a k : EReal)) (fun k => (s k : EReal)) (fun k => (b k : EReal)) (fun k => (z k : EReal))
      = ((∑ k, (s k * Real.exp (a k - α)) * (z k * Real.exp (b k - β)) : ℝ) : EReal) := by
  unfold splitSum
  rw [← coe_sum]
  refine Finset.sum_congr rfl fun k _ => ?_
  rw [← EReal.coe_sub, ← EReal.coe_sub, Ideal.exp_coe, Ideal.exp_coe, ← EReal.coe_mul, ← EReal.coe_mul, ← EReal.coe_mul]

/-- The joint sum of real data is a real number. -/
theorem jointSum_coe (μ : ℝ) (a s b z : Fin n → ℝ) :
    jointSum (μ : EReal) (fun k => (a k : EReal)) (fun k => (s k : EReal)) (fun k => (b k : EReal)) (fun k => (z k : EReal))
      = ((∑ k, (s k * z k) * Real.exp ((a k + b k) - μ) : ℝ) : EReal) := by
  unfold jointSum
  rw [← coe_sum]
  refine Finset.sum_congr rfl fun k _ => ?_
  rw [← EReal.coe_add, ← EReal.coe_sub, Ideal.exp_coe, ← EReal.coe_mul, ← EReal.coe_mul]

/-- A family of finite extended reals is a family of real numbers. -/
theorem exists_coe_fun {f : Fin n → EReal} (hf : ∀ k, IsFin (f k)) : ∃ g : Fin n → ℝ, f = fun k => (g k : EReal) := by
  choose g hg using fun k => (hf k).exists_coe
  exact ⟨g, funext hg⟩

/-! ## The two outputs agree on finite data -/

/-- The logarithm output: `(α + β) + log |S| = μ + log |T|` for finite entries and finite stabilisers. -/
theorem log_abs_split {α β μ : EReal} {a s b z : Fin n → EReal} (hα : IsFin α) (hβ : IsFin β) (hμ : IsFin μ)
    (ha : ∀ k, IsFin (a k)) (hs : ∀ k, IsFin (s k)) (hb : ∀ k, IsFin (b k)) (hz : ∀ k, IsFin (z k)) :
    (α + β) + Ideal.log (max (splitSum α β a s b z) (-(splitSum α β a s b z)))
      = μ + Ideal.log (max (jointSum μ a s b z) (-(jointSum μ a s b z))) := by
  obtain ⟨α, rfl⟩ := hα.exists_coe
  obtain ⟨β, rfl⟩ := hβ.exists_coe
  obtain ⟨μ, rfl⟩ := hμ.exists_coe
  obtain ⟨a, rfl⟩ := exists_coe_fun ha
  obtain ⟨s, rfl⟩ := exists_coe_fun hs
  obtain ⟨b, rfl⟩ := exists_coe_fun hb
  obtain ⟨z, rfl⟩ := exists_coe_fun hz
  rw [splitSum_coe, jointSum_coe, real_split α β μ, max_neg_coe, max_neg_coe, Ideal.log_coe, Ideal.log_coe]
  generalize (∑ k, (s k * z k) * Real.exp ((a k + b k) - μ)) = T
  have hc : 0 < Real.exp (μ - α - β) := Real.exp_pos _
  rw [abs_mul, abs_of_pos hc]
  by_cases hT : T = 0
  · subst hT
    rw [abs_zero, mul_zero, if_pos le_rfl, EReal.add_bot, EReal.add_bot]
  · have hT' : 0 < |T| := abs_pos.mpr hT
    rw [if_neg (not_le.mpr (mul_pos hc hT')), if_neg (not_le.mpr hT'), Real.log_mul hc.ne' hT'.ne', Real.log_exp,
      ← EReal.coe_add, ← EReal.coe_add, ← EReal.coe_add]
    congr 1
    ring

/-- The sign output: `sign S = sign T` for finite entries and finite stabilisers. -/
theorem sign_split {α β μ : EReal} {a s b z : Fin n → EReal} (hα : IsFin α) (hβ : IsFin β) (hμ : IsFin μ)
    (ha : ∀ k, IsFin (a k)) (hs : ∀ k, IsFin (s k)) (hb : ∀ k, IsFin (b k)) (hz : ∀ k, IsFin (z k)) :
    Ideal.sign (splitSum α β a s b z) = Ideal.sign (jointSum μ a s b z) := by
  obtain ⟨α, rfl⟩ := hα.exists_coe
  obtain ⟨β, rfl⟩ := hβ.exists_coe
  obtain ⟨μ, rfl⟩ := hμ.exists_coe
  obtain ⟨a, rfl⟩ := exists_coe_fun ha
  obtain ⟨s, rfl⟩ := exists_coe_fun hs
  obtain ⟨b, rfl⟩ := exists_coe_fun hb
  obtain ⟨z, rfl⟩ := exists_coe_fun hz
  rw [splitSum_coe, jointSum_coe, real_split α β μ, Ideal.sign_coe, Ideal.sign_coe, sign_mul,
    sign_pos (Real.exp_pos _), one_mul]

/-! ## A maximum of finitely many real numbers is a real number -/

/-- The maximum of a non-empty finite family of finite extended reals, folded from a starting value below `+∞`,
    is finite: it is at least one entry, and below `+∞` because the start and every entry are. -/
theorem isFin_foldMax (hn : 0 < n) {w : EReal} (hw : w ≠ ⊤) {f : Fin n → EReal} (hf : ∀ k, IsFin (f k)) :
    IsFin (foldMax w f) := by
  unfold foldMax
  constructor
  · refine ne_of_gt ?_
    rw [Finset.lt_fold_max]
    exact Or.inr ⟨⟨0, hn⟩, Finset.mem_univ _, bot_lt_iff_ne_bot.mpr (hf _).1⟩
  · refine ne_of_lt ?_
    rw [Finset.fold_max_lt]
    exact ⟨lt_top_iff_ne_top.mpr hw, fun k _ => lt_top_iff_ne_top.mpr (hf k).2⟩

/-! ## The four outputs, each stabilised by the maxima of its own entries -/

/-- The logarithm output of the factorised form: stabilisers the maximum of the row's and of the column's logarithms. -/
def splitLog (w : EReal) (a s b z : Fin n → EReal) : EReal :=
  (foldMax w a + foldMax w b)
    + Ideal.log (max (splitSum (foldMax w a) (foldMax w b) a s b z) (-(splitSum (foldMax w a) (foldMax w b) a s b z)))

/-- The sign output of the factorised form. -/
def splitSign (w : EReal) (a s b z : Fin n → EReal) : EReal :=
  Ideal.sign (splitSum (foldMax w a) (foldMax w b) a s b z)

/-- The logarithm output of the joint form: the one stabiliser is the maximum of the summed logarithms. -/
def jointLog (w : EReal) (a s b z : Fin n → EReal) : EReal :=
  (foldMax w fun k => a k + b k)
    + Ideal.log (max (jointSum (foldMax w fun k => a k + b k) a s b z) (-(jointSum (foldMax w fun k => a k + b k) a s b z)))

/-- The sign output of the joint form. -/
def jointSign (w : EReal) (a s b z : Fin n → EReal) : EReal :=
  Ideal.sign (jointSum (foldMax w fun k => a k + b k) a s b z)

/-- On finite entries (at least one) the two logarithm outputs agree. -/
theorem splitLog_eq_jointLog (hn : 0 < n) {w : EReal} (hw : w ≠ ⊤) {a s b z : Fin n → EReal}
    (ha : ∀ k, IsFin (a k)) (hs : ∀ k, IsFin (s k)) (hb : ∀ k, IsFin (b k)) (hz : ∀ k, IsFin (z k)) :
    splitLog w a s b z = jointLog w a s b z :=
  log_abs_split (isFin_foldMax hn hw ha) (isFin_foldMax hn hw hb) (isFin_foldMax hn hw fun k => (ha k).add (hb k)) ha hs hb hz

/-- On finite entries (at least one) the two sign outputs agree. -/
theorem splitSign_eq_jointSign (hn : 0 < n) {w : EReal} (hw : w ≠ ⊤) {a s b z : Fin n → EReal}
    (ha : ∀ k, IsFin (a k)) (hs : ∀ k, IsFin (s k)) (hb : ∀ k, IsFin (b k)) (hz : ∀ k, IsFin (z k)) :
    splitSign w a s b z = jointSign w a s b z :=
  sign_split (isFin_foldMax hn hw ha) (isFin_foldMax hn hw hb) (isFin_foldMax hn hw fun k => (ha k).add (hb k)) ha hs hb hz

/-- The f32 word 0xFF800000 is −∞, in particular not +∞. -/
theorem negInf_word : Ideal.ofBits .f32 0xFF800000#32 = ⊥ := by
  simp [Ideal.ofBits, Ideal.ieee]

theorem negInf_word_ne_top : Ideal.ofBits .f32 0xFF800000#32 ≠ ⊤ := by
  rw [negInf_word]; exact bot_ne_top

end Cert.SignedLogSum

end
-- ==== Proof.Chunks.lean ====
/-
  The whole-row form of the attention quantities and their two-chunk form agree.

  Three facts of finite algebra over the extended reals carry everything:
  * a maximum folded over the 8208 positions from a starting value is the larger of the two maxima folded, from the
    same starting value, over the first 8192 positions and over the last 16 (max is associative, commutative and
    idempotent, so the starting value may be used twice);
  * a sum over the 8208 positions is the sum over the first 8192 plus the sum over the last 16;
  * for finite terms and a finite nonzero denominator L,  ∑ (e n / L) · v n = (∑ e n · v n) / L.
  The first two hold for all extended reals, so the softmax weights agree with no side condition. The third fails
  at the infinities (a product with an infinite factor does not distribute over a sum of mixed signs), which is why
  the attention outputs are compared on finite data only; there the row maximum is finite, every exponential is a
  positive real, and their sum is a positive real, in particular finite and nonzero.
-/
import proofs.«170767_j317827580173_2_alg».proof.Proof.Spec
import proofs.«170767_j317827580173_2_alg».proof.Proof.LibERealSums
import proofs.«170767_j317827580173_2_alg».proof.Proof.LibSignedLogSum
import Idealize.ShloMosaic.PureOps.Ideal.Laws
import Mathlib.Algebra.BigOperators.Fin
import Mathlib.Algebra.Order.BigOperators.Group.Finset

noncomputable section

open scoped BigOperators

namespace Cert.Attn

open Idealize.ShloMosaic Idealize.ShloMosaic.ValueIdx Cert.LibERealSums

/-! ## Positions: every position is a cache position or a new row -/

/-- A position of the extended sequence is a cache position or one of the 16 new rows. -/
theorem pos_cases (n : Fin 8208) : (∃ p : Fin 8192, n = posC p) ∨ (∃ j : Fin 16, n = posN j) := by
  by_cases h : n.val < 8192
  · exact Or.inl ⟨⟨n.val, h⟩, Fin.ext rfl⟩
  · refine Or.inr ⟨⟨n.val - 8192, by omega⟩, Fin.ext ?_⟩
    show n.val = 8192 + (n.val - 8192)
    omega

/-! ## The two splittings -/

/-- A sum over the 8208 positions is the sum over the cache positions plus the sum over the new rows. -/
theorem sum_split {M : Type*} [AddCommMonoid M] (g : Fin 8208 → M) :
    ∑ n : Fin 8208, g n = (∑ p : Fin 8192, g (posC p)) + (∑ j : Fin 16, g (posN j)) :=
  Fin.sum_univ_add (a := 8192) (b := 16) g

/-- A maximum folded over the 8208 positions is the larger of the maxima folded over the two chunks. -/
theorem foldMax_split (w : EReal) (g : Fin 8208 → EReal) :
    RowReduce.foldMax w g
      = max (RowReduce.foldMax w fun p : Fin 8192 => g (posC p)) (RowReduce.foldMax w fun j : Fin 16 => g (posN j)) := by
  refine eq_of_forall_ge_iff fun c => ?_
  unfold RowReduce.foldMax
  rw [max_le_iff, Finset.fold_max_le, Finset.fold_max_le, Finset.fold_max_le]
  constructor
  · rintro ⟨hw, hg⟩
    exact ⟨⟨hw, fun p _ => hg _ (Finset.mem_univ _)⟩, ⟨hw, fun j _ => hg _ (Finset.mem_univ _)⟩⟩
  · rintro ⟨⟨hw, hc⟩, ⟨_, hn⟩⟩
    refine ⟨hw, fun n _ => ?_⟩
    rcases pos_cases n with ⟨p, rfl⟩ | ⟨j, rfl⟩
    · exact hc p (Finset.mem_univ _)
    · exact hn j (Finset.mem_univ _)

/-! ## The row maximum and the row denominator, chunk by chunk -/

/-- The row maximum is the larger of the two chunk maxima. -/
theorem rowMax_eq (f : Fin 8208 → EReal) :
    rowMax f = chunkMax (fun p => f (posC p)) (fun j => f (posN j)) := by
  unfold rowMax chunkMax wNegInf
  rw [RowReduce.max_negInf]
  exact foldMax_split _ f

/-- The exponential of an entry less the row maximum, in terms of the chunk maximum. -/
theorem rowExp_eq (f : Fin 8208 → EReal) (n : Fin 8208) :
    rowExp f n = Ideal.exp (f n - chunkMax (fun p => f (posC p)) (fun j => f (posN j))) := by
  unfold rowExp
  rw [rowMax_eq]

/-- The row denominator is the sum of the two chunk sums. -/
theorem rowSum_eq (f : Fin 8208 → EReal) :
    rowSum f = chunkSum (fun p => f (posC p)) (fun j => f (posN j)) := by
  unfold rowSum chunkSum wZero
  rw [Ideal.ofBits_zero_f32, zero_add, sum_split]
  simp only [rowExp_eq]

/-! ## The softmax weights agree, with no side condition -/

theorem soft_posC (f : Fin 8208 → EReal) (p : Fin 8192) :
    soft f (posC p) = chunkSoftC (fun p => f (posC p)) (fun j => f (posN j)) p := by
  unfold soft chunkSoftC
  rw [rowExp_eq, rowSum_eq]

theorem soft_posN (f : Fin 8208 → EReal) (j : Fin 16) :
    soft f (posN j) = chunkSoftN (fun p => f (posC p)) (fun j => f (posN j)) j := by
  unfold soft chunkSoftN
  rw [rowExp_eq, rowSum_eq]

/-! ## The extended rows at a cache position and at a new row -/

/-- At a cache position the extended rows are the cache's. -/
theorem cat_posC (C : SC.Idx → EReal) (P : Fin 16 → Fin 4096 → EReal) (h : Fin 32) (p : Fin 8192) (d : Fin 128) :
    cat C P h (posC p) d = C (ix3 h p d) := by
  unfold cat
  rw [dif_pos (show (posC p).val < 8192 from p.isLt)]
  rfl

/-- At a new row the extended rows are the projected rows. -/
theorem cat_posN (C : SC.Idx → EReal) (P : Fin 16 → Fin 4096 → EReal) (h : Fin 32) (j : Fin 16) (d : Fin 128) :
    cat C P h (posN j) d = P j (col h d) := by
  unfold cat
  rw [dif_neg (show ¬ (posN j).val < 8192 from by show ¬ 8192 + j.val < 8192; omega)]
  refine congrArg (fun i => P i (col h d)) (Fin.ext ?_)
  show 8192 + j.val - 8192 = j.val
  omega

section
variable (X : SX.Idx → EReal) (Wq Wk Wv : SW.Idx → EReal) (Nz : SN.Idx → EReal) (cK cV : SC.Idx → EReal)

/-- The raw score against a cache position. -/
theorem scores_posC (h : Fin 32) (m : Fin 16) (p : Fin 8192) :
    scores X Wq Wk cK h m (posC p) = sC X Wq cK h m p := by
  unfold scores score sC
  exact Finset.sum_congr rfl fun d _ => by rw [cat_posC]

/-- The raw score against a new row. -/
theorem scores_posN (h : Fin 32) (m : Fin 16) (j : Fin 16) :
    scores X Wq Wk cK h m (posN j) = sN X Wq Wk h m j := by
  unfold scores score sN
  exact Finset.sum_congr rfl fun d _ => by rw [cat_posN]

/-- The perturbed score against a cache position. -/
theorem pert_posC (h : Fin 32) (m : Fin 16) (p : Fin 8192) :
    pert (scores X Wq Wk cK) Nz h m (posC p) = pC X Wq Nz cK h m p := by
  unfold pert pC
  rw [scores_posC]

/-- The perturbed score against a new row. -/
theorem pert_posN (h : Fin 32) (m : Fin 16) (j : Fin 16) :
    pert (scores X Wq Wk cK) Nz h m (posN j) = pN X Wq Wk Nz h m j := by
  unfold pert pN
  rw [scores_posN]

/-- Result 1 at a cache position, in the two-chunk form. -/
theorem G1_posC (h : Fin 32) (m : Fin 16) (p : Fin 8192) :
    G1 X Wq Wk Nz cK h m (posC p) = K1C X Wq Wk Nz cK h m p := by
  unfold G1 K1C
  rw [soft_posC]
  congr 1
  · exact funext fun p => pert_posC X Wq Wk Nz cK h m p
  · exact funext fun j => pert_posN X Wq Wk Nz cK h m j

/-- Result 1 at a new row, in the two-chunk form. -/
theorem G1_posN (h : Fin 32) (m : Fin 16) (j : Fin 16) :
    G1 X Wq Wk Nz cK h m (posN j) = K1N X Wq Wk Nz cK h m j := by
  unfold G1 K1N
  rw [soft_posN]
  congr 1
  · exact funext fun p => pert_posC X Wq Wk Nz cK h m p
  · exact funext fun j => pert_posN X Wq Wk Nz cK h m j

end

/-! ## A quotient of a finite sum is the sum of the quotients -/

/-- For finite terms and a finite nonzero denominator,  `∑ (e n / L) · v n = (∑ e n · v n) / L`. -/
theorem sum_div_mul {ι : Type*} [Fintype ι] (e v : ι → EReal) (L : EReal) (he : ∀ n, IsFin (e n))
    (hv : ∀ n, IsFin (v n)) (hL : IsFin L) (hL0 : L ≠ 0) :
    ∑ n, Ideal.div (e n) L * v n = Ideal.div (∑ n, e n * v n) L := by
  obtain ⟨l, rfl⟩ := hL.exists_coe
  have hl : l ≠ 0 := fun h => hL0 (by rw [h, EReal.coe_zero])
  rw [Ideal.div_coe hl, sum_mul_of_isFin _ _ _ (fun n => (he n).mul (hv n)) (isFin_coe _)]
  refine Finset.sum_congr rfl fun n _ => ?_
  rw [Ideal.div_coe hl, mul_right_comm]

/-- The exponential of a difference of finite extended reals is finite. -/
theorem isFin_exp_sub {x m : EReal} (hx : IsFin x) (hm : IsFin m) : IsFin (Ideal.exp (x - m)) := by
  obtain ⟨r, rfl⟩ := hx.exists_coe
  obtain ⟨s, rfl⟩ := hm.exists_coe
  rw [← EReal.coe_sub, Ideal.exp_coe]
  exact isFin_coe _

/-- A sum, over a non-empty index set, of exponentials of differences of finite extended reals is a positive real:
    it is finite and it is not zero. -/
theorem sum_exp_sub {ι : Type*} [Fintype ι] [Nonempty ι] (g : ι → EReal) (m : EReal) (hg : ∀ n, IsFin (g n))
    (hm : IsFin m) : IsFin (∑ n, Ideal.exp (g n - m)) ∧ (∑ n, Ideal.exp (g n - m)) ≠ 0 := by
  obtain ⟨s, rfl⟩ := hm.exists_coe
  choose r hr using fun n => (hg n).exists_coe
  have h : ∀ n, Ideal.exp (g n - (s : EReal)) = ((Real.exp (r n - s) : ℝ) : EReal) := fun n => by
    rw [hr n, ← EReal.coe_sub, Ideal.exp_coe]
  rw [Finset.sum_congr rfl fun n _ => h n, Cert.SignedLogSum.coe_sum]
  refine ⟨isFin_coe _, ?_⟩
  rw [Ne, EReal.coe_eq_zero]
  exact (Finset.sum_pos (fun n _ => Real.exp_pos _) Finset.univ_nonempty).ne'

/-! ## The attention outputs agree on finite data -/

/-- The row maximum of a finite row is finite. -/
theorem isFin_rowMax (f : Fin 8208 → EReal) (hf : ∀ n, IsFin (f n)) : IsFin (rowMax f) := by
  unfold rowMax wNegInf
  rw [RowReduce.max_negInf]
  exact Cert.SignedLogSum.isFin_foldMax (n := 8208) (by norm_num) Cert.SignedLogSum.negInf_word_ne_top hf

/-- The row denominator of a finite row is finite and not zero. -/
theorem rowSum_fin (f : Fin 8208 → EReal) (hf : ∀ n, IsFin (f n)) : IsFin (rowSum f) ∧ rowSum f ≠ 0 := by
  unfold rowSum wZero
  rw [Ideal.ofBits_zero_f32, zero_add]
  exact sum_exp_sub f (rowMax f) hf (isFin_rowMax f hf)

/-- THE JOINING LAW: on a finite row and finite value rows, the sum of the normalised weights against the value rows
    is the two chunk sums of exponentials against the value rows, added and then divided by the denominator. -/
theorem attend_chunks (f : Fin 8208 → EReal) (v : Fin 8208 → Fin 128 → EReal) (d : Fin 128)
    (hf : ∀ n, IsFin (f n)) (hv : ∀ n, IsFin (v n d)) :
    attend f v d
      = chunkAttend (fun p => f (posC p)) (fun j => f (posN j)) (fun p e => v (posC p) e) (fun j e => v (posN j) e) d := by
  unfold attend soft chunkAttend
  rw [sum_div_mul (fun n => rowExp f n) (fun n => v n d) (rowSum f)
    (fun n => isFin_exp_sub (hf n) (isFin_rowMax f hf)) hv (rowSum_fin f hf).1 (rowSum_fin f hf).2,
    sum_split, rowSum_eq]
  simp only [rowExp_eq]

/-! ## Finite data give finite projections, extended rows and scores -/

/-- A projection of finite data is finite. -/
theorem isFin_proj (X : SX.Idx → EReal) (W : SW.Idx → EReal) (hX : ∀ i, IsFin (X i)) (hW : ∀ i, IsFin (W i))
    (m : Fin 16) (n : Fin 4096) : IsFin (proj X W m n) :=
  isFin_sum_mul _ _ (fun _ => hX _) (fun _ => hW _)

/-- The extended rows of a finite cache and finite projected rows are finite. -/
theorem isFin_cat (C : SC.Idx → EReal) (P : Fin 16 → Fin 4096 → EReal) (hC : ∀ i, IsFin (C i))
    (hP : ∀ j n, IsFin (P j n)) (h : Fin 32) (n : Fin 8208) (d : Fin 128) : IsFin (cat C P h n d) := by
  rcases pos_cases n with ⟨p, rfl⟩ | ⟨j, rfl⟩
  · rw [cat_posC]; exact hC _
  · rw [cat_posN]; exact hP _ _

/-- A score of finite queries against finite rows is finite. -/
theorem isFin_score (q : Fin 16 → Fin 4096 → EReal) (kc : Fin 32 → Fin 8208 → Fin 128 → EReal)
    (hq : ∀ m n, IsFin (q m n)) (hk : ∀ h n d, IsFin (kc h n d)) (h : Fin 32) (m : Fin 16) (n : Fin 8208) :
    IsFin (score q kc h m n) :=
  isFin_sum_mul _ _ (fun _ => hq _ _) (fun _ => hk _ _ _)

/-- Result 0 on finite data, in the two-chunk form. -/
theorem G0_eq_K0 (X : SX.Idx → EReal) (Wq Wk Wv : SW.Idx → EReal) (cK cV : SC.Idx → EReal)
    (hX : ∀ i, IsFin (X i)) (hq : ∀ i, IsFin (Wq i)) (hk : ∀ i, IsFin (Wk i)) (hv : ∀ i, IsFin (Wv i))
    (hcK : ∀ i, IsFin (cK i)) (hcV : ∀ i, IsFin (cV i)) (m : Fin 16) (h : Fin 32) (d : Fin 128) :
    G0 X Wq Wk Wv cK cV m h d = K0 X Wq Wk Wv cK cV m h d := by
  unfold G0 K0
  have hs : ∀ n, IsFin (scores X Wq Wk cK h m n) := fun n =>
    isFin_score _ _ (isFin_proj X Wq hX hq) (isFin_cat cK _ hcK (isFin_proj X Wk hX hk)) h m n
  rw [attend_chunks (scores X Wq Wk cK h m) (cat cV (proj X Wv) h) d hs
    (fun n => isFin_cat cV _ hcV (isFin_proj X Wv hX hv) h n d)]
  congr 1
  · exact funext fun p => scores_posC X Wq Wk cK h m p
  · exact funext fun j => scores_posN X Wq Wk cK h m j
  · exact funext fun p => funext fun e => cat_posC cV _ h p e
  · exact funext fun j => funext fun e => cat_posN cV _ h j e

end Cert.Attn

end
-- ==== Proof.AttnForms.lean ====
/-
  The attention region's results as functions of the arrays it is handed, and their identification with
  the whole arrays of the claim.

  The attention region never sees the activations and the weights. It is handed three projected arrays
  q = X·Wq, k = X·Wk and v = X·Wv (each 16 x 4096, head h's feature e in column h·128 + e), the two caches
  and the noise. In terms of these, row m of head h has raw scores
      rowC q cK h m p = ∑ e, q(m, h·128+e) · cK(h, p, e)      against cache position p,
      rowN q k h m j  = ∑ e, q(m, h·128+e) · k(j, h·128+e)    against new row j,
  and the two results are the two-chunk attention of these rows against the cache's and the new value rows
  (A0), and the two-chunk softmax of the perturbed rows at a cache position (A1C) and at a new row (A1N).
  Laid out as whole arrays: result 0 puts head h's feature d in column h·128 + d (arr0), result 1 puts the
  8192 cache positions first and the 16 new rows after them (arr1).

  When the three arrays ARE the projections, these are the claim's results. For result 1 this holds for
  all extended reals: the two-chunk softmax is the whole-row softmax. For result 0 it holds on finite
  data, where a finite sum over a finite nonzero denominator is the sum of the quotients.
-/
import proofs.«170767_j317827580173_2_alg».proof.Proof.Spec
import proofs.«170767_j317827580173_2_alg».proof.Proof.Chunks
import proofs.«170767_j317827580173_2_alg».proof.Proof.LibERealSums

noncomputable section

open scoped BigOperators

namespace Cert.Attn

open Idealize.ShloMosaic Idealize.ShloMosaic.ValueIdx Cert.LibERealSums

/-! ## The results over the arrays the region is handed -/

/-- A projection X · W as a whole 16 x 4096 array. -/
def projArr (X : SX.Idx → EReal) (W : SW.Idx → EReal) : SX.Idx → EReal := fun i => proj X W (i 0) (i 1)

/-- Row m of head h: its raw score against cache position p. -/
def rowC (q : SX.Idx → EReal) (cK : SC.Idx → EReal) (h : Fin 32) (m : Fin 16) (p : Fin 8192) : EReal :=
  ∑ e : Fin 128, q (ix2 m (col h e)) * cK (ix3 h p e)

/-- Row m of head h: its raw score against new row j. -/
def rowN (q k : SX.Idx → EReal) (h : Fin 32) (m : Fin 16) (j : Fin 16) : EReal :=
  ∑ e : Fin 128, q (ix2 m (col h e)) * k (ix2 j (col h e))

/-- Result 0 at row m, head h, feature d. -/
def A0 (q k v : SX.Idx → EReal) (cK cV : SC.Idx → EReal) (m : Fin 16) (h : Fin 32) (d : Fin 128) : EReal :=
  chunkAttend (rowC q cK h m) (rowN q k h m) (fun p e => cV (ix3 h p e)) (fun j e => v (ix2 j (col h e))) d

/-- Result 1 at head h, row m, cache position p. -/
def A1C (q k : SX.Idx → EReal) (Nz : SN.Idx → EReal) (cK : SC.Idx → EReal) (h : Fin 32) (m : Fin 16) (p : Fin 8192) : EReal :=
  chunkSoftC (fun p => Ideal.div (rowC q cK h m p + Nz (ix3 h m (posC p))) w15)
    (fun j => Ideal.div (rowN q k h m j + Nz (ix3 h m (posN j))) w15) p

/-- Result 1 at head h, row m, new row j. -/
def A1N (q k : SX.Idx → EReal) (Nz : SN.Idx → EReal) (cK : SC.Idx → EReal) (h : Fin 32) (m : Fin 16) (j : Fin 16) : EReal :=
  chunkSoftN (fun p => Ideal.div (rowC q cK h m p + Nz (ix3 h m (posC p))) w15)
    (fun j => Ideal.div (rowN q k h m j + Nz (ix3 h m (posN j))) w15) j

/-- Result 0 as a whole 16 x 4096 array: column n is feature n % 128 of head n / 128. -/
def arr0 (q k v : SX.Idx → EReal) (cK cV : SC.Idx → EReal) : SX.Idx → EReal := fun i =>
  A0 q k v cK cV (i 0) ⟨(i 1).val / 128, Nat.div_lt_of_lt_mul (i 1).isLt⟩ ⟨(i 1).val % 128, Nat.mod_lt _ (by norm_num)⟩

/-- Result 1 as a whole 32 x 16 x 8208 array: the cache positions, then the new rows. -/
def arr1 (q k : SX.Idx → EReal) (Nz : SN.Idx → EReal) (cK : SC.Idx → EReal) : SN.Idx → EReal := fun i =>
  if h8 : (i 2).val < 8192 then A1C q k Nz cK (i 0) (i 1) ⟨(i 2).val, h8⟩
  else A1N q k Nz cK (i 0) (i 1) ⟨(i 2).val - 8192, by have h := (i 2).isLt; change (i 2).val < 8208 at h; omega⟩

/-! ## At the projections, the rows are the claim's rows -/

section
variable (X : SX.Idx → EReal) (Wq Wk Wv : SW.Idx → EReal) (Nz : SN.Idx → EReal) (cK cV : SC.Idx → EReal)

/-- The projected array at row m, column n. -/
theorem projArr_ix2 (W : SW.Idx → EReal) (m : Fin 16) (n : Fin 4096) : projArr X W (ix2 m n) = proj X W m n := rfl

theorem rowC_proj (h : Fin 32) (m : Fin 16) (p : Fin 8192) : rowC (projArr X Wq) cK h m p = sC X Wq cK h m p := by
  unfold rowC sC
  exact Finset.sum_congr rfl fun e _ => by rw [projArr_ix2]

theorem rowN_proj (h : Fin 32) (m : Fin 16) (j : Fin 16) :
    rowN (projArr X Wq) (projArr X Wk) h m j = sN X Wq Wk h m j := by
  unfold rowN sN
  exact Finset.sum_congr rfl fun e _ => by rw [projArr_ix2, projArr_ix2]

/-- The perturbed rows at the projections are the claim's perturbed rows. -/
theorem pertC_proj (h : Fin 32) (m : Fin 16) :
    (fun p => Ideal.div (rowC (projArr X Wq) cK h m p + Nz (ix3 h m (posC p))) w15) = pC X Wq Nz cK h m :=
  funext fun p => by unfold pC; rw [rowC_proj]

theorem pertN_proj (h : Fin 32) (m : Fin 16) :
    (fun j => Ideal.div (rowN (projArr X Wq) (projArr X Wk) h m j + Nz (ix3 h m (posN j))) w15) = pN X Wq Wk Nz h m :=
  funext fun j => by unfold pN; rw [rowN_proj]

theorem A1C_proj (h : Fin 32) (m : Fin 16) (p : Fin 8192) :
    A1C (projArr X Wq) (projArr X Wk) Nz cK h m p = K1C X Wq Wk Nz cK h m p := by
  unfold A1C K1C
  rw [pertC_proj, pertN_proj]

theorem A1N_proj (h : Fin 32) (m : Fin 16) (j : Fin 16) :
    A1N (projArr X Wq) (projArr X Wk) Nz cK h m j = K1N X Wq Wk Nz cK h m j := by
  unfold A1N K1N
  rw [pertC_proj, pertN_proj]

theorem A0_proj (m : Fin 16) (h : Fin 32) (d : Fin 128) :
    A0 (projArr X Wq) (projArr X Wk) (projArr X Wv) cK cV m h d = K0 X Wq Wk Wv cK cV m h d := by
  unfold A0 K0
  rw [show rowC (projArr X Wq) cK h m = sC X Wq cK h m from funext fun p => rowC_proj X Wq cK h m p,
    show rowN (projArr X Wq) (projArr X Wk) h m = sN X Wq Wk h m from funext fun j => rowN_proj X Wq Wk h m j]
  rfl

/-- The array of result 1 at literal coordinates. -/
theorem arr1_ix3 (q k : SX.Idx → EReal) (h : Fin 32) (m : Fin 16) (n : Fin 8208) :
    arr1 q k Nz cK (ix3 h m n) = if h8 : n.val < 8192 then A1C q k Nz cK h m ⟨n.val, h8⟩
      else A1N q k Nz cK h m ⟨n.val - 8192, by have := n.isLt; omega⟩ := rfl

/-! ## The identification with the claim's arrays -/

/-- Result 1: at every extended real. A position is a cache position or a new row; at each the whole-row
    softmax is the two-chunk softmax. -/
theorem res1_eq : arr1 (projArr X Wq) (projArr X Wk) Nz cK = R1 X Wq Wk Nz cK := by
  funext i
  obtain ⟨h, m, n, rfl⟩ : ∃ (h : Fin 32) (m : Fin 16) (n : Fin 8208), i = ix3 h m n := ⟨_, _, _, eq_ix3 i⟩
  rw [R1_apply, arr1_ix3]
  rcases pos_cases n with ⟨p, rfl⟩ | ⟨j, rfl⟩
  · rw [dif_pos (show (posC p).val < 8192 from p.isLt), G1_posC, ← A1C_proj]
    rfl
  · rw [dif_neg (show ¬ (posN j).val < 8192 from by show ¬ 8192 + j.val < 8192; omega), G1_posN, ← A1N_proj]
    refine congrArg (A1N (projArr X Wq) (projArr X Wk) Nz cK h m) (Fin.ext ?_)
    show 8192 + j.val - 8192 = j.val
    omega

/-- Result 0: on finite data, where the quotient of the two weighted sums by the denominator is the sum of
    the quotients. -/
theorem res0_eq (hX : ∀ i, IsFin (X i)) (hq : ∀ i, IsFin (Wq i)) (hk : ∀ i, IsFin (Wk i)) (hv : ∀ i, IsFin (Wv i))
    (hcK : ∀ i, IsFin (cK i)) (hcV : ∀ i, IsFin (cV i)) :
    arr0 (projArr X Wq) (projArr X Wk) (projArr X Wv) cK cV = R0 X Wq Wk Wv cK cV := by
  funext i
  exact (A0_proj X Wq Wk Wv cK cV _ _ _).trans (G0_eq_K0 X Wq Wk Wv cK cV hX hq hk hv hcK hcV _ _ _).symm

end

end Cert.Attn

end
-- ==== Proof.AttnValue.lean ====
/-
  From blocks to arrays for the attention region, on the extended reals.

  The region runs 32 points, one per head.  At point t it is handed the head's 128 columns of the three projected arrays
  (queries, new keys, new values: block column t of a 16 x 4096 array), the head's slab of the two caches (8192 x 128) and
  of the noise (16 x 8208), and writes back block column t of result 0 and slab t of result 1.

  What a point leaves in result 1's block is, column by column, the two-chunk soft-max of the perturbed scores: the two
  stores tile the block, the first 8192 columns the cache positions, the last 16 the new rows.  What it leaves in result
  0's block is the two-chunk attention output.  Each input block read at an index is the array read at the head's
  coordinates (a block's element sits at block index times block size plus its own coordinate), so what point t writes
  back is block t of ONE function of the arrays; the 32 blocks cover each result, hence each result ends holding that
  function.
-/
import proofs.«170767_j317827580173_2_alg».proof.Proof.AttnBody
import proofs.«170767_j317827580173_2_alg».proof.Proof.AttnPayload
import proofs.«170767_j317827580173_2_alg».proof.Proof.AttnForms
import proofs.«170767_j317827580173_2_alg».proof.Proof.Spec
import Idealize.ShloMosaic.Lib.Pipeline.Value

noncomputable section

namespace Cert.KernelIdeal.AttnValue

open Idealize.ShloMosaic Idealize.ShloMosaic.ValueIdx Idealize.ShloMosaic.TcCoe Idealize.SL.Sem
open Idealize.ShloMosaic.Pipeline (Dat)
open Cert.KernelIdeal Cert.KernelIdeal.AttnBody Cert.KernelIdeal.AttnPayload Cert.Attn

/-! ## One point's block of result 1, over variables -/

/-- The zero offsets of a whole block, at rank two and three. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Two stores into one buffer, last first: an index under the first listed store reads its payload, -/
theorem canon_first {S : Shape} {e : EltTy} (r1 r2 : Rect S) (w1 : r1.shape.Idx → Elt Ideal e) (w2 : r2.shape.Idx → Elt Ideal e)
    (x : r1.shape.Idx) : View.canon [(⟨r1, w1⟩ : View.Piece (Elt Ideal) S e), ⟨r2, w2⟩] (r1.emb x) = w1 x :=
  View.canon_cons_emb r1 w1 _ x
/-- and an index under the second and off the first reads the second's. -/
theorem canon_second {S : Shape} {e : EltTy} (r1 r2 : Rect S) (w1 : r1.shape.Idx → Elt Ideal e) (w2 : r2.shape.Idx → Elt Ideal e)
    (x : r2.shape.Idx) (h : r2.emb x ∉ r1.set) :
    View.canon [(⟨r1, w1⟩ : View.Piece (Elt Ideal) S e), ⟨r2, w2⟩] (r2.emb x) = w2 x :=
  (View.canon_cons_of_not_mem (⟨r1, w1⟩ : View.Piece (Elt Ideal) S e) _ h).trans (View.canon_cons_emb r2 w2 [] x)

/-- Column p of the first 8192 columns of result 1's block is column p of the block, -/
theorem lo_emb (m : Fin 16) (p : Fin 8192) :
    rLo.emb (ix3 (0 : Fin 1) m p) = (ix3 (0 : Fin 1) m (⟨p.val, by have := p.isLt; omega⟩ : Fin 8208) : S1x16x8208.Idx) := by
  funext a; apply Fin.ext
  match a with
  | ⟨0, _⟩ => rfl
  | ⟨1, _⟩ => show 0 + 1 * m.val = m.val; omega
  | ⟨2, _⟩ => show 0 + 1 * p.val = p.val; omega
/-- column j of its last 16 columns is column 8192 + j, -/
theorem hi_emb (m : Fin 16) (j : Fin 16) :
    rHi.emb (ix3 (0 : Fin 1) m j) = (ix3 (0 : Fin 1) m (⟨8192 + j.val, by have := j.isLt; omega⟩ : Fin 8208) : S1x16x8208.Idx) := by
  funext a; apply Fin.ext
  match a with
  | ⟨0, _⟩ => rfl
  | ⟨1, _⟩ => show 0 + 1 * m.val = m.val; omega
  | ⟨2, _⟩ => show 8192 + 1 * j.val = 8192 + j.val; omega
/-- and no column of the first part is one of the last. -/
theorem lo_not_hi (m : Fin 16) (p : Fin 8192) : rLo.emb (ix3 (0 : Fin 1) m p) ∉ rHi.set := by
  rw [lo_emb, Rect.mem_set_unit]
  intro hmem
  have h2 : 8192 ≤ p.val := (hmem (2 : Fin 3)).1
  have := p.isLt
  omega

section Point7
variable (x0 x1 x2 : Vec Ideal S16x128 .f32) (x3 x4 : Vec Ideal S1x8192x128 .f32) (x5 : Vec Ideal S1x16x8208 .f32)

/-- What the step leaves in result 1's block, at (u, m, n): the two stores tile the block, the first 8192 columns the
    cache part of the soft-max, the last 16 the new part. -/
theorem out7_apply (u : Fin 1) (m : Fin 16) (n : Fin 8208) :
    out1_7 x0 x1 x2 x3 x4 x5 (ix3 u m n)
      = if h8 : n.val < 8192 then chunkSoftC (gc x0 x3 x5 m) (gn x0 x1 x5 m) ⟨n.val, h8⟩
        else chunkSoftN (gc x0 x3 x5 m) (gn x0 x1 x5 m) ⟨n.val - 8192, by have := n.isLt; omega⟩ := by
  obtain rfl : u = 0 := Subsingleton.elim _ _
  unfold out1_7
  simp only [View.ld_unit_zero (S := S16x128) hz2, View.ld_unit_zero (S := S1x8192x128) hz3,
    View.ld_unit_zero (S := S1x16x8208) hz3]
  by_cases h8 : n.val < 8192
  · rw [dif_pos h8]
    have he : (ix3 (0 : Fin 1) m n : S1x16x8208.Idx) = rLo.emb (ix3 (0 : Fin 1) m (⟨n.val, h8⟩ : Fin 8192)) := (lo_emb m ⟨n.val, h8⟩).symm
    rw [he]
    exact (canon_second rHi rLo _ _ _ (lo_not_hi m ⟨n.val, h8⟩)).trans (pay6_apply x0 x1 x3 x5 m ⟨n.val, h8⟩)
  · rw [dif_neg h8]
    have hlt := n.isLt
    have he : (ix3 (0 : Fin 1) m n : S1x16x8208.Idx) = rHi.emb (ix3 (0 : Fin 1) m (⟨n.val - 8192, by omega⟩ : Fin 16)) := by
      rw [hi_emb]
      exact congrArg (fun z : Fin 8208 => (ix3 (0 : Fin 1) m z : S1x16x8208.Idx)) (Fin.ext (by show n.val = 8192 + (n.val - 8192); omega))
    rw [he]
    exact (canon_first rHi rLo _ _ _).trans (pay7_apply x0 x1 x3 x5 m ⟨n.val - 8192, by omega⟩)

end Point7

/-! ## One point's block of result 1 against the arrays

When the six blocks of a point are the arrays read at head h — the query, key and value rows at the head's 128 columns,
the caches and the noise at the head's slab — the block the point leaves is the head's slab of the whole-array function. -/

section Block7
variable (q k : SX.Idx → EReal) (Nz : SN.Idx → EReal) (cK : SC.Idx → EReal) (h : Fin 32)
variable (x0 x1 x2 : Vec Ideal S16x128 .f32) (x3 x4 : Vec Ideal S1x8192x128 .f32) (x5 : Vec Ideal S1x16x8208 .f32)

/-- The perturbed cache scores of row m of the blocks are those of row m, head h, of the arrays. -/
theorem gc_eq (h0 : ∀ (m : Fin 16) (e : Fin 128), x0 (ix2 m e) = q (ix2 m (col h e)))
    (h3 : ∀ (p : Fin 8192) (e : Fin 128), x3 (ix3 (0 : Fin 1) p e) = cK (ix3 h p e))
    (h5 : ∀ (m : Fin 16) (n : Fin 8208), x5 (ix3 (0 : Fin 1) m n) = Nz (ix3 h m n)) (m : Fin 16) :
    gc x0 x3 x5 m = (fun p => Ideal.div (rowC q cK h m p + Nz (ix3 h m (posC p))) w15) := by
  funext p
  unfold gc fc rowC
  rw [h5]
  refine congrArg (fun s => Ideal.div (s + _) _) (Finset.sum_congr rfl fun e _ => ?_)
  rw [h0, h3]

/-- The perturbed new scores of row m of the blocks are those of row m, head h, of the arrays. -/
theorem gn_eq (h0 : ∀ (m : Fin 16) (e : Fin 128), x0 (ix2 m e) = q (ix2 m (col h e)))
    (h1 : ∀ (j : Fin 16) (e : Fin 128), x1 (ix2 j e) = k (ix2 j (col h e)))
    (h5 : ∀ (m : Fin 16) (n : Fin 8208), x5 (ix3 (0 : Fin 1) m n) = Nz (ix3 h m n)) (m : Fin 16) :
    gn x0 x1 x5 m = (fun j => Ideal.div (rowN q k h m j + Nz (ix3 h m (posN j))) w15) := by
  funext j
  unfold gn fn rowN
  rw [h5]
  refine congrArg (fun s => Ideal.div (s + _) _) (Finset.sum_congr rfl fun e _ => ?_)
  rw [h0, h1]

/-- So the block's entry (u, m, n) is entry (h, m, n) of the whole-array function. -/
theorem block7 (h0 : ∀ (m : Fin 16) (e : Fin 128), x0 (ix2 m e) = q (ix2 m (col h e)))
    (h1 : ∀ (j : Fin 16) (e : Fin 128), x1 (ix2 j e) = k (ix2 j (col h e)))
    (h3 : ∀ (p : Fin 8192) (e : Fin 128), x3 (ix3 (0 : Fin 1) p e) = cK (ix3 h p e))
    (h5 : ∀ (m : Fin 16) (n : Fin 8208), x5 (ix3 (0 : Fin 1) m n) = Nz (ix3 h m n))
    (u : Fin 1) (m : Fin 16) (n : Fin 8208) :
    out1_7 x0 x1 x2 x3 x4 x5 (ix3 u m n) = arr1 q k Nz cK (ix3 h m n) := by
  rw [out7_apply, gc_eq q Nz cK h x0 x3 x5 h0 h3 h5 m, gn_eq q k Nz h x0 x1 x5 h0 h1 h5 m]
  rfl

end Block7

/-! ## Where each window's block sits at a point -/

/-- The printed index maps over the 32 points: point t is head t; the three row windows and result 0 sit at block column
    t, the two caches, the noise and result 1 at slab t. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0
    ∧ win1_6.index t (0 : Fin 2) = 0 ∧ win1_6.index t (1 : Fin 2) = t.val
    ∧ win1_7.index t (0 : Fin 3) = t.val ∧ win1_7.index t (1 : Fin 3) = 0 ∧ win1_7.index t (2 : Fin 3) = 0 :=
  (by decide +kernel : ∀ t : Fin grid1.N, _)

/-- The head a grid point handles. -/
def headOf (t : Fin cfg1.N) : Fin 32 := ⟨t.val, lt_of_lt_of_eq t.isLt Gen.N_1⟩

section Reads
variable (V : (c : Dev nD) → (b : Ref sig .tc) → Buf (Elt Ideal) ((c : Thread nD τ).loc b)) (c : Dev nD) (t : Fin cfg1.N)

/-- The query block at point t is the head's 128 columns of the projected queries. -/
theorem iblk0_apply (m : Fin 16) (e : Fin 128) :
    (iblk1 V c 0 t : Vec Ideal S16x128 .f32) (ix2 m e) = (V c main_v0_0 : SX.Idx → EReal) (ix2 m (col (headOf t) e)) := by
  obtain ⟨a0, a1, -⟩ := idx_facts t
  unfold iblk1
  rw [View.read_apply]
  show (V c main_v0_0 : SX.Idx → EReal) _ = _
  refine congrArg (V c main_v0_0 : SX.Idx → EReal) (funext fun a => Fin.ext ?_)
  match a with
  | ⟨0, _⟩ => show win1_0.index t (0 : Fin 2) * 16 + 1 * m.val = m.val; rw [a0]; omega
  | ⟨1, _⟩ => show win1_0.index t (1 : Fin 2) * 128 + 1 * e.val = t.val * 128 + e.val; rw [a1]; omega

end Reads

section Reads2
variable (V : (c : Dev nD) → (b : Ref sig .tc) → Buf (Elt Ideal) ((c : Thread nD τ).loc b)) (c : Dev nD) (t : Fin cfg1.N)

/-- The new key block at point t is the head's 128 columns of the projected keys. -/
theorem iblk1_apply (j : Fin 16) (e : Fin 128) :
    (iblk1 V c 1 t : Vec Ideal S16x128 .f32) (ix2 j e) = (V c main_v0_1 : SX.Idx → EReal) (ix2 j (col (headOf t) e)) := by
  obtain ⟨-, -, a0, a1, -⟩ := idx_facts t
  unfold iblk1
  rw [View.read_apply]
  show (V c main_v0_1 : SX.Idx → EReal) _ = _
  refine congrArg (V c main_v0_1 : SX.Idx → EReal) (funext fun a => Fin.ext ?_)
  match a with
  | ⟨0, _⟩ => show win1_1.index t (0 : Fin 2) * 16 + 1 * j.val = j.val; rw [a0]; omega
  | ⟨1, _⟩ => show win1_1.index t (1 : Fin 2) * 128 + 1 * e.val = t.val * 128 + e.val; rw [a1]; omega

/-- The new value block at point t is the head's 128 columns of the projected values. -/
theorem iblk2_apply (j : Fin 16) (e : Fin 128) :
    (iblk1 V c 2 t : Vec Ideal S16x128 .f32) (ix2 j e) = (V c main_v0_2 : SX.Idx → EReal) (ix2 j (col (headOf t) e)) := by
  obtain ⟨-, -, -, -, a0, a1, -⟩ := idx_facts t
  unfold iblk1
  rw [View.read_apply]
  show (V c main_v0_2 : SX.Idx → EReal) _ = _
  refine congrArg (V c main_v0_2 : SX.Idx → EReal) (funext fun a => Fin.ext ?_)
  match a with
  | ⟨0, _⟩ => show win1_2.index t (0 : Fin 2) * 16 + 1 * j.val = j.val; rw [a0]; omega
  | ⟨1, _⟩ => show win1_2.index t (1 : Fin 2) * 128 + 1 * e.val = t.val * 128 + e.val; rw [a1]; omega

/-- The key cache's block at point t is the head's slab. -/
theorem iblk3_apply (p : Fin 8192) (e : Fin 128) :
    (iblk1 V c 3 t : Vec Ideal S1x8192x128 .f32) (ix3 (0 : Fin 1) p e) = (V c main_arg5 : SC.Idx → EReal) (ix3 (headOf t) p e) := by
  obtain ⟨-, -, -, -, -, -, a0, a1, a2, -⟩ := idx_facts t
  unfold iblk1
  rw [View.read_apply]
  show (V c main_arg5 : SC.Idx → EReal) _ = _
  refine congrArg (V c main_arg5 : SC.Idx → EReal) (funext fun a => Fin.ext ?_)
  match a with
  | ⟨0, _⟩ => show win1_3.index t (0 : Fin 3) * 1 + 1 * 0 = t.val; rw [a0]; omega
  | ⟨1, _⟩ => show win1_3.index t (1 : Fin 3) * 8192 + 1 * p.val = p.val; rw [a1]; omega
  | ⟨2, _⟩ => show win1_3.index t (2 : Fin 3) * 128 + 1 * e.val = e.val; rw [a2]; omega

/-- The value cache's block at point t is the head's slab. -/
theorem iblk4_apply (p : Fin 8192) (e : Fin 128) :
    (iblk1 V c 4 t : Vec Ideal S1x8192x128 .f32) (ix3 (0 : Fin 1) p e) = (V c main_arg6 : SC.Idx → EReal) (ix3 (headOf t) p e) := by
  obtain ⟨-, -, -, -, -, -, -, -, -, a0, a1, a2, -⟩ := idx_facts t
  unfold iblk1
  rw [View.read_apply]
  show (V c main_arg6 : SC.Idx → EReal) _ = _
  refine congrArg (V c main_arg6 : SC.Idx → EReal) (funext fun a => Fin.ext ?_)
  match a with
  | ⟨0, _⟩ => show win1_4.index t (0 : Fin 3) * 1 + 1 * 0 = t.val; rw [a0]; omega
  | ⟨1, _⟩ => show win1_4.index t (1 : Fin 3) * 8192 + 1 * p.val = p.val; rw [a1]; omega
  | ⟨2, _⟩ => show win1_4.index t (2 : Fin 3) * 128 + 1 * e.val = e.val; rw [a2]; omega

/-- The noise block at point t is the head's slab. -/
theorem iblk5_apply (m : Fin 16) (n : Fin 8208) :
    (iblk1 V c 5 t : Vec Ideal S1x16x8208 .f32) (ix3 (0 : Fin 1) m n) = (V c main_arg4 : SN.Idx → EReal) (ix3 (headOf t) m n) := by
  obtain ⟨-, -, -, -, -, -, -, -, -, -, -, -, a0, a1, a2, -⟩ := idx_facts t
  unfold iblk1
  rw [View.read_apply]
  show (V c main_arg4 : SN.Idx → EReal) _ = _
  refine congrArg (V c main_arg4 : SN.Idx → EReal) (funext fun a => Fin.ext ?_)
  match a with
  | ⟨0, _⟩ => show win1_5.index t (0 : Fin 3) * 1 + 1 * 0 = t.val; rw [a0]; omega
  | ⟨1, _⟩ => show win1_5.index t (1 : Fin 3) * 16 + 1 * m.val = m.val; rw [a1]; omega
  | ⟨2, _⟩ => show win1_5.index t (2 : Fin 3) * 8208 + 1 * n.val = n.val; rw [a2]; omega

end Reads2

/-! ## Result 1: what a point writes back, the cover, the array -/

section Final7
variable (V : (c : Dev nD) → (b : Ref sig .tc) → Buf (Elt Ideal) ((c : Thread nD τ).loc b)) (c : Dev nD)

/-- What point t writes back to result 1 is slab t of the whole-array function of the arrays the region finds. -/
theorem flushed7_eq (t : Fin cfg1.N) :
    (dat1 V c).flushed 7 t
      = ((cfg1.win 7).blk t).view.read (Elt Ideal) (arr1 (V c main_v0_0) (V c main_v0_1) (V c main_arg4) (V c main_arg5)) := by
  show (cfg1.win 7).cut (grid1.coords t) ((dat1 V c).after 7 t) = _
  rw [after1_7]
  funext y
  obtain ⟨u, m, n, rfl⟩ : ∃ (u : Fin 1) (m : Fin 16) (n : Fin 8208), y = (ix3 u m n : S1x16x8208.Idx) :=
    ⟨y 0, y 1, y 2, eq_ix3 (n0 := 1) (n1 := 16) (n2 := 8208) y⟩
  obtain rfl : u = 0 := Subsingleton.elim _ _
  rw [View.read_apply]
  show out1_7 (iblk1 V c 0 t) (iblk1 V c 1 t) (iblk1 V c 2 t) (iblk1 V c 3 t) (iblk1 V c 4 t) (iblk1 V c 5 t) (ix3 (0 : Fin 1) m n)
    = arr1 (V c main_v0_0) (V c main_v0_1) (V c main_arg4) (V c main_arg5) (((cfg1.win 7).blk t).view.emb (ix3 (0 : Fin 1) m n))
  refine (block7 (V c main_v0_0) (V c main_v0_1) (V c main_arg4) (V c main_arg5) (headOf t)
    (iblk1 V c 0 t) (iblk1 V c 1 t) (iblk1 V c 2 t) (iblk1 V c 3 t) (iblk1 V c 4 t) (iblk1 V c 5 t)
    (iblk0_apply V c t) (iblk1_apply V c t) (iblk3_apply V c t) (iblk5_apply V c t) (0 : Fin 1) m n).trans ?_
  obtain ⟨-, -, -, -, -, -, -, -, -, -, -, -, -, -, -, -, -, a0, a1, a2⟩ := idx_facts t
  refine congrArg (arr1 (V c main_v0_0) (V c main_v0_1) (V c main_arg4) (V c main_arg5)) (funext fun a => Fin.ext ?_)
  match a with
  | ⟨0, _⟩ => show t.val = win1_7.index t (0 : Fin 3) * 1 + 1 * 0; rw [a0]; omega
  | ⟨1, _⟩ => show m.val = win1_7.index t (1 : Fin 3) * 16 + 1 * m.val; rw [a1]; omega
  | ⟨2, _⟩ => show n.val = win1_7.index t (2 : Fin 3) * 8208 + 1 * n.val; rw [a2]; omega

/-- An index of result 1 is in point t's block iff each coordinate is in the block's range on its axis. -/
theorem mem_blk7 (t : Fin cfg1.N) (i : S32x16x8208.Idx) :
    i ∈ ((cfg1.win 7).blk t).view.set
      ↔ ∀ a : Fin 3, win1_7.index t a * S1x16x8208.size a ≤ (i a).val ∧ (i a).val < win1_7.index t a * S1x16x8208.size a + S1x16x8208.size a := by
  show i ∈ ((View.whole main_v1_1).slice (win1_7.rect t)).set ↔ _
  rw [View.set_slice_whole, Rect.mem_set_unit]
  exact Iff.rfl

/-- Every index of result 1 is in some point's block: slab h is point h's. -/
theorem cover7 (i : S32x16x8208.Idx) : ∃ t : Fin cfg1.N, (cfg1.win 7).flush t = true ∧ i ∈ ((cfg1.win 7).blk t).view.set := by
  have hi0 : (i 0).val < 32 := (i 0).isLt
  have hi1 : (i 1).val < 16 := (i 1).isLt
  have hi2 : (i 2).val < 8208 := (i 2).isLt
  refine ⟨⟨(i 0).val, lt_of_lt_of_eq hi0 Gen.N_1.symm⟩, Gen.flush1_7 _, ?_⟩
  rw [mem_blk7]
  obtain ⟨-, -, -, -, -, -, -, -, -, -, -, -, -, -, -, -, -, a0, a1, a2⟩ := idx_facts ⟨(i 0).val, lt_of_lt_of_eq hi0 Gen.N_1.symm⟩
  intro a
  match a with
  | ⟨0, _⟩ => show win1_7.index _ (0 : Fin 3) * 1 ≤ (i 0).val ∧ (i 0).val < win1_7.index _ (0 : Fin 3) * 1 + 1; rw [a0]; show (i 0).val * 1 ≤ (i 0).val ∧ (i 0).val < (i 0).val * 1 + 1; omega
  | ⟨1, _⟩ => show win1_7.index _ (1 : Fin 3) * 16 ≤ (i 1).val ∧ (i 1).val < win1_7.index _ (1 : Fin 3) * 16 + 16; rw [a1]; omega
  | ⟨2, _⟩ => show win1_7.index _ (2 : Fin 3) * 8208 ≤ (i 2).val ∧ (i 2).val < win1_7.index _ (2 : Fin 3) * 8208 + 8208; rw [a2]; omega

/-- RESULT 1 after the region: the whole-array function of the arrays the region finds. -/
theorem final7 : (dat1 V c).arrAt 7 cfg1.N = arr1 (V c main_v0_0) (V c main_v0_1) (V c main_arg4) (V c main_arg5) :=
  (dat1 V c).arrAt_eq_of_cover 7 (arr1 (V c main_v0_0) (V c main_v0_1) (V c main_arg4) (V c main_arg5))
    (fun t _ => flushed7_eq V c t) cover7

end Final7

/-! ## Result 0: one point's block, what a point writes back, the cover, the array -/

section Point6
variable (x0 x1 x2 : Vec Ideal S16x128 .f32) (x3 x4 : Vec Ideal S1x8192x128 .f32) (x5 : Vec Ideal S1x16x8208 .f32)

/-- What the step leaves in result 0's block, at (m, d): its one store of the whole block, the two-chunk attention
    output of row m against the blocks. -/
theorem out6_apply (m : Fin 16) (d : Fin 128) :
    out1_6 x0 x1 x2 x3 x4 x5 (ix2 m d)
      = chunkAttend (fc x0 x3 m) (fn x0 x1 m) (fun p e => x4 (ix3 (0 : Fin 1) p e)) (fun j e => x2 (ix2 j e)) d := by
  unfold out1_6
  simp only [View.ld_unit_zero (S := S16x128) hz2, View.ld_unit_zero (S := S1x8192x128) hz3]
  rw [View.canon_unit_zero hz2]
  exact pay5_apply x0 x1 x2 x3 x4 m d

variable (q k v : SX.Idx → EReal) (cK cV : SC.Idx → EReal) (h : Fin 32)

/-- Column col h d of the whole-array function is feature d of head h. -/
theorem arr0_col (m : Fin 16) (d : Fin 128) : arr0 q k v cK cV (ix2 m (col h d)) = A0 q k v cK cV m h d := by
  have h1 : (h.val * 128 + d.val) / 128 = h.val := by omega
  have h2 : (h.val * 128 + d.val) % 128 = d.val := by omega
  show A0 q k v cK cV m ⟨(h.val * 128 + d.val) / 128, _⟩ ⟨(h.val * 128 + d.val) % 128, _⟩ = _
  congr 1 <;> exact Fin.ext (by assumption)

/-- When the five blocks read are the arrays at head h, the block's entry (m, d) is entry (m, h * 128 + d) of the
    whole-array function. -/
theorem block6 (h0 : ∀ (m : Fin 16) (e : Fin 128), x0 (ix2 m e) = q (ix2 m (col h e)))
    (h1 : ∀ (j : Fin 16) (e : Fin 128), x1 (ix2 j e) = k (ix2 j (col h e)))
    (h2 : ∀ (j : Fin 16) (e : Fin 128), x2 (ix2 j e) = v (ix2 j (col h e)))
    (h3 : ∀ (p : Fin 8192) (e : Fin 128), x3 (ix3 (0 : Fin 1) p e) = cK (ix3 h p e))
    (h4 : ∀ (p : Fin 8192) (e : Fin 128), x4 (ix3 (0 : Fin 1) p e) = cV (ix3 h p e))
    (m : Fin 16) (d : Fin 128) :
    out1_6 x0 x1 x2 x3 x4 x5 (ix2 m d) = arr0 q k v cK cV (ix2 m (col h d)) := by
  have e1 : fc x0 x3 m = rowC q cK h m := funext fun p => by
    unfold fc rowC; exact Finset.sum_congr rfl fun e _ => by rw [h0, h3]
  have e2 : fn x0 x1 m = rowN q k h m := funext fun j => by
    unfold fn rowN; exact Finset.sum_congr rfl fun e _ => by rw [h0, h1]
  have e3 : (fun (p : Fin 8192) (e : Fin 128) => x4 (ix3 (0 : Fin 1) p e)) = fun p e => cV (ix3 h p e) :=
    funext fun p => funext fun e => h4 p e
  have e4 : (fun (j : Fin 16) (e : Fin 128) => x2 (ix2 j e)) = fun j e => v (ix2 j (col h e)) :=
    funext fun j => funext fun e => h2 j e
  rw [out6_apply, arr0_col, e1, e2, e3, e4]
  rfl

end Point6

section Final6
variable (V : (c : Dev nD) → (b : Ref sig .tc) → Buf (Elt Ideal) ((c : Thread nD τ).loc b)) (c : Dev nD)

/-- What point t writes back to result 0 is block column t of the whole-array function of the arrays the region finds. -/
theorem flushed6_eq (t : Fin cfg1.N) :
    (dat1 V c).flushed 6 t
      = ((cfg1.win 6).blk t).view.read (Elt Ideal)
          (arr0 (V c main_v0_0) (V c main_v0_1) (V c main_v0_2) (V c main_arg5) (V c main_arg6)) := by
  show (cfg1.win 6).cut (grid1.coords t) ((dat1 V c).after 6 t) = _
  rw [after1_6]
  funext y
  obtain ⟨m, d, rfl⟩ : ∃ (m : Fin 16) (d : Fin 128), y = (ix2 m d : S16x128.Idx) :=
    ⟨y 0, y 1, eq_ix2 (n0 := 16) (n1 := 128) y⟩
  rw [View.read_apply]
  show out1_6 (iblk1 V c 0 t) (iblk1 V c 1 t) (iblk1 V c 2 t) (iblk1 V c 3 t) (iblk1 V c 4 t) (iblk1 V c 5 t) (ix2 m d)
    = arr0 (V c main_v0_0) (V c main_v0_1) (V c main_v0_2) (V c main_arg5) (V c main_arg6) (((cfg1.win 6).blk t).view.emb (ix2 m d))
  refine (block6 (iblk1 V c 0 t) (iblk1 V c 1 t) (iblk1 V c 2 t) (iblk1 V c 3 t) (iblk1 V c 4 t) (iblk1 V c 5 t)
    (V c main_v0_0) (V c main_v0_1) (V c main_v0_2) (V c main_arg5) (V c main_arg6) (headOf t)
    (iblk0_apply V c t) (iblk1_apply V c t) (iblk2_apply V c t) (iblk3_apply V c t) (iblk4_apply V c t) m d).trans ?_
  obtain ⟨-, -, -, -, -, -, -, -, -, -, -, -, -, -, -, a0, a1, -⟩ := idx_facts t
  refine congrArg (arr0 (V c main_v0_0) (V c main_v0_1) (V c main_v0_2) (V c main_arg5) (V c main_arg6)) (funext fun a => Fin.ext ?_)
  match a with
  | ⟨0, _⟩ => show m.val = win1_6.index t (0 : Fin 2) * 16 + 1 * m.val; rw [a0]; omega
  | ⟨1, _⟩ => show t.val * 128 + d.val = win1_6.index t (1 : Fin 2) * 128 + 1 * d.val; rw [a1]; omega

/-- An index of result 0 is in point t's block iff each coordinate is in the block's range on its axis. -/
theorem mem_blk6 (t : Fin cfg1.N) (i : S16x4096.Idx) :
    i ∈ ((cfg1.win 6).blk t).view.set
      ↔ ∀ a : Fin 2, win1_6.index t a * S16x128.size a ≤ (i a).val ∧ (i a).val < win1_6.index t a * S16x128.size a + S16x128.size a := by
  show i ∈ ((View.whole main_v1_0).slice (win1_6.rect t)).set ↔ _
  rw [View.set_slice_whole, Rect.mem_set_unit]
  exact Iff.rfl

/-- Every index of result 0 is in some point's block: column n is in block column n / 128. -/
theorem cover6 (i : S16x4096.Idx) : ∃ t : Fin cfg1.N, (cfg1.win 6).flush t = true ∧ i ∈ ((cfg1.win 6).blk t).view.set := by
  have hi0 : (i 0).val < 16 := (i 0).isLt
  have hi1 : (i 1).val < 4096 := (i 1).isLt
  have ht : (i 1).val / 128 < cfg1.N := lt_of_lt_of_eq (by omega : (i 1).val / 128 < 32) Gen.N_1.symm
  refine ⟨⟨(i 1).val / 128, ht⟩, Gen.flush1_6 _, ?_⟩
  rw [mem_blk6]
  obtain ⟨-, -, -, -, -, -, -, -, -, -, -, -, -, -, -, a0, a1, -⟩ := idx_facts ⟨(i 1).val / 128, ht⟩
  intro a
  match a with
  | ⟨0, _⟩ => show win1_6.index _ (0 : Fin 2) * 16 ≤ (i 0).val ∧ (i 0).val < win1_6.index _ (0 : Fin 2) * 16 + 16; rw [a0]; omega
  | ⟨1, _⟩ => show win1_6.index _ (1 : Fin 2) * 128 ≤ (i 1).val ∧ (i 1).val < win1_6.index _ (1 : Fin 2) * 128 + 128; rw [a1]; show (i 1).val / 128 * 128 ≤ (i 1).val ∧ (i 1).val < (i 1).val / 128 * 128 + 128; omega

/-- RESULT 0 after the region: the whole-array function of the arrays the region finds. -/
theorem final6 : (dat1 V c).arrAt 6 cfg1.N
    = arr0 (V c main_v0_0) (V c main_v0_1) (V c main_v0_2) (V c main_arg5) (V c main_arg6) :=
  (dat1 V c).arrAt_eq_of_cover 6 (arr0 (V c main_v0_0) (V c main_v0_1) (V c main_v0_2) (V c main_arg5) (V c main_arg6))
    (fun t _ => flushed6_eq V c t) cover6

end Final6

end Cert.KernelIdeal.AttnValue

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«170767_j317827580173_2_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.PreFinite.lean ====
/-
  From the precondition to finiteness.

  The precondition tests, for each of the seven argument arrays, that every entry has absolute value below
  +infinity, and takes the conjunction of the seven tests. Where it holds, every entry of every array is
  therefore a real number: neither infinity.
-/
import proofs.«170767_j317827580173_2_alg».proof.Pre_finite_inputs
import proofs.«170767_j317827580173_2_alg».proof.Proof.LibFiniteTest
import proofs.«170767_j317827580173_2_alg».proof.Proof.LibERealSums
import Idealize.ShloMosaic.Lib.ReduceAll

noncomputable section

namespace Cert.Attn.Pre

open Idealize.ShloMosaic Idealize.ShloMosaic.ValueIdx Cert.LibERealSums Cert.LibFiniteTest Cert.Pre_finite_inputs

variable [Cert.Pre_finite_inputs.Facts]

/-- One array's test: where "all entries have absolute value below +infinity" holds, every entry is finite. -/
theorem isFin_of_all {S : Shape} (v : FVec Ideal S .f32)
    (hb : (⟨0, ![]⟩ : Shape).BroadcastsInDim S (![] : Fin 0 → Fin S.rank)) {axes : List (Fin S.rank)}
    (hr : S.ReducesTo axes (⟨0, ![]⟩ : Shape)) (hu : 0 < (⟨0, ![]⟩ : Shape).numel)
    (e : Host.reduce IntOp.andi
        (cmpf .olt (Host.absf v) (broadcastInDim S ![] hb (constant (F := Ideal) ⟨0, ![]⟩ .f32 0x7F800000#32)))
        (constantI ⟨0, ![]⟩ 1 1#1) hr hu ix0 = 1#1) (i : S.Idx) : IsFin (v i) :=
  isFin_of_test v hb i (Host.reduce_andi_all _ _ hr hu ix0 e i)

/-- Where the precondition holds, every entry of each of the seven argument arrays is finite. -/
theorem isFin_of_pre (a0 : FVec Ideal S16x4096 .f32) (a1 a2 a3 : FVec Ideal S4096x4096 .f32)
    (a4 : FVec Ideal S32x16x8208 .f32) (a5 a6 : FVec Ideal S32x8192x128 .f32)
    (h : Cert.Pre_finite_inputs.fn (F := Ideal) a0 a1 a2 a3 a4 a5 a6 = fun _ => 1#1) :
    (∀ i, IsFin (a0 i)) ∧ (∀ i, IsFin (a1 i)) ∧ (∀ i, IsFin (a2 i)) ∧ (∀ i, IsFin (a3 i)) ∧ (∀ i, IsFin (a4 i))
      ∧ (∀ i, IsFin (a5 i)) ∧ (∀ i, IsFin (a6 i)) := by
  have h0 := congrFun h ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isFin_of_all a0 _ _ _ e0, isFin_of_all a1 _ _ _ e1, isFin_of_all a2 _ _ _ e2, isFin_of_all a3 _ _ _ e3,
    isFin_of_all a4 _ _ _ e4, isFin_of_all a5 _ _ _ e5, isFin_of_all a6 _ _ _ e6⟩

end Cert.Attn.Pre

end
-- ==== Proof.KernelValue.lean ====
/-
  The kernel's two results as functions of the arrays it was launched with.

  The kernel is two regions in sequence. The first leaves, in three arrays, the projections q = X·Wq,
  k = X·Wk and v = X·Wv of the launched activations X against the three weight matrices, and changes
  nothing else. The second is entered with those three arrays and with the two caches and the noise as
  launched; it leaves in its two output arrays the two-chunk attention outputs and the two-chunk softmax
  weights of the perturbed scores, as functions of what it was entered with. Composed, the second region's
  outputs are those functions at the three projections.

  The two-chunk softmax is the whole-row softmax at all extended reals: a maximum and a sum over the 8208
  positions split into the first 8192 and the last 16. So result 1 is the claim's with no side condition.
  The two-chunk attention output divides the two weighted sums of value rows by the denominator AFTER
  adding them, where the whole-row form sums the already divided weights against the value rows. The two
  agree wherever every argument entry is finite, because a finite sum over a finite nonzero number is the
  sum of the quotients; the precondition says exactly that every entry of every argument is finite.
-/
import proofs.«170767_j317827580173_2_alg».proof.Defs
import proofs.«170767_j317827580173_2_alg».proof.Proof.Gen.Pre_finite_inputs
import proofs.«170767_j317827580173_2_alg».proof.Proof.FrameRun
import proofs.«170767_j317827580173_2_alg».proof.Proof.ProjValue
import proofs.«170767_j317827580173_2_alg».proof.Proof.AttnValue
import proofs.«170767_j317827580173_2_alg».proof.Proof.AttnForms
import proofs.«170767_j317827580173_2_alg».proof.Proof.PreFinite

noncomputable section

namespace Cert.KernelIdeal.KernelValue

open Cert.KernelIdeal Cert.KernelIdeal.Gen Idealize.ShloMosaic Idealize.ShloMosaic.TcCoe Idealize.SL.Sem
open Cert.LibERealSums Cert.Attn

variable (m : (ℓ : Loc nD τ sig) → Buf (Elt Ideal) ℓ)

/-- Result 0 of the claim over the arrays core `c` was launched with: activations, the three weight
    matrices, the two caches. -/
abbrev out0 (c : Dev nD) : SX.Idx → EReal :=
  R0 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6))

/-- Result 1 of the claim over the launched arrays: activations, the query and key weights, the noise, the
    key cache. -/
abbrev out1 (c : Dev nD) : SN.Idx → EReal :=
  R1 (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5))

/-! ## What the attention region is entered with

The first region leaves the three projections of the launched activations in its three output arrays and
changes nothing else, so the attention region finds the projections, and the caches and the noise as
launched. -/

theorem entry_q (c : Dev nD) : FrameRun.E1 m c main_v0_0
    = projArr (m ((c.tc : Thread nD τ).loc main_arg0)) (m ((c.tc : Thread nD τ).loc main_arg1)) :=
  (FrameRun.V1_v0_0 m c).trans (ProjValue.final4 (FrameRun.E0 m) c)
theorem entry_k (c : Dev nD) : FrameRun.E1 m c main_v0_1
    = projArr (m ((c.tc : Thread nD τ).loc main_arg0)) (m ((c.tc : Thread nD τ).loc main_arg2)) :=
  (FrameRun.V1_v0_1 m c).trans (ProjValue.final5 (FrameRun.E0 m) c)
theorem entry_v (c : Dev nD) : FrameRun.E1 m c main_v0_2
    = projArr (m ((c.tc : Thread nD τ).loc main_arg0)) (m ((c.tc : Thread nD τ).loc main_arg3)) :=
  (FrameRun.V1_v0_2 m c).trans (ProjValue.final6 (FrameRun.E0 m) c)
theorem entry_noise (c : Dev nD) : FrameRun.E1 m c main_arg4 = m ((c.tc : Thread nD τ).loc main_arg4) := FrameRun.V1_arg4 m c
theorem entry_cK (c : Dev nD) : FrameRun.E1 m c main_arg5 = m ((c.tc : Thread nD τ).loc main_arg5) := FrameRun.V1_arg5 m c
theorem entry_cV (c : Dev nD) : FrameRun.E1 m c main_arg6 = m ((c.tc : Thread nD τ).loc main_arg6) := FrameRun.V1_arg6 m c

/-! ## The kernel's two results -/

/-- Result 1, at all extended reals: the two-chunk softmax of the perturbed scores is the whole-row one. -/
theorem res1 (c : Dev nD) : (AttnBody.dat1 (FrameRun.E1 m) c).arrAt 7 cfg1.N = out1 m c := by
  rw [AttnValue.final7 (FrameRun.E1 m) c, entry_q m c, entry_k m c, entry_noise m c, entry_cK m c]
  exact res1_eq _ _ _ _ _

/-- Result 0, on finite arguments: there the two weighted sums of value rows over the denominator are the
    sum of the weighted rows each over the denominator. -/
theorem res0 (hpre : Cert.Pre_KernelIdeal m) (c : Dev nD) : (AttnBody.dat1 (FrameRun.E1 m) c).arrAt 6 cfg1.N = out0 m c := by
  obtain ⟨h0, h1, h2, h3, -, h5, h6⟩ := Cert.Attn.Pre.isFin_of_pre _ _ _ _ _ _ _ (hpre c)
  rw [AttnValue.final6 (FrameRun.E1 m) c, entry_q m c, entry_k m c, entry_v m c, entry_cK m c, entry_cV m c]
  exact res0_eq _ _ _ _ _ _ h0 h1 h2 h3 h5 h6

end Cert.KernelIdeal.KernelValue

end
-- ==== Proof.RefRead.lean ====
/-
  The reference computation read entry by entry.

  The reference forms the three products X·Wq, X·Wk, X·Wv, regroups each 4096-wide row into 32 heads of 128
  features, extends the cached key and value rows of every head by the 16 new rows, takes the scores of the
  16 query rows against the 8208 extended positions, and normalises each row of scores by the exponentials
  of its differences to the row maximum over their sum — once for the scores themselves, whose weights then
  average the value rows, and once for the scores perturbed by the noise and divided by 1.5.

  Each stage is read here at an index; composed, the two results are the whole-row form of the
  specification: result 0 is `R0`, result 1 is `R1`.
-/
import proofs.«170767_j317827580173_2_alg».proof.Proof.Gen.ReferenceIdeal.Read
import proofs.«170767_j317827580173_2_alg».proof.Proof.Spec
import proofs.«170767_j317827580173_2_alg».proof.Proof.LibRowReduce

noncomputable section

namespace Cert.Attn.Ref

open Cert.ReferenceIdeal Cert.ReferenceIdeal.Gen Cert.ReferenceIdeal.Read Idealize.ShloMosaic
  Idealize.ShloMosaic.ValueIdx RowReduce

variable (x0 : (⟨S16x4096, .f32⟩ : BufTy).Contents (Elt Ideal))
  (x1 x2 x3 : (⟨S4096x4096, .f32⟩ : BufTy).Contents (Elt Ideal))
  (x4 : (⟨S32x16x8208, .f32⟩ : BufTy).Contents (Elt Ideal))
  (x5 x6 : (⟨S32x8192x128, .f32⟩ : BufTy).Contents (Elt Ideal))

/-! ## The projections, regrouped by head -/

/-- Entry (h, m, d) of a regrouped product X·W is row m of the product at column h·128 + d. -/
theorem head_proj (w : (⟨S4096x4096, .f32⟩ : BufTy).Contents (Elt Ideal)) (h : Fin 32) (m : Fin 16) (d : Fin 128) :
    val_main_v2 (F := Ideal) x0 w (ix3 h m d) = proj x0 w m (col h d) := by
  have e2 : idx_main_v2 (ix3 h m d) = ix3 m h d := funext fun a => Fin.ext (by
    match a with
    | ⟨0, _⟩ => rfl
    | ⟨1, _⟩ => rfl
    | ⟨2, _⟩ => rfl)
  have e1 : idx_main_v1 (ix3 m h d) = ix2 m (col h d) := funext fun a => Fin.ext (by
    have hm := m.isLt; have hh := h.isLt; have hd := d.isLt
    match a with
    | ⟨0, _⟩ => show ((m.val * 32 + h.val) * 128 + d.val) / 4096 = m.val; omega
    | ⟨1, _⟩ => show ((m.val * 32 + h.val) * 128 + d.val) % 4096 = h.val * 128 + d.val; omega)
  rw [val_main_v2_apply, e2, val_main_v1_apply, e1, val_main_v0_apply]
  unfold proj
  refine Finset.sum_congr rfl fun k _ => ?_
  have el : lidx_main_v0 (ix2 m (col h d)) k = ix2 m k := funext fun a => Fin.ext (by
    match a with
    | ⟨0, _⟩ => rfl
    | ⟨1, _⟩ => rfl)
  have er : ridx_main_v0 (ix2 m (col h d)) k = ix2 k (col h d) := funext fun a => Fin.ext (by
    match a with
    | ⟨0, _⟩ => rfl
    | ⟨1, _⟩ => rfl)
  rw [el, er]

/-! ## The extended key and value rows -/

/-- A head's cached rows followed by its 16 projected rows: position n reads the cache below 8192 and the
    projection of row n − 8192 from there on. -/
theorem head_cat (C : (⟨S32x8192x128, .f32⟩ : BufTy).Contents (Elt Ideal))
    (w : (⟨S4096x4096, .f32⟩ : BufTy).Contents (Elt Ideal)) (h : Fin 32) (n : Fin 8208) (d : Fin 128) :
    concatenate S32x8208x128 1 [⟨S32x8192x128, C⟩, ⟨S32x16x128, val_main_v2 (F := Ideal) x0 w⟩]
        concatenates_S32x8192x128_S32x16x128_S32x8208x128_d1 (ix3 h n d)
      = cat C (proj x0 w) h n d := by
  unfold cat
  by_cases hn : n.val < 8192
  · rw [dif_pos hn]
    exact concatenate_pair_apply_left 1 C (val_main_v2 (F := Ideal) x0 w)
      concatenates_S32x8192x128_S32x16x128_S32x8208x128_d1 (ix3 h n d) rfl (ix3 h ⟨n.val, hn⟩ d) (fun b => by
      match b with
      | ⟨0, _⟩ => rfl
      | ⟨1, _⟩ => rfl
      | ⟨2, _⟩ => rfl)
  · rw [dif_neg hn]
    have hlt := n.isLt
    refine (concatenate_pair_apply_right 1 C (val_main_v2 (F := Ideal) x0 w)
      concatenates_S32x8192x128_S32x16x128_S32x8208x128_d1 (ix3 h n d) rfl rfl (ix3 h ⟨n.val - 8192, by omega⟩ d)
      (fun b hb => ?_) ?_).trans (head_proj x0 w h ⟨n.val - 8192, by omega⟩ d)
    · match b with
      | ⟨0, _⟩ => rfl
      | ⟨1, _⟩ => exact absurd rfl hb
      | ⟨2, _⟩ => rfl
    · show (n.val - 8192) + 8192 = n.val
      omega

/-! ## The scores -/

/-- The raw score of head h, query row m, extended position n. -/
theorem scores_at (h : Fin 32) (m : Fin 16) (n : Fin 8208) :
    val_main_v11 (F := Ideal) x0 x1 x2 x5 (ix3 h m n) = scores x0 x1 x2 x5 h m n := by
  rw [val_main_v11_apply]
  unfold scores score
  refine Finset.sum_congr rfl fun k _ => ?_
  have el : lidx_main_v11 (ix3 h m n) k = ix3 h m k := funext fun a => Fin.ext (by
    match a with
    | ⟨0, _⟩ => rfl
    | ⟨1, _⟩ => rfl
    | ⟨2, _⟩ => rfl)
  have er : ridx_main_v11 (ix3 h m n) k = ix3 h n k := funext fun a => Fin.ext (by
    match a with
    | ⟨0, _⟩ => rfl
    | ⟨1, _⟩ => rfl
    | ⟨2, _⟩ => rfl)
  rw [el, er, head_proj]
  exact congrArg (proj x0 x1 m (col h k) * ·) (head_cat x0 x5 x2 h n k)

/-- The perturbed score: the raw score plus the noise, over 1.5. -/
theorem pert_at (h : Fin 32) (m : Fin 16) (n : Fin 8208) :
    val_main_v14 (F := Ideal) x0 x1 x2 x4 x5 (ix3 h m n) = pert (scores x0 x1 x2 x5) x4 h m n := by
  rw [val_main_v14_apply, val_main_v13_apply, val_main_cst_apply, val_main_v12_apply, scores_at]
  rfl

/-! ## The softmax of the raw scores -/

/-- A row's index among the 32 x 16 rows, recovered from an entry's index by forgetting the position. -/
theorem row_of_entry (h : Fin 32) (m : Fin 16) (n : Fin 8208) :
    idx_main_v18 (idx_main_v19 (ix3 h m n)) = ix2 h m := funext fun a => Fin.ext (by
  match a with
  | ⟨0, _⟩ => rfl
  | ⟨1, _⟩ => rfl)

/-- The maximum of row (h, m) of the raw scores. -/
theorem max_raw (h : Fin 32) (m : Fin 16) :
    val_main_v17 (F := Ideal) x0 x1 x2 x5 (ix2 h m) = rowMax (scores x0 x1 x2 x5 h m) := by
  have e15 : val_main_v15 (F := Ideal) x0 x1 x2 x5 (ix2 h m) = foldMax wNegInf (scores x0 x1 x2 x5 h m) := by
    unfold val_main_v15
    refine (hostReduce_max_row (a := 32) (b := 16) (c := 8208) (φ := .f32) (val_main_v11 (F := Ideal) x0 x1 x2 x5)
      (val_main_cst_0 (F := Ideal)) reducesTo_S32x16x8208_S32x16_d2 (by decide) h_S_ h m).trans ?_
    exact congrArg (foldMax wNegInf) (funext fun k => scores_at x0 x1 x2 x5 h m k)
  rw [val_main_v17_apply, val_main_v16_apply, val_main_cst_1_apply, e15]
  rfl

/-- The exponential of an entry of the raw scores less its row's maximum. -/
theorem exp_raw (h : Fin 32) (m : Fin 16) (n : Fin 8208) :
    val_main_v21 (F := Ideal) x0 x1 x2 x5 (ix3 h m n) = rowExp (scores x0 x1 x2 x5 h m) n := by
  rw [val_main_v21_apply, val_main_v20_apply, val_main_v19_apply, val_main_v18_apply, row_of_entry, max_raw,
    scores_at]
  rfl

/-- The denominator of row (h, m) of the raw scores. -/
theorem sum_raw (h : Fin 32) (m : Fin 16) :
    val_main_v22 (F := Ideal) x0 x1 x2 x5 (ix2 h m) = rowSum (scores x0 x1 x2 x5 h m) := by
  rw [val_main_v22_apply]
  unfold rowSum
  refine congrArg (wZero + ·) (Finset.sum_congr rfl fun k _ => ?_)
  have e : idx_main_v22 (ix2 h m) k = ix3 h m k := funext fun a => Fin.ext (by
    match a with
    | ⟨0, _⟩ => rfl
    | ⟨1, _⟩ => rfl
    | ⟨2, _⟩ => rfl)
  rw [e]
  exact exp_raw x0 x1 x2 x5 h m k

/-- The softmax weight of entry (h, m, n) of the raw scores. -/
theorem soft_raw (h : Fin 32) (m : Fin 16) (n : Fin 8208) :
    val_main_v25 (F := Ideal) x0 x1 x2 x5 (ix3 h m n) = soft (scores x0 x1 x2 x5 h m) n := by
  have e : idx_main_v23 (idx_main_v24 (ix3 h m n)) = ix2 h m := funext fun a => Fin.ext (by
    match a with
    | ⟨0, _⟩ => rfl
    | ⟨1, _⟩ => rfl)
  rw [val_main_v25_apply, val_main_v24_apply, val_main_v23_apply, e, sum_raw, exp_raw]
  rfl

/-! ## The softmax of the perturbed scores -/

/-- The maximum of row (h, m) of the perturbed scores. -/
theorem max_pert (h : Fin 32) (m : Fin 16) :
    val_main_v28 (F := Ideal) x0 x1 x2 x4 x5 (ix2 h m) = rowMax (pert (scores x0 x1 x2 x5) x4 h m) := by
  have e26 : val_main_v26 (F := Ideal) x0 x1 x2 x4 x5 (ix2 h m)
      = foldMax wNegInf (pert (scores x0 x1 x2 x5) x4 h m) := by
    unfold val_main_v26
    refine (hostReduce_max_row (a := 32) (b := 16) (c := 8208) (φ := .f32) (val_main_v14 (F := Ideal) x0 x1 x2 x4 x5)
      (val_main_cst_3 (F := Ideal)) reducesTo_S32x16x8208_S32x16_d2 (by decide) h_S_ h m).trans ?_
    exact congrArg (foldMax wNegInf) (funext fun k => pert_at x0 x1 x2 x4 x5 h m k)
  rw [val_main_v28_apply, val_main_v27_apply, val_main_cst_4_apply, e26]
  rfl

/-- The exponential of an entry of the perturbed scores less its row's maximum. -/
theorem exp_pert (h : Fin 32) (m : Fin 16) (n : Fin 8208) :
    val_main_v32 (F := Ideal) x0 x1 x2 x4 x5 (ix3 h m n) = rowExp (pert (scores x0 x1 x2 x5) x4 h m) n := by
  have e : idx_main_v29 (idx_main_v30 (ix3 h m n)) = ix2 h m := funext fun a => Fin.ext (by
    match a with
    | ⟨0, _⟩ => rfl
    | ⟨1, _⟩ => rfl)
  rw [val_main_v32_apply, val_main_v31_apply, val_main_v30_apply, val_main_v29_apply, e, max_pert, pert_at]
  rfl

/-- The denominator of row (h, m) of the perturbed scores. -/
theorem sum_pert (h : Fin 32) (m : Fin 16) :
    val_main_v33 (F := Ideal) x0 x1 x2 x4 x5 (ix2 h m) = rowSum (pert (scores x0 x1 x2 x5) x4 h m) := by
  rw [val_main_v33_apply]
  unfold rowSum
  refine congrArg (wZero + ·) (Finset.sum_congr rfl fun k _ => ?_)
  have e : idx_main_v33 (ix2 h m) k = ix3 h m k := funext fun a => Fin.ext (by
    match a with
    | ⟨0, _⟩ => rfl
    | ⟨1, _⟩ => rfl
    | ⟨2, _⟩ => rfl)
  rw [e]
  exact exp_pert x0 x1 x2 x4 x5 h m k

/-- The softmax weight of entry (h, m, n) of the perturbed scores. -/
theorem soft_pert (h : Fin 32) (m : Fin 16) (n : Fin 8208) :
    val_main_v36 (F := Ideal) x0 x1 x2 x4 x5 (ix3 h m n) = soft (pert (scores x0 x1 x2 x5) x4 h m) n := by
  have e : idx_main_v34 (idx_main_v35 (ix3 h m n)) = ix2 h m := funext fun a => Fin.ext (by
    match a with
    | ⟨0, _⟩ => rfl
    | ⟨1, _⟩ => rfl)
  rw [val_main_v36_apply, val_main_v35_apply, val_main_v34_apply, e, sum_pert, exp_pert]
  rfl

/-! ## The two results -/

/-- Result 1, the softmax of the perturbed scores, is `R1`. -/
theorem ref_res1 : val_main_v36 (F := Ideal) x0 x1 x2 x4 x5 = R1 x0 x1 x2 x4 x5 := by
  funext i
  obtain ⟨h, m, n, rfl⟩ : ∃ (h : Fin 32) (m : Fin 16) (n : Fin 8208), i = ix3 h m n := ⟨i 0, i 1, i 2, eq_ix3 i⟩
  exact (soft_pert x0 x1 x2 x4 x5 h m n).trans (R1_apply x0 x1 x2 x4 x5 h m n).symm

/-- The weighted value rows of head h, query row m, feature d, before the heads are laid side by side. -/
theorem attend_at (m : Fin 16) (h : Fin 32) (d : Fin 128) :
    val_main_v38 (F := Ideal) x0 x1 x2 x3 x5 x6 (ix3 m h d) = G0 x0 x1 x2 x3 x5 x6 m h d := by
  have e : idx_main_v38 (ix3 m h d) = ix3 h m d := funext fun a => Fin.ext (by
    match a with
    | ⟨0, _⟩ => rfl
    | ⟨1, _⟩ => rfl
    | ⟨2, _⟩ => rfl)
  rw [val_main_v38_apply, e, val_main_v37_apply]
  unfold G0 attend
  refine Finset.sum_congr rfl fun k _ => ?_
  have el : lidx_main_v37 (ix3 h m d) k = ix3 h m k := funext fun a => Fin.ext (by
    match a with
    | ⟨0, _⟩ => rfl
    | ⟨1, _⟩ => rfl
    | ⟨2, _⟩ => rfl)
  have er : ridx_main_v37 (ix3 h m d) k = ix3 h k d := funext fun a => Fin.ext (by
    match a with
    | ⟨0, _⟩ => rfl
    | ⟨1, _⟩ => rfl
    | ⟨2, _⟩ => rfl)
  rw [el, er, soft_raw]
  exact congrArg (soft (scores x0 x1 x2 x5 h m) k * ·) (head_cat x0 x6 x3 h k d)

/-- Result 0, the heads' outputs laid side by side in 4096-wide rows, is `R0`: column c holds feature c % 128 of
    head c / 128. -/
theorem ref_res0 : val_main_v39 (F := Ideal) x0 x1 x2 x3 x5 x6 = R0 x0 x1 x2 x3 x5 x6 := by
  funext i
  have h0 : (i 0).val < 16 := (i 0).isLt
  have h1 : (i 1).val < 4096 := (i 1).isLt
  have e : idx_main_v39 i
      = ix3 (⟨(i 0).val, h0⟩ : Fin 16) (⟨(i 1).val / 128, by omega⟩ : Fin 32) (⟨(i 1).val % 128, by omega⟩ : Fin 128) :=
    funext fun a => Fin.ext (by
      match a with
      | ⟨0, _⟩ => show ((i 0).val * 4096 + (i 1).val) / 4096 = (i 0).val; omega
      | ⟨1, _⟩ => show ((i 0).val * 4096 + (i 1).val) / 128 % 32 = (i 1).val / 128; omega
      | ⟨2, _⟩ => show ((i 0).val * 4096 + (i 1).val) % 128 = (i 1).val % 128; omega)
  rw [val_main_v39_apply, e, attend_at]
  rfl

end Cert.Attn.Ref

end
-- ==== Proof.lean ====
/-
  Fused projections and attention over a key/value cache: the kernel and the reference compute the same
  two arrays.

  Both programs take activations X (16 x 4096), three weight matrices, a noise array, and a key cache and a
  value cache of 8192 rows per head (32 heads of 128 features). Both form q = X·Wq, k = X·Wk, v = X·Wv, extend
  each head's cache by the 16 new key (value) rows to 8208 positions, and return
    result 0: per head, the softmax of the raw scores q·kᵀ against the extended value rows, the heads laid
              side by side (16 x 4096);
    result 1: per head, the softmax of the perturbed scores (raw score plus noise, over 1.5) (32 x 16 x 8208).
  The reference does this a whole row of 8208 positions at a time. The kernel does it in two steps — the three
  projections, then per head the attention — and inside a row treats the 8192 cache positions and the 16 new
  positions apart: the larger of the two chunk maxima, the two sums of exponentials added, the two weighted
  sums of value rows added and then divided by the denominator.

  What joins them: a maximum folded over 8208 positions is the larger of the maxima folded over the two
  chunks, and a sum over 8208 positions is the sum of the two chunk sums — at all extended reals, so the
  softmax weights agree with no side condition; and, for finite terms and a finite nonzero denominator L,
  ∑ (e n / L) · v n = (∑ e n · v n) / L, which fails at the infinities. That last law is why the
  precondition (every entry of every argument is finite) is used, and it is used only there: for the
  attention outputs, where the kernel divides a sum and the reference sums quotients.

  The kernel read over machine floats and read over the extended reals is one and the same text (no
  operation differs between the two readings), so the claim relating the two readings is the trivial one.
  Each frame claim is the run of the program's two regions (the kernel) or of its host operations (the
  reference); each run ends with every argument array holding what it held at launch.
-/
import proofs.«170767_j317827580173_2_alg».proof.Defs
import proofs.«170767_j317827580173_2_alg».proof.Proof.Gen.Kernel
import proofs.«170767_j317827580173_2_alg».proof.Proof.Gen.Kernel.Skeleton
import proofs.«170767_j317827580173_2_alg».proof.Proof.Gen.Kernel.Launch
import proofs.«170767_j317827580173_2_alg».proof.Proof.Gen.Kernel.Regions
import proofs.«170767_j317827580173_2_alg».proof.Proof.Gen.Kernel.Points
import proofs.«170767_j317827580173_2_alg».proof.Proof.Gen.KernelIdeal
import proofs.«170767_j317827580173_2_alg».proof.Proof.Gen.KernelIdeal.Skeleton
import proofs.«170767_j317827580173_2_alg».proof.Proof.Gen.KernelIdeal.Launch
import proofs.«170767_j317827580173_2_alg».proof.Proof.Gen.KernelIdeal.Regions
import proofs.«170767_j317827580173_2_alg».proof.Proof.Gen.KernelIdeal.Points
import proofs.«170767_j317827580173_2_alg».proof.Proof.Gen.ReferenceIdeal
import proofs.«170767_j317827580173_2_alg».proof.Proof.Gen.ReferenceIdeal.Run
import proofs.«170767_j317827580173_2_alg».proof.Proof.Gen.ReferenceIdeal.Read
import proofs.«170767_j317827580173_2_alg».proof.Proof.Gen.Pre_finite_inputs
import Idealize.ShloMosaic.Adequacy
import Idealize.ShloMosaic.Init
import proofs.«170767_j317827580173_2_alg».proof.Proof.FrameRun
import proofs.«170767_j317827580173_2_alg».proof.Proof.FrameRunBits
import proofs.«170767_j317827580173_2_alg».proof.Proof.KernelValue
import proofs.«170767_j317827580173_2_alg».proof.Proof.RefRead

noncomputable section

namespace Cert.Proof

open Idealize.ShloMosaic Idealize.SL.Sem

/-- Both printings of the kernel run and leave their arguments as launched. -/
theorem frame_k : Cert.frame_Kernel := fun m ρ _ => Cert.Kernel.FrameRun.frame m ρ
theorem frame_ki : Cert.frame_KernelIdeal := fun m ρ _ => Cert.KernelIdeal.FrameRun.frame m ρ

/-- The reference runs and leaves its arguments as launched: its run names the two results, then the seven
    arguments. -/
theorem frame_ri : Cert.frame_ReferenceIdeal := fun m ρ _ =>
  (θ_run Cert.ReferenceIdeal.defs _ _).mono (fun _ h c => (h c).2.2) (Cert.ReferenceIdeal.Value.run (F := Ideal) m ρ)

/-- On finite arguments that agree, both programs end with the same two arrays: the attention outputs and
    the softmax weights of the perturbed scores, as functions of the kernel's launched arguments. -/
theorem algebraic : Cert.algebraic_KernelIdeal_ReferenceIdeal := by
  intro m ρ m' ρ' hpre hagree
  refine ⟨Cert.KernelIdeal.KernelValue.out0 m, Cert.KernelIdeal.KernelValue.out1 m, ?_, ?_⟩
  · exact (θ_run Cert.KernelIdeal.defs _ _).mono
      (fun _ h c => ⟨(h c).1.trans (Cert.KernelIdeal.KernelValue.res0 m hpre c),
        (h c).2.1.trans (Cert.KernelIdeal.KernelValue.res1 m c), (h c).2.2⟩)
      (Cert.KernelIdeal.FrameRun.run_named m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v39_eq, Cert.Attn.Ref.ref_res0, (hagree c).1, (hagree c).2.1, (hagree c).2.2.1,
        (hagree c).2.2.2.1, (hagree c).2.2.2.2.2.1, (hagree c).2.2.2.2.2.2]
    · rw [Cert.ReferenceIdeal.Read.val_main_v36_eq, Cert.Attn.Ref.ref_res1, (hagree c).1, (hagree c).2.1, (hagree c).2.2.1,
        (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
